-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x192 : Shape := ⟨3, ![3, 128, 192]⟩
abbrev S192 : Shape := ⟨1, ![192]⟩
abbrev S3x192x192 : Shape := ⟨3, ![3, 192, 192]⟩
abbrev S3x192x128 : Shape := ⟨3, ![3, 192, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x192 : S_.BroadcastsInDim S3x128x192 (![] : Fin 0 → Fin S3x128x192.rank)
  reducesTo_S3x128x192_S_d0_1_2 : S3x128x192.ReducesTo [0, 1, 2] S_
  bcast_S_S192 : S_.BroadcastsInDim S192 (![] : Fin 0 → Fin S192.rank)
  reducesTo_S192_S_d0 : S192.ReducesTo [0] S_
  bcast_S_S3x192x192 : S_.BroadcastsInDim S3x192x192 (![] : Fin 0 → Fin S3x192x192.rank)
  reducesTo_S3x192x192_S_d0_1_2 : S3x192x192.ReducesTo [0, 1, 2] S_
  bcast_S_S3x192x128 : S_.BroadcastsInDim S3x192x128 (![] : Fin 0 → Fin S3x192x128.rank)
  reducesTo_S3x192x128_S_d0_1_2 : S3x192x128.ReducesTo [0, 1, 2] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S192 .f32) (main_arg7 : FVec F S3x192x128 .f32) (main_arg8 : FVec F S128 .f32) (main_arg9 : FVec F S128x10 .f32) (main_arg10 : FVec F S10 .f32) (main_v13 : IVec S_ 1) (main_v16 : IVec S3x192x192 1) : IVec S_ 1 :=
  let main_c_5 : IVec S_ 1 := constantI S_ 1 1#1
  let main_v17 : IVec S_ 1 := (fun x v => Host.reduce IntOp.andi x v reducesTo_S3x192x192_S_d0_1_2 h_S_) main_v16 main_c_5
  let main_v18 : IVec S_ 1 := andi main_v13 main_v17
  let main_v19 : FVec F S192 .f32 := Host.absf main_arg6
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S3x192x128 .f32 := Host.absf main_arg7
  let main_cst_8 : FVec F S_ .f32 := constant S_ .f32 0x7F800000#32
  let main_v25 : FVec F S3x192x128 .f32 := broadcastInDim S3x192x128 ![] bcast_S_S3x192x128 main_cst_8
  let main_v26 : IVec S3x192x128 1 := cmpf .olt main_v24 main_v25
  let main_c_9 : IVec S_ 1 := constantI S_ 1 1#1
  let main_v27 : IVec S_ 1 := (fun x v => Host.reduce IntOp.andi x v reducesTo_S3x192x128_S_d0_1_2 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S3x128x192 .f32) (main_arg4 : FVec F S192 .f32) (main_arg5 : FVec F S3x192x192 .f32) (main_arg6 : FVec F S192 .f32) (main_arg7 : FVec F S3x192x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x192 .f32 := Host.absf main_arg3
  let main_cst_0 : FVec F S_ .f32 := constant S_ .f32 0x7F800000#32
  let main_v5 : FVec F S3x128x192 .f32 := broadcastInDim S3x128x192 ![] bcast_S_S3x128x192 main_cst_0
  let main_v6 : IVec S3x128x192 1 := cmpf .olt main_v4 main_v5
  let main_c_1 : IVec S_ 1 := constantI S_ 1 1#1
  let main_v7 : IVec S_ 1 := (fun x v => Host.reduce IntOp.andi x v reducesTo_S3x128x192_S_d0_1_2 h_S_) main_v6 main_c_1
  let main_v8 : IVec S_ 1 := andi main_v3 main_v7
  let main_v9 : FVec F S192 .f32 := Host.absf main_arg4
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S3x192x192 .f32 := Host.absf main_arg5
  let main_cst_4 : FVec F S_ .f32 := constant S_ .f32 0x7F800000#32
  let main_v15 : FVec F S3x192x192 .f32 := broadcastInDim S3x192x192 ![] bcast_S_S3x192x192 main_cst_4
  let main_v16 : IVec S3x192x192 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x192 : Shape := ⟨3, ![3, 128, 192]⟩
abbrev S192 : Shape := ⟨1, ![192]⟩
abbrev S3x192x192 : Shape := ⟨3, ![3, 192, 192]⟩
abbrev S3x192x128 : Shape := ⟨3, ![3, 192, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x192 : Shape := ⟨2, ![1, 192]⟩
abbrev S50000x192 : Shape := ⟨2, ![50000, 192]⟩
abbrev S2000x128 : Shape := ⟨2, ![2000, 128]⟩
abbrev S2000x192 : Shape := ⟨2, ![2000, 192]⟩
abbrev S1x128x192 : Shape := ⟨3, ![1, 128, 192]⟩
abbrev S128x192 : Shape := ⟨2, ![128, 192]⟩
abbrev S800000x192 : Shape := ⟨2, ![800000, 192]⟩
abbrev S1x192x192 : Shape := ⟨3, ![1, 192, 192]⟩
abbrev S192x192 : Shape := ⟨2, ![192, 192]⟩
abbrev S1x128 : Shape := ⟨2, ![1, 128]⟩
abbrev S1x192x128 : Shape := ⟨3, ![1, 192, 128]⟩
abbrev S192x128 : Shape := ⟨2, ![192, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩
abbrev S64x10 : Shape := ⟨2, ![64, 10]⟩

abbrev nBuf : Space → Nat
  | .hbm => 210
  | .vmem => 34
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x192, .f32⟩
  | 4 => ⟨S192, .f32⟩
  | 5 => ⟨S3x192x192, .f32⟩
  | 6 => ⟨S192, .f32⟩
  | 7 => ⟨S3x192x128, .f32⟩
  | 8 => ⟨S128, .f32⟩
  | 9 => ⟨S128x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .f32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x128, .f32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S800000x1, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x128, .f32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1x192, .f32⟩
  | 99 => ⟨S50000x192, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x192, .f32⟩
  | 110 => ⟨S800000x192, .f32⟩
  | 111 => ⟨S800000x192, .f32⟩
  | 112 => ⟨S_, .f32⟩
  | 113 => ⟨S50000x192, .f32⟩
  | 114 => ⟨S800000x1, .i32⟩
  | 115 => ⟨S50000x192, .f32⟩
  | 116 => ⟨S_, .f32⟩
  | 117 => ⟨S50000x192, .f32⟩
  | 118 => ⟨S50000x192, .f32⟩
  | 119 => ⟨S50000x192, .f32⟩
  | 120 => ⟨S800000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x192, .f32⟩
  | 2 => ⟨S800000x192, .f32⟩
  | 3 => ⟨S800000x192, .f32⟩
  | 4 => ⟨S_, .f32⟩
  | 5 => ⟨S50000x192, .f32⟩
  | 6 => ⟨S800000x1, .i32⟩
  | 7 => ⟨S50000x192, .f32⟩
  | 8 => ⟨S_, .f32⟩
  | 9 => ⟨S50000x192, .f32⟩
  | 10 => ⟨S50000x192, .f32⟩
  | 11 => ⟨S50000x192, .f32⟩
  | 12 => ⟨S_, .f32⟩
  | 13 => ⟨S50000x192, .f32⟩
  | 14 => ⟨S50000x192, .f32⟩
  | 15 => ⟨S50000x192, .f32⟩
  | 16 => ⟨S1x192, .f32⟩
  | 17 => ⟨S50000x192, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x192, .f32⟩
  | 28 => ⟨S800000x192, .f32⟩
  | 29 => ⟨S800000x192, .f32⟩
  | 30 => ⟨S_, .f32⟩
  | 31 => ⟨S50000x192, .f32⟩
  | 32 => ⟨S800000x1, .i32⟩
  | 33 => ⟨S50000x192, .f32⟩
  | 34 => ⟨S_, .f32⟩
  | 35 => ⟨S50000x192, .f32⟩
  | 36 => ⟨S50000x192, .f32⟩
  | 37 => ⟨S50000x192, .f32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x192, .f32⟩
  | 48 => ⟨S800000x192, .f32⟩
  | 49 => ⟨S800000x192, .f32⟩
  | 50 => ⟨S_, .f32⟩
  | 51 => ⟨S50000x192, .f32⟩
  | 52 => ⟨S800000x1, .i32⟩
  | 53 => ⟨S50000x192, .f32⟩
  | 54 => ⟨S_, .f32⟩
  | 55 => ⟨S50000x192, .f32⟩
  | 56 => ⟨S50000x192, .f32⟩
  | 57 => ⟨S50000x192, .f32⟩
  | 58 => ⟨S_, .f32⟩
  | 59 => ⟨S50000x192, .f32⟩
  | 60 => ⟨S50000x192, .f32⟩
  | 61 => ⟨S50000x192, .f32⟩
  | 62 => ⟨S1x128, .f32⟩
  | 63 => ⟨S50000x128, .f32⟩
  | 64 => ⟨S_, .f32⟩
  | 65 => ⟨S64x128, .f32⟩
  | 66 => ⟨S50000x1, .i32⟩
  | 67 => ⟨S64x128, .f32⟩
  | 68 => ⟨S_, .f32⟩
  | 69 => ⟨S50000, .f32⟩
  | 70 => ⟨S_, .f32⟩
  | 71 => ⟨S64, .f32⟩
  | 72 => ⟨S50000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x128, .f32⟩
  | 79 => ⟨S64x128, .f32⟩
  | 80 => ⟨S1x10, .f32⟩
  | 81 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x192, .f32⟩
  | .local _ .vmem, ⟨7, _⟩ => ⟨S1x192, .f32⟩
  | .local _ .vmem, ⟨8, _⟩ => ⟨S2000x192, .f32⟩
  | .local _ .vmem, ⟨9, _⟩ => ⟨S2000x192, .f32⟩
  | .local _ .vmem, ⟨10, _⟩ => ⟨S2000x192, .f32⟩
  | .local _ .vmem, ⟨11, _⟩ => ⟨S2000x192, .f32⟩
  | .local _ .vmem, ⟨12, _⟩ => ⟨S2000x192, .f32⟩
  | .local _ .vmem, ⟨13, _⟩ => ⟨S2000x192, .f32⟩
  | .local _ .vmem, ⟨14, _⟩ => ⟨S2000x192, .f32⟩
  | .local _ .vmem, ⟨15, _⟩ => ⟨S2000x192, .f32⟩
  | .local _ .vmem, ⟨16, _⟩ => ⟨S3x192x192, .f32⟩
  | .local _ .vmem, ⟨17, _⟩ => ⟨S1x192, .f32⟩
  | .local _ .vmem, ⟨18, _⟩ => ⟨S2000x192, .f32⟩
  | .local _ .vmem, ⟨19, _⟩ => ⟨S2000x192, .f32⟩
  | .local _ .vmem, ⟨20, _⟩ => ⟨S2000x192, .f32⟩
  | .local _ .vmem, ⟨21, _⟩ => ⟨S2000x192, .f32⟩
  | .local _ .vmem, ⟨22, _⟩ => ⟨S2000x192, .f32⟩
  | .local _ .vmem, ⟨23, _⟩ => ⟨S2000x192, .f32⟩
  | .local _ .vmem, ⟨24, _⟩ => ⟨S2000x192, .f32⟩
  | .local _ .vmem, ⟨25, _⟩ => ⟨S2000x192, .f32⟩
  | .local _ .vmem, ⟨26, _⟩ => ⟨S3x192x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S64x128, .f32⟩
  | .local _ .vmem, ⟨31, _⟩ => ⟨S128x10, .f32⟩
  | .local _ .vmem, ⟨32, _⟩ => ⟨S1x10, .f32⟩
  | .local _ .vmem, ⟨33, _⟩ => ⟨S64x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_16 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_17 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_c_22 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_26 : Ref sig .tc := ⟨.hbm, 147, rfl⟩
abbrev main_v106 : Ref sig .tc := ⟨.hbm, 148, rfl⟩
abbrev main_v107 : Ref sig .tc := ⟨.hbm, 149, rfl⟩
abbrev main_c_27 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_28 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_29 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_30 : Ref sig .tc := ⟨.hbm, 167, rfl⟩
abbrev main_v122 : Ref sig .tc := ⟨.hbm, 168, rfl⟩
abbrev main_v123 : Ref sig .tc := ⟨.hbm, 169, rfl⟩
abbrev main_c_31 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_33 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_34 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_cst_35 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_36 : Ref sig .tc := ⟨.hbm, 196, rfl⟩
abbrev main_v145 : Ref sig .tc := ⟨.hbm, 197, rfl⟩
abbrev main_cst_37 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_38 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem2_0 : DmaSem sig := 32
abbrev cc3_sem3_0 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x192x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S192_S1x192 : S192.ShapeCasts S1x192
  inb_S3x128x192_S3x128x192_0_0_0 : ∀ a, (![0, 0, 0] : Fin 3 → Nat) a + S3x128x192.size a ≤ S3x128x192.size a
  h_S3x128x192 : 0 < S3x128x192.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  slices_S3x128x192_o0_0_0_S1x128x192 : S3x128x192.Slices ![0, 0, 0] S1x128x192
  shapeCasts_S1x128x192_S128x192 : S1x128x192.ShapeCasts S128x192
  slices_S3x128x192_o1_0_0_S1x128x192 : S3x128x192.Slices ![1, 0, 0] S1x128x192
  slices_S3x128x192_o2_0_0_S1x128x192 : S3x128x192.Slices ![2, 0, 0] S1x128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  inb_S2000x192_S2000x192_0_0 : ∀ a, (![0, 0] : Fin 2 → Nat) a + S2000x192.size a ≤ S2000x192.size a
  h_S2000x192 : 0 < S2000x192.numel
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  inb_S3x192x192_S3x192x192_0_0_0 : ∀ a, (![0, 0, 0] : Fin 3 → Nat) a + S3x192x192.size a ≤ S3x192x192.size a
  h_S3x192x192 : 0 < S3x192x192.numel
  shapeCasts_S2000x192_S2000x192 : S2000x192.ShapeCasts S2000x192
  slices_S3x192x192_o0_0_0_S1x192x192 : S3x192x192.Slices ![0, 0, 0] S1x192x192
  shapeCasts_S1x192x192_S192x192 : S1x192x192.ShapeCasts S192x192
  slices_S3x192x192_o1_0_0_S1x192x192 : S3x192x192.Slices ![1, 0, 0] S1x192x192
  slices_S3x192x192_o2_0_0_S1x192x192 : S3x192x192.Slices ![2, 0, 0] S1x192x192
  shapeCasts_S128_S1x128 : S128.ShapeCasts S1x128
  inb_S3x192x128_S3x192x128_0_0_0 : ∀ a, (![0, 0, 0] : Fin 3 → Nat) a + S3x192x128.size a ≤ S3x192x128.size a
  h_S3x192x128 : 0 < S3x192x128.numel
  slices_S3x192x128_o0_0_0_S1x192x128 : S3x192x128.Slices ![0, 0, 0] S1x192x128
  shapeCasts_S1x192x128_S192x128 : S1x192x128.ShapeCasts S192x128
  slices_S3x192x128_o1_0_0_S1x192x128 : S3x192x128.Slices ![1, 0, 0] S1x192x128
  slices_S3x192x128_o2_0_0_S1x192x128 : S3x192x128.Slices ![2, 0, 0] S1x192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x192_S2000x192_1_0_0_1_n_n_wf : DotDims.WF S2000x128 S128x192 S2000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x192_S192x192_S2000x192_1_0_0_1_n_n_wf : DotDims.WF S2000x192 S192x192 S2000x192 [1] [0] [0] [1] [] []
  dot_S2000x192_S192x128_S2000x128_1_0_0_1_n_n_wf : DotDims.WF S2000x192 S192x128 S2000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x192.size a ≤ S3x128x192.size a
  hwx0_3 : ∀ i : grid0.Coords, EltTy.bits .f32 = 32 ∨ (Rect.block (s := S3x128x192) S3x128x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x192.size a ≤ S50000x192.size a
  hwx0_5 : ∀ i : grid0.Coords, EltTy.bits .f32 = 32 ∨ (Rect.block (s := S50000x192) S2000x192.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x192.size a ≤ S50000x192.size a
  hwx1_0 : ∀ i : grid1.Coords, EltTy.bits .f32 = 32 ∨ (Rect.block (s := S50000x192) S2000x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x192.size a ≤ S50000x192.size a
  hwx1_1 : ∀ i : grid1.Coords, EltTy.bits .f32 = 32 ∨ (Rect.block (s := S50000x192) S2000x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x192.size a ≤ S50000x192.size a
  hwx1_2 : ∀ i : grid1.Coords, EltTy.bits .f32 = 32 ∨ (Rect.block (s := S50000x192) S2000x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x192x192.size a ≤ S3x192x192.size a
  hwx1_3 : ∀ i : grid1.Coords, EltTy.bits .f32 = 32 ∨ (Rect.block (s := S3x192x192) S3x192x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x192.size a ≤ S50000x192.size a
  hwx1_5 : ∀ i : grid1.Coords, EltTy.bits .f32 = 32 ∨ (Rect.block (s := S50000x192) S2000x192.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x192.size a ≤ S50000x192.size a
  hwx2_0 : ∀ i : grid2.Coords, EltTy.bits .f32 = 32 ∨ (Rect.block (s := S50000x192) S2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x192.size a ≤ S50000x192.size a
  hwx2_1 : ∀ i : grid2.Coords, EltTy.bits .f32 = 32 ∨ (Rect.block (s := S50000x192) S2000x192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x192.size a ≤ S50000x192.size a
  hwx2_2 : ∀ i : grid2.Coords, EltTy.bits .f32 = 32 ∨ (Rect.block (s := S50000x192) S2000x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x192x128.size a ≤ S3x192x128.size a
  hwx2_3 : ∀ i : grid2.Coords, EltTy.bits .f32 = 32 ∨ (Rect.block (s := S3x192x128) S3x192x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x192_S2000x192_1_0_0_1_n_n : DotDims S2000x128 S128x192 S2000x192 where
  lhsContracting := [1]
  rhsContracting := [0]
  lhsNonContracting := [0]
  rhsNonContracting := [1]
  lhsBatch := []
  rhsBatch := []
  wf := dot_S2000x128_S128x192_S2000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x192_S192x192_S2000x192_1_0_0_1_n_n : DotDims S2000x192 S192x192 S2000x192 where
  lhsContracting := [1]
  rhsContracting := [0]
  lhsNonContracting := [0]
  rhsNonContracting := [1]
  lhsBatch := []
  rhsBatch := []
  wf := dot_S2000x192_S192x192_S2000x192_1_0_0_1_n_n_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S2000x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v67) S2000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v83) S2000x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v102) S2000x192.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x192x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v103) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v104) S2000x192.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v104) S2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v120) S2000x192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v139) S2000x192.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S3x192x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v140) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v141) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v153) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v154) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v155) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x192 : Shape := ⟨3, ![3, 128, 192]⟩
abbrev S192 : Shape := ⟨1, ![192]⟩
abbrev S3x192x192 : Shape := ⟨3, ![3, 192, 192]⟩
abbrev S3x192x128 : Shape := ⟨3, ![3, 192, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x192 : Shape := ⟨3, ![1, 128, 192]⟩
abbrev S128x192 : Shape := ⟨2, ![128, 192]⟩
abbrev S50000x192 : Shape := ⟨2, ![50000, 192]⟩
abbrev S800000x128 : Shape := ⟨2, ![800000, 128]⟩
abbrev S1x192 : Shape := ⟨2, ![1, 192]⟩
abbrev S1x192x192 : Shape := ⟨3, ![1, 192, 192]⟩
abbrev S192x192 : Shape := ⟨2, ![192, 192]⟩
abbrev S800000x192 : Shape := ⟨2, ![800000, 192]⟩
abbrev S1x192x128 : Shape := ⟨3, ![1, 192, 128]⟩
abbrev S192x128 : Shape := ⟨2, ![192, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 263
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x192, .f32⟩
  | 4 => ⟨S192, .f32⟩
  | 5 => ⟨S3x192x192, .f32⟩
  | 6 => ⟨S192, .f32⟩
  | 7 => ⟨S3x192x128, .f32⟩
  | 8 => ⟨S128, .f32⟩
  | 9 => ⟨S128x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .f32⟩
  | 42 => ⟨S800000, .f32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S1x128x192, .f32⟩
  | 55 => ⟨S128x192, .f32⟩
  | 56 => ⟨S50000x192, .f32⟩
  | 57 => ⟨S800000x1, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S1x128x192, .f32⟩
  | 78 => ⟨S128x192, .f32⟩
  | 79 => ⟨S50000x192, .f32⟩
  | 80 => ⟨S50000x192, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S1x128x192, .f32⟩
  | 106 => ⟨S128x192, .f32⟩
  | 107 => ⟨S50000x192, .f32⟩
  | 108 => ⟨S50000x192, .f32⟩
  | 109 => ⟨S1x192, .f32⟩
  | 110 => ⟨S50000x192, .f32⟩
  | 111 => ⟨S50000x192, .f32⟩
  | 112 => ⟨S1x192x192, .f32⟩
  | 113 => ⟨S192x192, .f32⟩
  | 114 => ⟨S50000x192, .f32⟩
  | 115 => ⟨S800000x1, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x192, .f32⟩
  | 125 => ⟨S800000x192, .f32⟩
  | 126 => ⟨S800000x192, .f32⟩
  | 127 => ⟨S_, .f32⟩
  | _ => ⟨S50000x128, .f32⟩

abbrev hbmTy0_1 (i : Nat) : BufTy := match i % 128 with
  | 0 => ⟨S50000x192, .f32⟩
  | 1 => ⟨S800000x1, .i32⟩
  | 2 => ⟨S50000x192, .f32⟩
  | 3 => ⟨S_, .f32⟩
  | 4 => ⟨S50000x192, .f32⟩
  | 5 => ⟨S50000x192, .f32⟩
  | 6 => ⟨S50000x192, .f32⟩
  | 7 => ⟨S1x192x192, .f32⟩
  | 8 => ⟨S192x192, .f32⟩
  | 9 => ⟨S50000x192, .f32⟩
  | 10 => ⟨S50000x192, .f32⟩
  | 11 => ⟨S800000x1, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x192, .f32⟩
  | 21 => ⟨S800000x192, .f32⟩
  | 22 => ⟨S800000x192, .f32⟩
  | 23 => ⟨S_, .f32⟩
  | 24 => ⟨S50000x192, .f32⟩
  | 25 => ⟨S800000x1, .i32⟩
  | 26 => ⟨S50000x192, .f32⟩
  | 27 => ⟨S_, .f32⟩
  | 28 => ⟨S50000x192, .f32⟩
  | 29 => ⟨S50000x192, .f32⟩
  | 30 => ⟨S50000x192, .f32⟩
  | 31 => ⟨S_, .f32⟩
  | 32 => ⟨S50000x192, .f32⟩
  | 33 => ⟨S50000x192, .f32⟩
  | 34 => ⟨S50000x192, .f32⟩
  | 35 => ⟨S1x192x192, .f32⟩
  | 36 => ⟨S192x192, .f32⟩
  | 37 => ⟨S50000x192, .f32⟩
  | 38 => ⟨S50000x192, .f32⟩
  | 39 => ⟨S1x192, .f32⟩
  | 40 => ⟨S50000x192, .f32⟩
  | 41 => ⟨S50000x192, .f32⟩
  | 42 => ⟨S1x192x128, .f32⟩
  | 43 => ⟨S192x128, .f32⟩
  | 44 => ⟨S50000x128, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x192, .f32⟩
  | 55 => ⟨S800000x192, .f32⟩
  | 56 => ⟨S800000x192, .f32⟩
  | 57 => ⟨S_, .f32⟩
  | 58 => ⟨S50000x192, .f32⟩
  | 59 => ⟨S800000x1, .i32⟩
  | 60 => ⟨S50000x192, .f32⟩
  | 61 => ⟨S_, .f32⟩
  | 62 => ⟨S50000x192, .f32⟩
  | 63 => ⟨S50000x192, .f32⟩
  | 64 => ⟨S50000x192, .f32⟩
  | 65 => ⟨S1x192x128, .f32⟩
  | 66 => ⟨S192x128, .f32⟩
  | 67 => ⟨S50000x128, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x192, .f32⟩
  | 79 => ⟨S800000x192, .f32⟩
  | 80 => ⟨S800000x192, .f32⟩
  | 81 => ⟨S_, .f32⟩
  | 82 => ⟨S50000x192, .f32⟩
  | 83 => ⟨S800000x1, .i32⟩
  | 84 => ⟨S50000x192, .f32⟩
  | 85 => ⟨S_, .f32⟩
  | 86 => ⟨S50000x192, .f32⟩
  | 87 => ⟨S50000x192, .f32⟩
  | 88 => ⟨S50000x192, .f32⟩
  | 89 => ⟨S_, .f32⟩
  | 90 => ⟨S50000x192, .f32⟩
  | 91 => ⟨S50000x192, .f32⟩
  | 92 => ⟨S50000x192, .f32⟩
  | 93 => ⟨S1x192x128, .f32⟩
  | 94 => ⟨S192x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S64x128, .f32⟩
  | 102 => ⟨S50000x1, .i32⟩
  | 103 => ⟨S64x128, .f32⟩
  | 104 => ⟨S_, .f32⟩
  | 105 => ⟨S50000, .f32⟩
  | 106 => ⟨S_, .f32⟩
  | 107 => ⟨S64, .f32⟩
  | 108 => ⟨S50000x1, .i32⟩
  | 109 => ⟨S64, .f32⟩
  | 110 => ⟨S_, .f32⟩
  | 111 => ⟨S64, .f32⟩
  | 112 => ⟨S64, .f32⟩
  | 113 => ⟨S64x1, .f32⟩
  | 114 => ⟨S64x128, .f32⟩
  | 115 => ⟨S64x128, .f32⟩
  | 116 => ⟨S64x10, .f32⟩
  | 117 => ⟨S1x10, .f32⟩
  | 118 => ⟨S64x10, .f32⟩
  | 119 => ⟨S64x10, .f32⟩
  | 120 => ⟨S_, .f32⟩
  | 121 => ⟨S64, .f32⟩
  | 122 => ⟨S_, .f32⟩
  | 123 => ⟨S64, .f32⟩
  | 124 => ⟨S64, .f32⟩
  | 125 => ⟨S64x1, .f32⟩
  | 126 => ⟨S64x10, .f32⟩
  | 127 => ⟨S64x10, .f32⟩
  | _ => ⟨S50000x128, .f32⟩

abbrev hbmTy0_2 (i : Nat) : BufTy := match i % 128 with
  | 0 => ⟨S64x10, .f32⟩
  | 1 => ⟨S_, .f32⟩
  | 2 => ⟨S64, .f32⟩
  | 3 => ⟨S64x1, .f32⟩
  | 4 => ⟨S64x1, .f32⟩
  | 5 => ⟨S64x10, .f32⟩
  | 6 => ⟨S64x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_21 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_24 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_25 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_v133 : Ref sig .tc := ⟨.hbm, 175, rfl⟩
abbrev main_v134 : Ref sig .tc := ⟨.hbm, 176, rfl⟩
abbrev main_c_27 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_28 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_29 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c_30 : Ref sig .tc := ⟨.hbm, 198, rfl⟩
abbrev main_v153 : Ref sig .tc := ⟨.hbm, 199, rfl⟩
abbrev main_v154 : Ref sig .tc := ⟨.hbm, 200, rfl⟩
abbrev main_c_31 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_32 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_33 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_34 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_35 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_36 : Ref sig .tc := ⟨.hbm, 232, rfl⟩
abbrev main_v181 : Ref sig .tc := ⟨.hbm, 233, rfl⟩
abbrev main_cst_37 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_38 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_call1_cst : Ref sig .tc := ⟨.hbm, 248, rfl⟩
abbrev main_call1_v0 : Ref sig .tc := ⟨.hbm, 249, rfl⟩
abbrev main_call1_cst_0 : Ref sig .tc := ⟨.hbm, 250, rfl⟩
abbrev main_call1_v1 : Ref sig .tc := ⟨.hbm, 251, rfl⟩
abbrev main_call1_v2 : Ref sig .tc := ⟨.hbm, 252, rfl⟩
abbrev main_call1_v3 : Ref sig .tc := ⟨.hbm, 253, rfl⟩
abbrev main_call1_v4 : Ref sig .tc := ⟨.hbm, 254, rfl⟩
abbrev main_call1_v5 : Ref sig .tc := ⟨.hbm, 255, rfl⟩
abbrev main_call1_v6 : Ref sig .tc := ⟨.hbm, 256, rfl⟩
abbrev main_call1_cst_1 : Ref sig .tc := ⟨.hbm, 257, rfl⟩
abbrev main_call1_v7 : Ref sig .tc := ⟨.hbm, 258, rfl⟩
abbrev main_call1_v8 : Ref sig .tc := ⟨.hbm, 259, rfl⟩
abbrev main_call1_v9 : Ref sig .tc := ⟨.hbm, 260, rfl⟩
abbrev main_call1_v10 : Ref sig .tc := ⟨.hbm, 261, rfl⟩
abbrev main_v194 : Ref sig .tc := ⟨.hbm, 262, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x192_S1x128x192_0_0_0 : S3x128x192.Slices ![0, 0, 0] S1x128x192
  shapeCasts_S1x128x192_S128x192 : S1x128x192.ShapeCasts S128x192
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x192_S1x128x192_1_0_0 : S3x128x192.Slices ![1, 0, 0] S1x128x192
  slices_S3x128x192_S1x128x192_2_0_0 : S3x128x192.Slices ![2, 0, 0] S1x128x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S3x192x192_S1x192x192_0_0_0 : S3x192x192.Slices ![0, 0, 0] S1x192x192
  shapeCasts_S1x192x192_S192x192 : S1x192x192.ShapeCasts S192x192
  bcast_S800000x1_S800000x192_0_1 : S800000x1.BroadcastsInDim S800000x192 (![0, 1] : Fin 2 → Fin S800000x192.rank)
  bcast_S_S50000x192 : S_.BroadcastsInDim S50000x192 (![] : Fin 0 → Fin S50000x192.rank)
  slices_S3x192x192_S1x192x192_1_0_0 : S3x192x192.Slices ![1, 0, 0] S1x192x192
  slices_S3x192x192_S1x192x192_2_0_0 : S3x192x192.Slices ![2, 0, 0] S1x192x192
  slices_S3x192x128_S1x192x128_0_0_0 : S3x192x128.Slices ![0, 0, 0] S1x192x128
  shapeCasts_S1x192x128_S192x128 : S1x192x128.ShapeCasts S192x128
  slices_S3x192x128_S1x192x128_1_0_0 : S3x192x128.Slices ![1, 0, 0] S1x192x128
  slices_S3x192x128_S1x192x128_2_0_0 : S3x192x128.Slices ![2, 0, 0] S1x192x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x192_S50000x192_1_0_0_1_n_n_wf : DotDims.WF S50000x128 S128x192 S50000x192 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x192_S192x192_S50000x192_1_0_0_1_n_n_wf : DotDims.WF S50000x192 S192x192 S50000x192 [1] [0] [0] [1] [] []
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S50000x192_S192x128_S50000x128_1_0_0_1_n_n_wf : DotDims.WF S50000x192 S192x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x192_S50000x192_1_0_0_1_n_n : DotDims S50000x192 S192x192 S50000x192 where
  lhsContracting := [1]
  rhsContracting := [0]
  lhsNonContracting := [0]
  rhsNonContracting := [1]
  lhsBatch := []
  rhsBatch := []
  wf := dot_S50000x192_S192x192_S50000x192_1_0_0_1_n_n_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.RunValue.lean ====
/-
  The idealized kernel's run with its result named. Every weakly fair execution of @main from a memory with zero
  counters terminates without a fault, with the argument arrays as launched, and with the result buffer holding what
  the fold of @main's segments leaves in it: the contents after the last pallas_call (the classifier), whose output
  array is the program's result. The run is the frame's run — the same segments, the same launch — read at one more
  buffer of the last boundary's contents.
-/
import proofs.«101723_j51754355916836_1_alg».proof.Proof.Gen.KernelIdeal.Frame

-- membership in a rectangle of production extents (`View.cover_of_tiled`): the elaborator's structural look
-- recurses once per coordinate of the long axes
set_option maxRecDepth 16384

noncomputable section

namespace Cert.Bridge.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- @main runs; its arguments end unchanged and its result buffer ends at the last boundary's contents. -/
theorem run_value : θ_run defs (onTc (τ := τ) (main (F := F))) ⟨m, fun _ => 0, ρ⟩ (fun r => ∀ c : Dev nD,
      r.2.mem ((c.tc : Thread nD τ).loc main_v155) = W10 m ρ c (Proc.devRef .tc main_v155)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v155 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.Bridge.Run

end
-- ==== Proof.RefArgs.lean ====
/-
  The reference never writes its arguments.

  The reference's program is a list of 252 host operations, each of which writes one fresh buffer; none of the
  eleven argument arrays is among the buffers written.  So the contents of each argument after the whole list, read
  from the fold of the operations over any starting contents, are the starting contents: the fold passes every
  operation without touching the argument's buffer.
-/
import proofs.«101723_j51754355916836_1_alg».proof.Proof.RefRun
import Idealize.ShloMosaic.PureOps.Ideal

set_option maxRecDepth 16384

noncomputable section

namespace Cert.Bridge.RefArgs

open Idealize.ShloMosaic Idealize.ShloMosaic.TcCoe Idealize.SL.Sem Idealize.ShloMosaic.StableHlo

variable (VR : Valuation Cert.ReferenceIdeal.τ Cert.ReferenceIdeal.sig (Elt Ideal))

/-- No operation of the reference writes argument 0. -/
theorem kept_main_arg0 :
    after (Cert.Bridge.Ref.ops (F := Ideal)) VR
        (Proc.devRef (τ := Cert.ReferenceIdeal.τ) (sig := Cert.ReferenceIdeal.sig) Proc.tc Cert.ReferenceIdeal.main_arg0)
      = VR (Proc.devRef (τ := Cert.ReferenceIdeal.τ) (sig := Cert.ReferenceIdeal.sig) Proc.tc Cert.ReferenceIdeal.main_arg0) :=
  rfl

/-- No operation of the reference writes argument 1. -/
theorem kept_main_arg1 :
    after (Cert.Bridge.Ref.ops (F := Ideal)) VR
        (Proc.devRef (τ := Cert.ReferenceIdeal.τ) (sig := Cert.ReferenceIdeal.sig) Proc.tc Cert.ReferenceIdeal.main_arg1)
      = VR (Proc.devRef (τ := Cert.ReferenceIdeal.τ) (sig := Cert.ReferenceIdeal.sig) Proc.tc Cert.ReferenceIdeal.main_arg1) :=
  rfl

/-- No operation of the reference writes argument 2. -/
theorem kept_main_arg2 :
    after (Cert.Bridge.Ref.ops (F := Ideal)) VR
        (Proc.devRef (τ := Cert.ReferenceIdeal.τ) (sig := Cert.ReferenceIdeal.sig) Proc.tc Cert.ReferenceIdeal.main_arg2)
      = VR (Proc.devRef (τ := Cert.ReferenceIdeal.τ) (sig := Cert.ReferenceIdeal.sig) Proc.tc Cert.ReferenceIdeal.main_arg2) :=
  rfl

/-- No operation of the reference writes argument 3. -/
theorem kept_main_arg3 :
    after (Cert.Bridge.Ref.ops (F := Ideal)) VR
        (Proc.devRef (τ := Cert.ReferenceIdeal.τ) (sig := Cert.ReferenceIdeal.sig) Proc.tc Cert.ReferenceIdeal.main_arg3)
      = VR (Proc.devRef (τ := Cert.ReferenceIdeal.τ) (sig := Cert.ReferenceIdeal.sig) Proc.tc Cert.ReferenceIdeal.main_arg3) :=
  rfl

/-- No operation of the reference writes argument 4. -/
theorem kept_main_arg4 :
    after (Cert.Bridge.Ref.ops (F := Ideal)) VR
        (Proc.devRef (τ := Cert.ReferenceIdeal.τ) (sig := Cert.ReferenceIdeal.sig) Proc.tc Cert.ReferenceIdeal.main_arg4)
      = VR (Proc.devRef (τ := Cert.ReferenceIdeal.τ) (sig := Cert.ReferenceIdeal.sig) Proc.tc Cert.ReferenceIdeal.main_arg4) :=
  rfl

/-- No operation of the reference writes argument 5. -/
theorem kept_main_arg5 :
    after (Cert.Bridge.Ref.ops (F := Ideal)) VR
        (Proc.devRef (τ := Cert.ReferenceIdeal.τ) (sig := Cert.ReferenceIdeal.sig) Proc.tc Cert.ReferenceIdeal.main_arg5)
      = VR (Proc.devRef (τ := Cert.ReferenceIdeal.τ) (sig := Cert.ReferenceIdeal.sig) Proc.tc Cert.ReferenceIdeal.main_arg5) :=
  rfl

/-- No operation of the reference writes argument 6. -/
theorem kept_main_arg6 :
    after (Cert.Bridge.Ref.ops (F := Ideal)) VR
        (Proc.devRef (τ := Cert.ReferenceIdeal.τ) (sig := Cert.ReferenceIdeal.sig) Proc.tc Cert.ReferenceIdeal.main_arg6)
      = VR (Proc.devRef (τ := Cert.ReferenceIdeal.τ) (sig := Cert.ReferenceIdeal.sig) Proc.tc Cert.ReferenceIdeal.main_arg6) :=
  rfl

/-- No operation of the reference writes argument 7. -/
theorem kept_main_arg7 :
    after (Cert.Bridge.Ref.ops (F := Ideal)) VR
        (Proc.devRef (τ := Cert.ReferenceIdeal.τ) (sig := Cert.ReferenceIdeal.sig) Proc.tc Cert.ReferenceIdeal.main_arg7)
      = VR (Proc.devRef (τ := Cert.ReferenceIdeal.τ) (sig := Cert.ReferenceIdeal.sig) Proc.tc Cert.ReferenceIdeal.main_arg7) :=
  rfl

/-- No operation of the reference writes argument 8. -/
theorem kept_main_arg8 :
    after (Cert.Bridge.Ref.ops (F := Ideal)) VR
        (Proc.devRef (τ := Cert.ReferenceIdeal.τ) (sig := Cert.ReferenceIdeal.sig) Proc.tc Cert.ReferenceIdeal.main_arg8)
      = VR (Proc.devRef (τ := Cert.ReferenceIdeal.τ) (sig := Cert.ReferenceIdeal.sig) Proc.tc Cert.ReferenceIdeal.main_arg8) :=
  rfl

/-- No operation of the reference writes argument 9. -/
theorem kept_main_arg9 :
    after (Cert.Bridge.Ref.ops (F := Ideal)) VR
        (Proc.devRef (τ := Cert.ReferenceIdeal.τ) (sig := Cert.ReferenceIdeal.sig) Proc.tc Cert.ReferenceIdeal.main_arg9)
      = VR (Proc.devRef (τ := Cert.ReferenceIdeal.τ) (sig := Cert.ReferenceIdeal.sig) Proc.tc Cert.ReferenceIdeal.main_arg9) :=
  rfl

/-- No operation of the reference writes argument 10. -/
theorem kept_main_arg10 :
    after (Cert.Bridge.Ref.ops (F := Ideal)) VR
        (Proc.devRef (τ := Cert.ReferenceIdeal.τ) (sig := Cert.ReferenceIdeal.sig) Proc.tc Cert.ReferenceIdeal.main_arg10)
      = VR (Proc.devRef (τ := Cert.ReferenceIdeal.τ) (sig := Cert.ReferenceIdeal.sig) Proc.tc Cert.ReferenceIdeal.main_arg10) :=
  rfl

end Cert.Bridge.RefArgs

end
-- ==== Proof.Spec.lean ====
/-
  The dense stage of one Chebyshev layer as a function of whole arrays, entry by entry on the extended reals:
  for node p and output feature q,
      out (p, q) = ((∑ₖ A (p, k) · W (0, k, q) + ∑ₖ B (p, k) · W (1, k, q)) + ∑ₖ C (p, k) · W (2, k, q)) + b (0, q),
  the three products added in this order and the bias last. A, B, C are the layer's three Chebyshev terms
  (T₀ = h, T₁ = L̂ h, T₂ = 2 L̂ T₁ − T₀), W the layer's three weight matrices stacked, b its bias as one row.
-/
import Idealize.ShloMosaic.PureOps.Ideal
import Idealize.ShloMosaic.Lib.ValueIdx

noncomputable section

namespace Cert.Spec

open Idealize.ShloMosaic Idealize.ShloMosaic.ValueIdx

/-- ((A·W₀ + B·W₁) + C·W₂) + b, entry by entry; every sum runs over the k input features. -/
def dense {n k f : ℕ} (A B C : FVec Ideal ⟨2, ![n, k]⟩ .f32) (W : FVec Ideal ⟨3, ![3, k, f]⟩ .f32)
    (b : FVec Ideal ⟨2, ![1, f]⟩ .f32) : FVec Ideal ⟨2, ![n, f]⟩ .f32 :=
  fun i =>
    ((∑ κ : Fin k, A (ix2 (i 0) κ) * W (ix3 (0 : Fin 3) κ (i 1))
        + ∑ κ : Fin k, B (ix2 (i 0) κ) * W (ix3 (1 : Fin 3) κ (i 1)))
      + ∑ κ : Fin k, C (ix2 (i 0) κ) * W (ix3 (2 : Fin 3) κ (i 1)))
    + b (ix2 (0 : Fin 1) (i 1))

/-- The same at explicit coordinates. -/
theorem dense_ix2 {n k f : ℕ} (A B C : FVec Ideal ⟨2, ![n, k]⟩ .f32) (W : FVec Ideal ⟨3, ![3, k, f]⟩ .f32)
    (b : FVec Ideal ⟨2, ![1, f]⟩ .f32) (p : Fin n) (q : Fin f) :
    dense A B C W b (ix2 p q) =
      ((∑ κ : Fin k, A (ix2 p κ) * W (ix3 (0 : Fin 3) κ q)
          + ∑ κ : Fin k, B (ix2 p κ) * W (ix3 (1 : Fin 3) κ q))
        + ∑ κ : Fin k, C (ix2 p κ) * W (ix3 (2 : Fin 3) κ q))
      + b (ix2 (0 : Fin 1) q) := rfl

end Cert.Spec

end
-- ==== Proof.Sim1.lean ====
/-
  The first slice: the edge weights of the scaled Laplacian L̂ = −D^{-1/2} A D^{-1/2} (both programs gather the inverse square roots of the degrees at each edge's ends) and the first layer's Chebyshev terms T₁ = L̂ x, T₂ = 2 L̂ T₁ − x.
  The two programs run the SAME host operations here, on buffers that are numbered differently. From contents that
  agree on the values the slice reads, each value it computes is the same in both: both sides are read back from the
  fold of their operations and are one term of the values read.
-/
import proofs.«101723_j51754355916836_1_alg».proof.Proof.Gen.KernelIdeal.Frame
import proofs.«101723_j51754355916836_1_alg».proof.Proof.RefRun
import Idealize.ShloMosaic.PureOps.Ideal

set_option maxRecDepth 16384

noncomputable section

namespace Cert.Bridge.Sim1

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The kernel's `main_v1` is the reference's `main_v1`. -/
theorem val_main_v1
    (h0 : VK (kref Cert.KernelIdeal.main_arg0) = VR (rref Cert.ReferenceIdeal.main_arg0))
    (h1 : VK (kref Cert.KernelIdeal.main_arg1) = VR (rref Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v1)
      = after (Cert.Bridge.Ref.ops1 (F := Ideal)) VR (rref Cert.ReferenceIdeal.main_v1) := by
  dsimp only [Cert.KernelIdeal.Gen.hostOps0, Cert.KernelIdeal.Gen.hostOps0_1, Cert.KernelIdeal.Gen.hostOps0_2, Cert.Bridge.Ref.ops1]
  after_results_simp
  simp only [h0, h1]
  rfl

set_option maxHeartbeats 4000000 in
/-- The kernel's `main_v3` is the reference's `main_v3`. -/
theorem val_main_v3
    (h0 : VK (kref Cert.KernelIdeal.main_arg0) = VR (rref Cert.ReferenceIdeal.main_arg0))
    (h1 : VK (kref Cert.KernelIdeal.main_arg1) = VR (rref Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v3)
      = after (Cert.Bridge.Ref.ops1 (F := Ideal)) VR (rref Cert.ReferenceIdeal.main_v3) := by
  dsimp only [Cert.KernelIdeal.Gen.hostOps0, Cert.KernelIdeal.Gen.hostOps0_1, Cert.KernelIdeal.Gen.hostOps0_2, Cert.Bridge.Ref.ops1]
  after_results_simp
  simp only [h0, h1]
  rfl

set_option maxHeartbeats 4000000 in
/-- The kernel's `main_v30` is the reference's `main_v30`. -/
theorem val_main_v30
    (h0 : VK (kref Cert.KernelIdeal.main_arg0) = VR (rref Cert.ReferenceIdeal.main_arg0))
    (h1 : VK (kref Cert.KernelIdeal.main_arg1) = VR (rref Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v30)
      = after (Cert.Bridge.Ref.ops1 (F := Ideal)) VR (rref Cert.ReferenceIdeal.main_v30) := by
  dsimp only [Cert.KernelIdeal.Gen.hostOps0, Cert.KernelIdeal.Gen.hostOps0_1, Cert.KernelIdeal.Gen.hostOps0_2, Cert.Bridge.Ref.ops1]
  after_results_simp
  simp only [h0, h1]
  rfl

set_option maxHeartbeats 4000000 in
/-- The kernel's `main_v46` is the reference's `main_v49`. -/
theorem val_main_v46
    (h0 : VK (kref Cert.KernelIdeal.main_arg0) = VR (rref Cert.ReferenceIdeal.main_arg0))
    (h1 : VK (kref Cert.KernelIdeal.main_arg1) = VR (rref Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v46)
      = after (Cert.Bridge.Ref.ops1 (F := Ideal)) VR (rref Cert.ReferenceIdeal.main_v49) := by
  dsimp only [Cert.KernelIdeal.Gen.hostOps0, Cert.KernelIdeal.Gen.hostOps0_1, Cert.KernelIdeal.Gen.hostOps0_2, Cert.Bridge.Ref.ops1]
  after_results_simp
  simp only [h0, h1]
  rfl

set_option maxHeartbeats 4000000 in
/-- The kernel's `main_v65` is the reference's `main_v72`. -/
theorem val_main_v65
    (h0 : VK (kref Cert.KernelIdeal.main_arg0) = VR (rref Cert.ReferenceIdeal.main_arg0))
    (h1 : VK (kref Cert.KernelIdeal.main_arg1) = VR (rref Cert.ReferenceIdeal.main_arg1)) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v65)
      = after (Cert.Bridge.Ref.ops1 (F := Ideal)) VR (rref Cert.ReferenceIdeal.main_v72) := by
  dsimp only [Cert.KernelIdeal.Gen.hostOps0, Cert.KernelIdeal.Gen.hostOps0_1, Cert.KernelIdeal.Gen.hostOps0_2, Cert.Bridge.Ref.ops1]
  after_results_simp
  simp only [h0, h1]
  rfl

set_option maxHeartbeats 4000000 in
/-- The bias as one row: the kernel's host side reshapes it. -/
theorem brow (hc : (Cert.KernelIdeal.S192 : Shape).ShapeCasts Cert.KernelIdeal.S1x192) :
    after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_v66)
      = shapeCast Cert.KernelIdeal.S1x192 (VK (kref Cert.KernelIdeal.main_arg4)) hc := by
  dsimp only [Cert.KernelIdeal.Gen.hostOps0, Cert.KernelIdeal.Gen.hostOps0_1, Cert.KernelIdeal.Gen.hostOps0_2]
  after_results_simp
  rfl

/-- The kernel's host operations of this slice do not write `main_arg0`. -/
theorem keptK_main_arg0 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg0) = VK (kref Cert.KernelIdeal.main_arg0) := rfl
/-- The kernel's host operations of this slice do not write `main_arg2`. -/
theorem keptK_main_arg2 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg2) = VK (kref Cert.KernelIdeal.main_arg2) := rfl
/-- The kernel's host operations of this slice do not write `main_arg3`. -/
theorem keptK_main_arg3 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg3) = VK (kref Cert.KernelIdeal.main_arg3) := rfl
/-- The kernel's host operations of this slice do not write `main_arg4`. -/
theorem keptK_main_arg4 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg4) = VK (kref Cert.KernelIdeal.main_arg4) := rfl
/-- The kernel's host operations of this slice do not write `main_arg5`. -/
theorem keptK_main_arg5 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg5) = VK (kref Cert.KernelIdeal.main_arg5) := rfl
/-- The kernel's host operations of this slice do not write `main_arg6`. -/
theorem keptK_main_arg6 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg6) = VK (kref Cert.KernelIdeal.main_arg6) := rfl
/-- The kernel's host operations of this slice do not write `main_arg7`. -/
theorem keptK_main_arg7 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg7) = VK (kref Cert.KernelIdeal.main_arg7) := rfl
/-- The kernel's host operations of this slice do not write `main_arg8`. -/
theorem keptK_main_arg8 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg8) = VK (kref Cert.KernelIdeal.main_arg8) := rfl
/-- The kernel's host operations of this slice do not write `main_arg9`. -/
theorem keptK_main_arg9 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg9) = VK (kref Cert.KernelIdeal.main_arg9) := rfl
/-- The kernel's host operations of this slice do not write `main_arg10`. -/
theorem keptK_main_arg10 : after (Cert.KernelIdeal.Gen.hostOps0_2 (F := Ideal)) (after (Cert.KernelIdeal.Gen.hostOps0_1 (F := Ideal)) (after (Cert.KernelIdeal.Gen.hostOps0 (F := Ideal)) VK)) (kref Cert.KernelIdeal.main_arg10) = VK (kref Cert.KernelIdeal.main_arg10) := rfl

/-- The reference's operations of this slice do not write `main_arg2`. -/
theorem keptR_main_arg2 : after (Cert.Bridge.Ref.ops1 (F := Ideal)) VR (rref Cert.ReferenceIdeal.main_arg2) = VR (rref Cert.ReferenceIdeal.main_arg2) := rfl
/-- The reference's operations of this slice do not write `main_arg5`. -/
theorem keptR_main_arg5 : after (Cert.Bridge.Ref.ops1 (F := Ideal)) VR (rref Cert.ReferenceIdeal.main_arg5) = VR (rref Cert.ReferenceIdeal.main_arg5) := rfl
/-- The reference's operations of this slice do not write `main_arg6`. -/
theorem keptR_main_arg6 : after (Cert.Bridge.Ref.ops1 (F := Ideal)) VR (rref Cert.ReferenceIdeal.main_arg6) = VR (rref Cert.ReferenceIdeal.main_arg6) := rfl
/-- The reference's operations of this slice do not write `main_arg7`. -/
theorem keptR_main_arg7 : after (Cert.Bridge.Ref.ops1 (F := Ideal)) VR (rref Cert.ReferenceIdeal.main_arg7) = VR (rref Cert.ReferenceIdeal.main_arg7) := rfl
/-- The reference's operations of this slice do not write `main_arg8`. -/
theorem keptR_main_arg8 : after (Cert.Bridge.Ref.ops1 (F := Ideal)) VR (rref Cert.ReferenceIdeal.main_arg8) = VR (rref Cert.ReferenceIdeal.main_arg8) := rfl
/-- The reference's operations of this slice do not write `main_arg9`. -/
theorem keptR_main_arg9 : after (Cert.Bridge.Ref.ops1 (F := Ideal)) VR (rref Cert.ReferenceIdeal.main_arg9) = VR (rref Cert.ReferenceIdeal.main_arg9) := rfl
/-- The reference's operations of this slice do not write `main_arg10`. -/
theorem keptR_main_arg10 : after (Cert.Bridge.Ref.ops1 (F := Ideal)) VR (rref Cert.ReferenceIdeal.main_arg10) = VR (rref Cert.ReferenceIdeal.main_arg10) := rfl

end Cert.Bridge.Sim1

end
-- ==== Proof.Sim2.lean ====
/-
  The second slice: the second layer's Chebyshev terms T₁ = L̂ h, T₂ = 2 L̂ T₁ − h of the first layer's output h.
  The two programs run the SAME host operations here, on buffers that are numbered differently. From contents that
  agree on the values the slice reads, each value it computes is the same in both: both sides are read back from the
  fold of their operations and are one term of the values read.
-/
import proofs.«101723_j51754355916836_1_alg».proof.Proof.Gen.KernelIdeal.Frame
import proofs.«101723_j51754355916836_1_alg».proof.Proof.RefRun
import Idealize.ShloMosaic.PureOps.Ideal

set_option maxRecDepth 16384

noncomputable section

namespace Cert.Bridge.Sim2

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The kernel's `main_v83` is the reference's `main_v98`. -/
theorem val_main_v83
    (h0 : VK (kref Cert.KernelIdeal.main_v30) = VR (rref Cert.ReferenceIdeal.main_v30))
    (h1 : VK (kref Cert.KernelIdeal.main_v1) = VR (rref Cert.ReferenceIdeal.main_v1))
    (h2 : VK (kref Cert.KernelIdeal.main_v3) = VR (rref Cert.ReferenceIdeal.main_v3))
    (h3 : VK (kref Cert.KernelIdeal.main_v67) = VR (rref Cert.ReferenceIdeal.main_v79)) :
    after (Cert.KernelIdeal.Gen.hostOps1 (F := Ideal)) VK (kref Cert.KernelIdeal.main_v83)
      = after (Cert.Bridge.Ref.ops2 (F := Ideal)) VR (rref Cert.ReferenceIdeal.main_v98) := by
  dsimp only [Cert.KernelIdeal.Gen.hostOps1, Cert.Bridge.Ref.ops2]
  after_results_simp
  simp only [h0, h1, h2, h3]
  rfl

set_option maxHeartbeats 4000000 in
/-- The kernel's `main_v102` is the reference's `main_v121`. -/
theorem val_main_v102
    (h0 : VK (kref Cert.KernelIdeal.main_v30) = VR (rref Cert.ReferenceIdeal.main_v30))
    (h1 : VK (kref Cert.KernelIdeal.main_v1) = VR (rref Cert.ReferenceIdeal.main_v1))
    (h2 : VK (kref Cert.KernelIdeal.main_v3) = VR (rref Cert.ReferenceIdeal.main_v3))
    (h3 : VK (kref Cert.KernelIdeal.main_v67) = VR (rref Cert.ReferenceIdeal.main_v79)) :
    after (Cert.KernelIdeal.Gen.hostOps1 (F := Ideal)) VK (kref Cert.KernelIdeal.main_v102)
      = after (Cert.Bridge.Ref.ops2 (F := Ideal)) VR (rref Cert.ReferenceIdeal.main_v121) := by
  dsimp only [Cert.KernelIdeal.Gen.hostOps1, Cert.Bridge.Ref.ops2]
  after_results_simp
  simp only [h0, h1, h2, h3]
  rfl

set_option maxHeartbeats 4000000 in
/-- The bias as one row: the kernel's host side reshapes it. -/
theorem brow (hc : (Cert.KernelIdeal.S192 : Shape).ShapeCasts Cert.KernelIdeal.S1x192) :
    after (Cert.KernelIdeal.Gen.hostOps1 (F := Ideal)) VK (kref Cert.KernelIdeal.main_v103)
      = shapeCast Cert.KernelIdeal.S1x192 (VK (kref Cert.KernelIdeal.main_arg6)) hc := by
  dsimp only [Cert.KernelIdeal.Gen.hostOps1]
  after_results_simp
  rfl

/-- The kernel's host operations of this slice do not write `main_v1`. -/
theorem keptK_main_v1 : after (Cert.KernelIdeal.Gen.hostOps1 (F := Ideal)) VK (kref Cert.KernelIdeal.main_v1) = VK (kref Cert.KernelIdeal.main_v1) := rfl
/-- The kernel's host operations of this slice do not write `main_v3`. -/
theorem keptK_main_v3 : after (Cert.KernelIdeal.Gen.hostOps1 (F := Ideal)) VK (kref Cert.KernelIdeal.main_v3) = VK (kref Cert.KernelIdeal.main_v3) := rfl
/-- The kernel's host operations of this slice do not write `main_v30`. -/
theorem keptK_main_v30 : after (Cert.KernelIdeal.Gen.hostOps1 (F := Ideal)) VK (kref Cert.KernelIdeal.main_v30) = VK (kref Cert.KernelIdeal.main_v30) := rfl
/-- The kernel's host operations of this slice do not write `main_v67`. -/
theorem keptK_main_v67 : after (Cert.KernelIdeal.Gen.hostOps1 (F := Ideal)) VK (kref Cert.KernelIdeal.main_v67) = VK (kref Cert.KernelIdeal.main_v67) := rfl
/-- The kernel's host operations of this slice do not write `main_arg2`. -/
theorem keptK_main_arg2 : after (Cert.KernelIdeal.Gen.hostOps1 (F := Ideal)) VK (kref Cert.KernelIdeal.main_arg2) = VK (kref Cert.KernelIdeal.main_arg2) := rfl
/-- The kernel's host operations of this slice do not write `main_arg5`. -/
theorem keptK_main_arg5 : after (Cert.KernelIdeal.Gen.hostOps1 (F := Ideal)) VK (kref Cert.KernelIdeal.main_arg5) = VK (kref Cert.KernelIdeal.main_arg5) := rfl
/-- The kernel's host operations of this slice do not write `main_arg7`. -/
theorem keptK_main_arg7 : after (Cert.KernelIdeal.Gen.hostOps1 (F := Ideal)) VK (kref Cert.KernelIdeal.main_arg7) = VK (kref Cert.KernelIdeal.main_arg7) := rfl
/-- The kernel's host operations of this slice do not write `main_arg8`. -/
theorem keptK_main_arg8 : after (Cert.KernelIdeal.Gen.hostOps1 (F := Ideal)) VK (kref Cert.KernelIdeal.main_arg8) = VK (kref Cert.KernelIdeal.main_arg8) := rfl
/-- The kernel's host operations of this slice do not write `main_arg9`. -/
theorem keptK_main_arg9 : after (Cert.KernelIdeal.Gen.hostOps1 (F := Ideal)) VK (kref Cert.KernelIdeal.main_arg9) = VK (kref Cert.KernelIdeal.main_arg9) := rfl
/-- The kernel's host operations of this slice do not write `main_arg10`. -/
theorem keptK_main_arg10 : after (Cert.KernelIdeal.Gen.hostOps1 (F := Ideal)) VK (kref Cert.KernelIdeal.main_arg10) = VK (kref Cert.KernelIdeal.main_arg10) := rfl

/-- The reference's operations of this slice do not write `main_v1`. -/
theorem keptR_main_v1 : after (Cert.Bridge.Ref.ops2 (F := Ideal)) VR (rref Cert.ReferenceIdeal.main_v1) = VR (rref Cert.ReferenceIdeal.main_v1) := rfl
/-- The reference's operations of this slice do not write `main_v3`. -/
theorem keptR_main_v3 : after (Cert.Bridge.Ref.ops2 (F := Ideal)) VR (rref Cert.ReferenceIdeal.main_v3) = VR (rref Cert.ReferenceIdeal.main_v3) := rfl
/-- The reference's operations of this slice do not write `main_v30`. -/
theorem keptR_main_v30 : after (Cert.Bridge.Ref.ops2 (F := Ideal)) VR (rref Cert.ReferenceIdeal.main_v30) = VR (rref Cert.ReferenceIdeal.main_v30) := rfl
/-- The reference's operations of this slice do not write `main_arg2`. -/
theorem keptR_main_arg2 : after (Cert.Bridge.Ref.ops2 (F := Ideal)) VR (rref Cert.ReferenceIdeal.main_arg2) = VR (rref Cert.ReferenceIdeal.main_arg2) := rfl
/-- The reference's operations of this slice do not write `main_arg7`. -/
theorem keptR_main_arg7 : after (Cert.Bridge.Ref.ops2 (F := Ideal)) VR (rref Cert.ReferenceIdeal.main_arg7) = VR (rref Cert.ReferenceIdeal.main_arg7) := rfl
/-- The reference's operations of this slice do not write `main_arg8`. -/
theorem keptR_main_arg8 : after (Cert.Bridge.Ref.ops2 (F := Ideal)) VR (rref Cert.ReferenceIdeal.main_arg8) = VR (rref Cert.ReferenceIdeal.main_arg8) := rfl
/-- The reference's operations of this slice do not write `main_arg9`. -/
theorem keptR_main_arg9 : after (Cert.Bridge.Ref.ops2 (F := Ideal)) VR (rref Cert.ReferenceIdeal.main_arg9) = VR (rref Cert.ReferenceIdeal.main_arg9) := rfl
/-- The reference's operations of this slice do not write `main_arg10`. -/
theorem keptR_main_arg10 : after (Cert.Bridge.Ref.ops2 (F := Ideal)) VR (rref Cert.ReferenceIdeal.main_arg10) = VR (rref Cert.ReferenceIdeal.main_arg10) := rfl

end Cert.Bridge.Sim2

end
-- ==== Proof.Sim3.lean ====
/-
  The third slice: the third layer's Chebyshev terms of the second layer's output.
  The two programs run the SAME host operations here, on buffers that are numbered differently. From contents that
  agree on the values the slice reads, each value it computes is the same in both: both sides are read back from the
  fold of their operations and are one term of the values read.
-/
import proofs.«101723_j51754355916836_1_alg».proof.Proof.Gen.KernelIdeal.Frame
import proofs.«101723_j51754355916836_1_alg».proof.Proof.RefRun
import Idealize.ShloMosaic.PureOps.Ideal

set_option maxRecDepth 16384

noncomputable section

namespace Cert.Bridge.Sim3

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The kernel's `main_v120` is the reference's `main_v147`. -/
theorem val_main_v120
    (h0 : VK (kref Cert.KernelIdeal.main_v30) = VR (rref Cert.ReferenceIdeal.main_v30))
    (h1 : VK (kref Cert.KernelIdeal.main_v1) = VR (rref Cert.ReferenceIdeal.main_v1))
    (h2 : VK (kref Cert.KernelIdeal.main_v3) = VR (rref Cert.ReferenceIdeal.main_v3))
    (h3 : VK (kref Cert.KernelIdeal.main_v104) = VR (rref Cert.ReferenceIdeal.main_v128)) :
    after (Cert.KernelIdeal.Gen.hostOps2 (F := Ideal)) VK (kref Cert.KernelIdeal.main_v120)
      = after (Cert.Bridge.Ref.ops3 (F := Ideal)) VR (rref Cert.ReferenceIdeal.main_v147) := by
  dsimp only [Cert.KernelIdeal.Gen.hostOps2, Cert.Bridge.Ref.ops3]
  after_results_simp
  simp only [h0, h1, h2, h3]
  rfl

set_option maxHeartbeats 4000000 in
/-- The kernel's `main_v139` is the reference's `main_v170`. -/
theorem val_main_v139
    (h0 : VK (kref Cert.KernelIdeal.main_v30) = VR (rref Cert.ReferenceIdeal.main_v30))
    (h1 : VK (kref Cert.KernelIdeal.main_v1) = VR (rref Cert.ReferenceIdeal.main_v1))
    (h2 : VK (kref Cert.KernelIdeal.main_v3) = VR (rref Cert.ReferenceIdeal.main_v3))
    (h3 : VK (kref Cert.KernelIdeal.main_v104) = VR (rref Cert.ReferenceIdeal.main_v128)) :
    after (Cert.KernelIdeal.Gen.hostOps2 (F := Ideal)) VK (kref Cert.KernelIdeal.main_v139)
      = after (Cert.Bridge.Ref.ops3 (F := Ideal)) VR (rref Cert.ReferenceIdeal.main_v170) := by
  dsimp only [Cert.KernelIdeal.Gen.hostOps2, Cert.Bridge.Ref.ops3]
  after_results_simp
  simp only [h0, h1, h2, h3]
  rfl

set_option maxHeartbeats 4000000 in
/-- The bias as one row: the kernel's host side reshapes it. -/
theorem brow (hc : (Cert.KernelIdeal.S128 : Shape).ShapeCasts Cert.KernelIdeal.S1x128) :
    after (Cert.KernelIdeal.Gen.hostOps2 (F := Ideal)) VK (kref Cert.KernelIdeal.main_v140)
      = shapeCast Cert.KernelIdeal.S1x128 (VK (kref Cert.KernelIdeal.main_arg8)) hc := by
  dsimp only [Cert.KernelIdeal.Gen.hostOps2]
  after_results_simp
  rfl

/-- The kernel's host operations of this slice do not write `main_v104`. -/
theorem keptK_main_v104 : after (Cert.KernelIdeal.Gen.hostOps2 (F := Ideal)) VK (kref Cert.KernelIdeal.main_v104) = VK (kref Cert.KernelIdeal.main_v104) := rfl
/-- The kernel's host operations of this slice do not write `main_arg2`. -/
theorem keptK_main_arg2 : after (Cert.KernelIdeal.Gen.hostOps2 (F := Ideal)) VK (kref Cert.KernelIdeal.main_arg2) = VK (kref Cert.KernelIdeal.main_arg2) := rfl
/-- The kernel's host operations of this slice do not write `main_arg7`. -/
theorem keptK_main_arg7 : after (Cert.KernelIdeal.Gen.hostOps2 (F := Ideal)) VK (kref Cert.KernelIdeal.main_arg7) = VK (kref Cert.KernelIdeal.main_arg7) := rfl
/-- The kernel's host operations of this slice do not write `main_arg9`. -/
theorem keptK_main_arg9 : after (Cert.KernelIdeal.Gen.hostOps2 (F := Ideal)) VK (kref Cert.KernelIdeal.main_arg9) = VK (kref Cert.KernelIdeal.main_arg9) := rfl
/-- The kernel's host operations of this slice do not write `main_arg10`. -/
theorem keptK_main_arg10 : after (Cert.KernelIdeal.Gen.hostOps2 (F := Ideal)) VK (kref Cert.KernelIdeal.main_arg10) = VK (kref Cert.KernelIdeal.main_arg10) := rfl

/-- The reference's operations of this slice do not write `main_arg2`. -/
theorem keptR_main_arg2 : after (Cert.Bridge.Ref.ops3 (F := Ideal)) VR (rref Cert.ReferenceIdeal.main_arg2) = VR (rref Cert.ReferenceIdeal.main_arg2) := rfl
/-- The reference's operations of this slice do not write `main_arg9`. -/
theorem keptR_main_arg9 : after (Cert.Bridge.Ref.ops3 (F := Ideal)) VR (rref Cert.ReferenceIdeal.main_arg9) = VR (rref Cert.ReferenceIdeal.main_arg9) := rfl
/-- The reference's operations of this slice do not write `main_arg10`. -/
theorem keptR_main_arg10 : after (Cert.Bridge.Ref.ops3 (F := Ideal)) VR (rref Cert.ReferenceIdeal.main_arg10) = VR (rref Cert.ReferenceIdeal.main_arg10) := rfl

end Cert.Bridge.Sim3

end
-- ==== Proof.Sim4.lean ====
/-
  The fourth slice: the mean of the third layer's output over each graph's nodes (a segment sum divided by the clamped node count).
  The two programs run the SAME host operations here, on buffers that are numbered differently. From contents that
  agree on the values the slice reads, each value it computes is the same in both: both sides are read back from the
  fold of their operations and are one term of the values read.
-/
import proofs.«101723_j51754355916836_1_alg».proof.Proof.Gen.KernelIdeal.Frame
import proofs.«101723_j51754355916836_1_alg».proof.Proof.RefRun
import Idealize.ShloMosaic.PureOps.Ideal

set_option maxRecDepth 16384

noncomputable section

namespace Cert.Bridge.Sim4

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

set_option maxHeartbeats 4000000 in
/-- The kernel's `main_v153` is the reference's `main_v189`. -/
theorem val_main_v153
    (h0 : VK (kref Cert.KernelIdeal.main_v141) = VR (rref Cert.ReferenceIdeal.main_v177))
    (h1 : VK (kref Cert.KernelIdeal.main_arg2) = VR (rref Cert.ReferenceIdeal.main_arg2)) :
    after (Cert.KernelIdeal.Gen.hostOps3 (F := Ideal)) VK (kref Cert.KernelIdeal.main_v153)
      = after (Cert.Bridge.Ref.ops4 (F := Ideal)) VR (rref Cert.ReferenceIdeal.main_v189) := by
  dsimp only [Cert.KernelIdeal.Gen.hostOps3, Cert.Bridge.Ref.ops4]
  after_results_simp
  simp only [h0, h1]
  rfl

set_option maxHeartbeats 4000000 in
/-- The bias as one row: the kernel's host side reshapes it. -/
theorem brow (hc : (Cert.KernelIdeal.S10 : Shape).ShapeCasts Cert.KernelIdeal.S1x10) :
    after (Cert.KernelIdeal.Gen.hostOps3 (F := Ideal)) VK (kref Cert.KernelIdeal.main_v154)
      = shapeCast Cert.KernelIdeal.S1x10 (VK (kref Cert.KernelIdeal.main_arg10)) hc := by
  dsimp only [Cert.KernelIdeal.Gen.hostOps3]
  after_results_simp
  rfl

/-- The kernel's host operations of this slice do not write `main_arg9`. -/
theorem keptK_main_arg9 : after (Cert.KernelIdeal.Gen.hostOps3 (F := Ideal)) VK (kref Cert.KernelIdeal.main_arg9) = VK (kref Cert.KernelIdeal.main_arg9) := rfl

end Cert.Bridge.Sim4

end
-- ==== Proof.RefDense.lean ====
/-
  The reference's dense stage, entry by entry.

  On the host each layer's dense stage is written with whole-array operations: the weight stack is cut into its three
  matrices (a slice of one matrix, its unit axis dropped by a reshape), each Chebyshev term is multiplied by its
  matrix with a dot product over the input features, the three products are added in order, and the bias vector —
  first laid out as one row, then copied down all 50000 rows — is added last.  On the extended reals the dot product
  at row r and column q is the plain sum over the input features of the term's row r times the matrix' column q, and
  the copied bias at (r, q) is the bias' entry q; so the host's term, read at (r, q), is the dense stage of the
  specification at (r, q), with the bias taken as the one-row array of its entries.
-/
import proofs.«101723_j51754355916836_1_alg».proof.ReferenceIdeal
import proofs.«101723_j51754355916836_1_alg».proof.Proof.Spec
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

set_option maxRecDepth 16384

noncomputable section

namespace Cert.Bridge.RefDense

open Idealize.ShloMosaic Idealize.ShloMosaic.ValueIdx Cert.ReferenceIdeal

variable [Facts₀]
open Cert.ReferenceIdeal.Facts₀

/-! ## Layer 1: 128 input features, 192 output features -/

/-- The first layer's dense stage as the host computes it. -/
def refDense1 (A B C : FVec Ideal S50000x128 .f32) (W : FVec Ideal S3x128x192 .f32) (b : FVec Ideal S192 .f32) :
    FVec Ideal S50000x192 .f32 :=
  addf (addf (addf
      (Host.dotGeneral (F := Ideal) dot_S50000x128_S128x192_S50000x192_1_0_0_1_n_n none A
        (shapeCast S128x192 (extractStridedSlice S1x128x192 ![0, 0, 0] W slices_S3x128x192_S1x128x192_0_0_0) shapeCasts_S1x128x192_S128x192))
      (Host.dotGeneral (F := Ideal) dot_S50000x128_S128x192_S50000x192_1_0_0_1_n_n none B
        (shapeCast S128x192 (extractStridedSlice S1x128x192 ![1, 0, 0] W slices_S3x128x192_S1x128x192_1_0_0) shapeCasts_S1x128x192_S128x192)))
      (Host.dotGeneral (F := Ideal) dot_S50000x128_S128x192_S50000x192_1_0_0_1_n_n none C
        (shapeCast S128x192 (extractStridedSlice S1x128x192 ![2, 0, 0] W slices_S3x128x192_S1x128x192_2_0_0) shapeCasts_S1x128x192_S128x192)))
    (broadcastInDim S50000x192 ![0, 1] bcast_S1x192_S50000x192_0_1 (broadcastInDim S1x192 ![1] bcast_S192_S1x192_1 b))

namespace L1

/-- The dot product's dimension numbers: rows × features times features × outputs, the features contracted. -/
abbrev dd : DotDims S50000x128 S128x192 S50000x192 := dot_S50000x128_S128x192_S50000x192_1_0_0_1_n_n

/-- On the left operand's row axis the index is the output's row. -/
theorem lhs_row (j : S50000x192.Idx) (k : dd.contr.Idx) : (dd.lhsIdx j k 0).val = (j 0).val := by
  unfold DotDims.lhsIdx
  rw [dif_neg (show ¬(0 : Fin S50000x128.rank) ∈ dd.lhsBatch from List.not_mem_nil),
    dif_pos (show (0 : Fin S50000x128.rank) ∈ dd.lhsNonContracting from List.mem_singleton.mpr rfl)]
  rfl

/-- On the right operand's column axis the index is the output's column. -/
theorem rhs_col (j : S50000x192.Idx) (k : dd.contr.Idx) : (dd.rhsIdx j k 1).val = (j 1).val := by
  unfold DotDims.rhsIdx
  rw [dif_neg (show ¬(1 : Fin S128x192.rank) ∈ dd.rhsBatch from List.not_mem_nil),
    dif_pos (show (1 : Fin S128x192.rank) ∈ dd.rhsNonContracting from List.mem_singleton.mpr rfl)]
  rfl

/-- The host's dot product at row r and column q is the sum over the 128 features of the left operand's row r times
    the right operand's column q. -/
theorem dot_entry (x : FVec Ideal S50000x128 .f32) (y : FVec Ideal S128x192 .f32) (r : Fin 50000) (q : Fin 192) :
    Host.dotGeneral (F := Ideal) dd none x y (ix2 r q) = ∑ κ : Fin 128, x (ix2 r κ) * y (ix2 κ q) := by
  simp only [Host.dotGeneral]
  rw [Ideal.dotGeneral_apply, ← Equiv.sum_comp (contrEquiv1 dd 128 rfl rfl).symm]
  refine Finset.sum_congr rfl fun κ _ => ?_
  have hk := contrEquiv1_symm_val dd 128 rfl rfl κ
  have el : dd.lhsIdx (ix2 r q) ((contrEquiv1 dd 128 rfl rfl).symm κ) = ix2 r κ := funext fun a => Fin.ext (by
    match a with
    | ⟨0, _⟩ => exact lhs_row _ _
    | ⟨1, _⟩ => exact (dd.lhsIdx_val_of_single rfl _ _).trans hk)
  have er : dd.rhsIdx (ix2 r q) ((contrEquiv1 dd 128 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x128x192 .f32) (hs : S3x128x192.Slices off S1x128x192)
    (hc : S1x128x192.ShapeCasts S128x192) (c : Fin 3) (h0 : off 0 = c.val) (h1 : off 1 = 0) (h2 : off 2 = 0)
    (κ : Fin 128) (q : Fin 192) :
    shapeCast S128x192 (extractStridedSlice S1x128x192 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The bias laid out as one row and copied down the rows, read at (r, q), is the bias' entry q. -/
theorem bias_entry (b : FVec Ideal S192 .f32) (h1 : S192.BroadcastsInDim S1x192 (![1] : Fin 1 → Fin S1x192.rank))
    (h2 : S1x192.BroadcastsInDim S50000x192 (![0, 1] : Fin 2 → Fin S50000x192.rank)) (r : Fin 50000) (q : Fin 192) :
    broadcastInDim S50000x192 ![0, 1] h2 (broadcastInDim S1x192 ![1] h1 b) (ix2 r q) = b (ix1 q) := by
  refine (broadcastInDim_oneRow_apply h2 _ r q).trans ?_
  refine broadcastInDim_apply ![1] h1 b (ix2 (0 : Fin 1) q) (ix1 q) fun a => ?_
  match a with
  | ⟨0, _⟩ =>
    show q.val = if (192 : ℕ) = 1 then 0 else q.val
    rw [if_neg (by omega)]

end L1

/-- The host's first dense stage is the specification's, the bias read as its one-row array. -/
theorem refDense1_eq (A B C : FVec Ideal S50000x128 .f32) (W : FVec Ideal S3x128x192 .f32) (b : FVec Ideal S192 .f32)
    (h : (S192 : Shape).ShapeCasts S1x192) :
    refDense1 A B C W b = Cert.Spec.dense (n := 50000) (k := 128) (f := 192) A B C W (shapeCast S1x192 b h) := by
  funext j
  obtain ⟨r, q, rfl⟩ : ∃ (r : Fin 50000) (q : Fin 192), j = ix2 r q := ⟨j 0, j 1, eq_ix2 j⟩
  refine Eq.trans ?_ (Cert.Spec.dense_ix2 A B C W (shapeCast S1x192 b h) r q).symm
  unfold refDense1
  simp only [addf_apply]
  rw [L1.dot_entry, L1.dot_entry, L1.dot_entry, L1.bias_entry, shapeCast_a_1a_apply]
  have e0 : ∀ κ : Fin 128, shapeCast S128x192 (extractStridedSlice S1x128x192 ![0, 0, 0] W
      slices_S3x128x192_S1x128x192_0_0_0) shapeCasts_S1x128x192_S128x192 (ix2 κ q) = W (ix3 (0 : Fin 3) κ q) :=
    fun κ => L1.weight_entry ![0, 0, 0] W _ _ (0 : Fin 3) rfl rfl rfl κ q
  have e1 : ∀ κ : Fin 128, shapeCast S128x192 (extractStridedSlice S1x128x192 ![1, 0, 0] W
      slices_S3x128x192_S1x128x192_1_0_0) shapeCasts_S1x128x192_S128x192 (ix2 κ q) = W (ix3 (1 : Fin 3) κ q) :=
    fun κ => L1.weight_entry ![1, 0, 0] W _ _ (1 : Fin 3) rfl rfl rfl κ q
  have e2 : ∀ κ : Fin 128, shapeCast S128x192 (extractStridedSlice S1x128x192 ![2, 0, 0] W
      slices_S3x128x192_S1x128x192_2_0_0) shapeCasts_S1x128x192_S128x192 (ix2 κ q) = W (ix3 (2 : Fin 3) κ q) :=
    fun κ => L1.weight_entry ![2, 0, 0] W _ _ (2 : Fin 3) rfl rfl rfl κ q
  simp only [e0, e1, e2]

/-! ## Layer 2: 192 input features, 192 output features -/

/-- The second layer's dense stage as the host computes it. -/
def refDense2 (A B C : FVec Ideal S50000x192 .f32) (W : FVec Ideal S3x192x192 .f32) (b : FVec Ideal S192 .f32) :
    FVec Ideal S50000x192 .f32 :=
  addf (addf (addf
      (Host.dotGeneral (F := Ideal) dot_S50000x192_S192x192_S50000x192_1_0_0_1_n_n none A
        (shapeCast S192x192 (extractStridedSlice S1x192x192 ![0, 0, 0] W slices_S3x192x192_S1x192x192_0_0_0) shapeCasts_S1x192x192_S192x192))
      (Host.dotGeneral (F := Ideal) dot_S50000x192_S192x192_S50000x192_1_0_0_1_n_n none B
        (shapeCast S192x192 (extractStridedSlice S1x192x192 ![1, 0, 0] W slices_S3x192x192_S1x192x192_1_0_0) shapeCasts_S1x192x192_S192x192)))
      (Host.dotGeneral (F := Ideal) dot_S50000x192_S192x192_S50000x192_1_0_0_1_n_n none C
        (shapeCast S192x192 (extractStridedSlice S1x192x192 ![2, 0, 0] W slices_S3x192x192_S1x192x192_2_0_0) shapeCasts_S1x192x192_S192x192)))
    (broadcastInDim S50000x192 ![0, 1] bcast_S1x192_S50000x192_0_1 (broadcastInDim S1x192 ![1] bcast_S192_S1x192_1 b))

namespace L2

/-- The dot product's dimension numbers: rows × features times features × outputs, the features contracted. -/
abbrev dd : DotDims S50000x192 S192x192 S50000x192 := dot_S50000x192_S192x192_S50000x192_1_0_0_1_n_n

/-- On the left operand's row axis the index is the output's row. -/
theorem lhs_row (j : S50000x192.Idx) (k : dd.contr.Idx) : (dd.lhsIdx j k 0).val = (j 0).val := by
  unfold DotDims.lhsIdx
  rw [dif_neg (show ¬(0 : Fin S50000x192.rank) ∈ dd.lhsBatch from List.not_mem_nil),
    dif_pos (show (0 : Fin S50000x192.rank) ∈ dd.lhsNonContracting from List.mem_singleton.mpr rfl)]
  rfl

/-- On the right operand's column axis the index is the output's column. -/
theorem rhs_col (j : S50000x192.Idx) (k : dd.contr.Idx) : (dd.rhsIdx j k 1).val = (j 1).val := by
  unfold DotDims.rhsIdx
  rw [dif_neg (show ¬(1 : Fin S192x192.rank) ∈ dd.rhsBatch from List.not_mem_nil),
    dif_pos (show (1 : Fin S192x192.rank) ∈ dd.rhsNonContracting from List.mem_singleton.mpr rfl)]
  rfl

/-- The host's dot product at row r and column q is the sum over the 192 features of the left operand's row r times
    the right operand's column q. -/
theorem dot_entry (x : FVec Ideal S50000x192 .f32) (y : FVec Ideal S192x192 .f32) (r : Fin 50000) (q : Fin 192) :
    Host.dotGeneral (F := Ideal) dd none x y (ix2 r q) = ∑ κ : Fin 192, x (ix2 r κ) * y (ix2 κ q) := by
  simp only [Host.dotGeneral]
  rw [Ideal.dotGeneral_apply, ← Equiv.sum_comp (contrEquiv1 dd 192 rfl rfl).symm]
  refine Finset.sum_congr rfl fun κ _ => ?_
  have hk := contrEquiv1_symm_val dd 192 rfl rfl κ
  have el : dd.lhsIdx (ix2 r q) ((contrEquiv1 dd 192 rfl rfl).symm κ) = ix2 r κ := funext fun a => Fin.ext (by
    match a with
    | ⟨0, _⟩ => exact lhs_row _ _
    | ⟨1, _⟩ => exact (dd.lhsIdx_val_of_single rfl _ _).trans hk)
  have er : dd.rhsIdx (ix2 r q) ((contrEquiv1 dd 192 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x192x192 .f32) (hs : S3x192x192.Slices off S1x192x192)
    (hc : S1x192x192.ShapeCasts S192x192) (c : Fin 3) (h0 : off 0 = c.val) (h1 : off 1 = 0) (h2 : off 2 = 0)
    (κ : Fin 192) (q : Fin 192) :
    shapeCast S192x192 (extractStridedSlice S1x192x192 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The bias laid out as one row and copied down the rows, read at (r, q), is the bias' entry q. -/
theorem bias_entry (b : FVec Ideal S192 .f32) (h1 : S192.BroadcastsInDim S1x192 (![1] : Fin 1 → Fin S1x192.rank))
    (h2 : S1x192.BroadcastsInDim S50000x192 (![0, 1] : Fin 2 → Fin S50000x192.rank)) (r : Fin 50000) (q : Fin 192) :
    broadcastInDim S50000x192 ![0, 1] h2 (broadcastInDim S1x192 ![1] h1 b) (ix2 r q) = b (ix1 q) := by
  refine (broadcastInDim_oneRow_apply h2 _ r q).trans ?_
  refine broadcastInDim_apply ![1] h1 b (ix2 (0 : Fin 1) q) (ix1 q) fun a => ?_
  match a with
  | ⟨0, _⟩ =>
    show q.val = if (192 : ℕ) = 1 then 0 else q.val
    rw [if_neg (by omega)]

end L2

/-- The host's second dense stage is the specification's, the bias read as its one-row array. -/
theorem refDense2_eq (A B C : FVec Ideal S50000x192 .f32) (W : FVec Ideal S3x192x192 .f32) (b : FVec Ideal S192 .f32)
    (h : (S192 : Shape).ShapeCasts S1x192) :
    refDense2 A B C W b = Cert.Spec.dense (n := 50000) (k := 192) (f := 192) A B C W (shapeCast S1x192 b h) := by
  funext j
  obtain ⟨r, q, rfl⟩ : ∃ (r : Fin 50000) (q : Fin 192), j = ix2 r q := ⟨j 0, j 1, eq_ix2 j⟩
  refine Eq.trans ?_ (Cert.Spec.dense_ix2 A B C W (shapeCast S1x192 b h) r q).symm
  unfold refDense2
  simp only [addf_apply]
  rw [L2.dot_entry, L2.dot_entry, L2.dot_entry, L2.bias_entry, shapeCast_a_1a_apply]
  have e0 : ∀ κ : Fin 192, shapeCast S192x192 (extractStridedSlice S1x192x192 ![0, 0, 0] W
      slices_S3x192x192_S1x192x192_0_0_0) shapeCasts_S1x192x192_S192x192 (ix2 κ q) = W (ix3 (0 : Fin 3) κ q) :=
    fun κ => L2.weight_entry ![0, 0, 0] W _ _ (0 : Fin 3) rfl rfl rfl κ q
  have e1 : ∀ κ : Fin 192, shapeCast S192x192 (extractStridedSlice S1x192x192 ![1, 0, 0] W
      slices_S3x192x192_S1x192x192_1_0_0) shapeCasts_S1x192x192_S192x192 (ix2 κ q) = W (ix3 (1 : Fin 3) κ q) :=
    fun κ => L2.weight_entry ![1, 0, 0] W _ _ (1 : Fin 3) rfl rfl rfl κ q
  have e2 : ∀ κ : Fin 192, shapeCast S192x192 (extractStridedSlice S1x192x192 ![2, 0, 0] W
      slices_S3x192x192_S1x192x192_2_0_0) shapeCasts_S1x192x192_S192x192 (ix2 κ q) = W (ix3 (2 : Fin 3) κ q) :=
    fun κ => L2.weight_entry ![2, 0, 0] W _ _ (2 : Fin 3) rfl rfl rfl κ q
  simp only [e0, e1, e2]

/-! ## Layer 3: 192 input features, 128 output features -/

/-- The third layer's dense stage as the host computes it. -/
def refDense3 (A B C : FVec Ideal S50000x192 .f32) (W : FVec Ideal S3x192x128 .f32) (b : FVec Ideal S128 .f32) :
    FVec Ideal S50000x128 .f32 :=
  addf (addf (addf
      (Host.dotGeneral (F := Ideal) dot_S50000x192_S192x128_S50000x128_1_0_0_1_n_n none A
        (shapeCast S192x128 (extractStridedSlice S1x192x128 ![0, 0, 0] W slices_S3x192x128_S1x192x128_0_0_0) shapeCasts_S1x192x128_S192x128))
      (Host.dotGeneral (F := Ideal) dot_S50000x192_S192x128_S50000x128_1_0_0_1_n_n none B
        (shapeCast S192x128 (extractStridedSlice S1x192x128 ![1, 0, 0] W slices_S3x192x128_S1x192x128_1_0_0) shapeCasts_S1x192x128_S192x128)))
      (Host.dotGeneral (F := Ideal) dot_S50000x192_S192x128_S50000x128_1_0_0_1_n_n none C
        (shapeCast S192x128 (extractStridedSlice S1x192x128 ![2, 0, 0] W slices_S3x192x128_S1x192x128_2_0_0) shapeCasts_S1x192x128_S192x128)))
    (broadcastInDim S50000x128 ![0, 1] bcast_S1x128_S50000x128_0_1 (broadcastInDim S1x128 ![1] bcast_S128_S1x128_1 b))

namespace L3

/-- The dot product's dimension numbers: rows × features times features × outputs, the features contracted. -/
abbrev dd : DotDims S50000x192 S192x128 S50000x128 := dot_S50000x192_S192x128_S50000x128_1_0_0_1_n_n

/-- On the left operand's row axis the index is the output's row. -/
theorem lhs_row (j : S50000x128.Idx) (k : dd.contr.Idx) : (dd.lhsIdx j k 0).val = (j 0).val := by
  unfold DotDims.lhsIdx
  rw [dif_neg (show ¬(0 : Fin S50000x192.rank) ∈ dd.lhsBatch from List.not_mem_nil),
    dif_pos (show (0 : Fin S50000x192.rank) ∈ dd.lhsNonContracting from List.mem_singleton.mpr rfl)]
  rfl

/-- On the right operand's column axis the index is the output's column. -/
theorem rhs_col (j : S50000x128.Idx) (k : dd.contr.Idx) : (dd.rhsIdx j k 1).val = (j 1).val := by
  unfold DotDims.rhsIdx
  rw [dif_neg (show ¬(1 : Fin S192x128.rank) ∈ dd.rhsBatch from List.not_mem_nil),
    dif_pos (show (1 : Fin S192x128.rank) ∈ dd.rhsNonContracting from List.mem_singleton.mpr rfl)]
  rfl

/-- The host's dot product at row r and column q is the sum over the 192 features of the left operand's row r times
    the right operand's column q. -/
theorem dot_entry (x : FVec Ideal S50000x192 .f32) (y : FVec Ideal S192x128 .f32) (r : Fin 50000) (q : Fin 128) :
    Host.dotGeneral (F := Ideal) dd none x y (ix2 r q) = ∑ κ : Fin 192, x (ix2 r κ) * y (ix2 κ q) := by
  simp only [Host.dotGeneral]
  rw [Ideal.dotGeneral_apply, ← Equiv.sum_comp (contrEquiv1 dd 192 rfl rfl).symm]
  refine Finset.sum_congr rfl fun κ _ => ?_
  have hk := contrEquiv1_symm_val dd 192 rfl rfl κ
  have el : dd.lhsIdx (ix2 r q) ((contrEquiv1 dd 192 rfl rfl).symm κ) = ix2 r κ := funext fun a => Fin.ext (by
    match a with
    | ⟨0, _⟩ => exact lhs_row _ _
    | ⟨1, _⟩ => exact (dd.lhsIdx_val_of_single rfl _ _).trans hk)
  have er : dd.rhsIdx (ix2 r q) ((contrEquiv1 dd 192 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x192x128 .f32) (hs : S3x192x128.Slices off S1x192x128)
    (hc : S1x192x128.ShapeCasts S192x128) (c : Fin 3) (h0 : off 0 = c.val) (h1 : off 1 = 0) (h2 : off 2 = 0)
    (κ : Fin 192) (q : Fin 128) :
    shapeCast S192x128 (extractStridedSlice S1x192x128 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The bias laid out as one row and copied down the rows, read at (r, q), is the bias' entry q. -/
theorem bias_entry (b : FVec Ideal S128 .f32) (h1 : S128.BroadcastsInDim S1x128 (![1] : Fin 1 → Fin S1x128.rank))
    (h2 : S1x128.BroadcastsInDim S50000x128 (![0, 1] : Fin 2 → Fin S50000x128.rank)) (r : Fin 50000) (q : Fin 128) :
    broadcastInDim S50000x128 ![0, 1] h2 (broadcastInDim S1x128 ![1] h1 b) (ix2 r q) = b (ix1 q) := by
  refine (broadcastInDim_oneRow_apply h2 _ r q).trans ?_
  refine broadcastInDim_apply ![1] h1 b (ix2 (0 : Fin 1) q) (ix1 q) fun a => ?_
  match a with
  | ⟨0, _⟩ =>
    show q.val = if (128 : ℕ) = 1 then 0 else q.val
    rw [if_neg (by omega)]

end L3

/-- The host's third dense stage is the specification's, the bias read as its one-row array. -/
theorem refDense3_eq (A B C : FVec Ideal S50000x192 .f32) (W : FVec Ideal S3x192x128 .f32) (b : FVec Ideal S128 .f32)
    (h : (S128 : Shape).ShapeCasts S1x128) :
    refDense3 A B C W b = Cert.Spec.dense (n := 50000) (k := 192) (f := 128) A B C W (shapeCast S1x128 b h) := by
  funext j
  obtain ⟨r, q, rfl⟩ : ∃ (r : Fin 50000) (q : Fin 128), j = ix2 r q := ⟨j 0, j 1, eq_ix2 j⟩
  refine Eq.trans ?_ (Cert.Spec.dense_ix2 A B C W (shapeCast S1x128 b h) r q).symm
  unfold refDense3
  simp only [addf_apply]
  rw [L3.dot_entry, L3.dot_entry, L3.dot_entry, L3.bias_entry, shapeCast_a_1a_apply]
  have e0 : ∀ κ : Fin 192, shapeCast S192x128 (extractStridedSlice S1x192x128 ![0, 0, 0] W
      slices_S3x192x128_S1x192x128_0_0_0) shapeCasts_S1x192x128_S192x128 (ix2 κ q) = W (ix3 (0 : Fin 3) κ q) :=
    fun κ => L3.weight_entry ![0, 0, 0] W _ _ (0 : Fin 3) rfl rfl rfl κ q
  have e1 : ∀ κ : Fin 192, shapeCast S192x128 (extractStridedSlice S1x192x128 ![1, 0, 0] W
      slices_S3x192x128_S1x192x128_1_0_0) shapeCasts_S1x192x128_S192x128 (ix2 κ q) = W (ix3 (1 : Fin 3) κ q) :=
    fun κ => L3.weight_entry ![1, 0, 0] W _ _ (1 : Fin 3) rfl rfl rfl κ q
  have e2 : ∀ κ : Fin 192, shapeCast S192x128 (extractStridedSlice S1x192x128 ![2, 0, 0] W
      slices_S3x192x128_S1x192x128_2_0_0) shapeCasts_S1x192x128_S192x128 (ix2 κ q) = W (ix3 (2 : Fin 3) κ q) :=
    fun κ => L3.weight_entry ![2, 0, 0] W _ _ (2 : Fin 3) rfl rfl rfl κ q
  simp only [e0, e1, e2]

end Cert.Bridge.RefDense

end
-- ==== Proof.ClsSpec.lean ====
/-
  The classifier head as a function of whole arrays, entry by entry on the extended reals.
  For graph g and class j, with P the pooled features (64 graphs, 128 features), W the classifier's weights
  (128 features, 10 classes) and b its bias as one row:
      logit (g, j) = ∑ₖ P (g, k) · W (k, j) + b (0, j),
      top g        = the largest of the ten logits of row g (the maximum of a fold from −∞, the lattice's bottom),
      out (g, j)   = (logit (g, j) − top g) − log (∑_q exp (logit (g, q) − top g)),
  the logarithm of the softmax of row g, computed the numerically stable way: the row's largest logit is subtracted
  first, so every exponent is at most 0.
-/
import Idealize.ShloMosaic.PureOps.Ideal
import Idealize.ShloMosaic.Lib.ValueIdx
import Mathlib.Data.Finset.Fold

noncomputable section

namespace Cert.Bridge.Cls

open Idealize.ShloMosaic Idealize.ShloMosaic.ValueIdx

/-- The f32 word of −∞ denotes the bottom of the extended reals. -/
theorem ofBits_negInf_f32 : Ideal.ofBits .f32 0xFF800000#32 = ⊥ := by simp [Ideal.ofBits, Ideal.ieee]

/-- The logit of graph g for class j: the pooled row times the weight column, plus the bias. -/
def logit (P : FVec Ideal ⟨2, ![64, 128]⟩ .f32) (Wc : FVec Ideal ⟨2, ![128, 10]⟩ .f32) (bc : FVec Ideal ⟨2, ![1, 10]⟩ .f32)
    (g : Fin 64) (j : Fin 10) : EReal :=
  ∑ k : Fin 128, P (ix2 g k) * Wc (ix2 k j) + bc (ix2 (0 : Fin 1) j)

/-- The largest logit of row g: the fold of max over the ten classes, from −∞. -/
def top (P : FVec Ideal ⟨2, ![64, 128]⟩ .f32) (Wc : FVec Ideal ⟨2, ![128, 10]⟩ .f32) (bc : FVec Ideal ⟨2, ![1, 10]⟩ .f32)
    (g : Fin 64) : EReal :=
  (Finset.univ : Finset (Fin 10)).fold max ⊥ (fun q => logit P Wc bc g q)

/-- The log-softmax of the logits, row by row. -/
def cls (P : FVec Ideal ⟨2, ![64, 128]⟩ .f32) (Wc : FVec Ideal ⟨2, ![128, 10]⟩ .f32) (bc : FVec Ideal ⟨2, ![1, 10]⟩ .f32) :
    FVec Ideal ⟨2, ![64, 10]⟩ .f32 :=
  fun i =>
    (logit P Wc bc (i 0) (i 1) - top P Wc bc (i 0))
      - Ideal.log (∑ q : Fin 10, Ideal.exp (logit P Wc bc (i 0) q - top P Wc bc (i 0)))

/-- The same at explicit coordinates. -/
theorem cls_ix2 (P : FVec Ideal ⟨2, ![64, 128]⟩ .f32) (Wc : FVec Ideal ⟨2, ![128, 10]⟩ .f32) (bc : FVec Ideal ⟨2, ![1, 10]⟩ .f32)
    (g : Fin 64) (j : Fin 10) :
    cls P Wc bc (ix2 g j) =
      (logit P Wc bc g j - top P Wc bc g) - Ideal.log (∑ q : Fin 10, Ideal.exp (logit P Wc bc g q - top P Wc bc g)) := rfl

/-- Every logit of a row is at most the row's largest. -/
theorem logit_le_top (P : FVec Ideal ⟨2, ![64, 128]⟩ .f32) (Wc : FVec Ideal ⟨2, ![128, 10]⟩ .f32) (bc : FVec Ideal ⟨2, ![1, 10]⟩ .f32)
    (g : Fin 64) (j : Fin 10) : logit P Wc bc g j ≤ top P Wc bc g :=
  (Finset.le_fold_max _).mpr (Or.inr ⟨j, Finset.mem_univ j, le_rfl⟩)

end Cert.Bridge.Cls

end
-- ==== Proof.RefCls.lean ====
/-
  The reference's classifier head on the host is the specification cls.
  jnp computes log_softmax (pooled · W + b): a dot_general of the pooled features with the weights; the bias, a vector of
  ten entries, laid as one row and that row repeated down the 64 rows; their sum, the logits. Then, row by row: the
  maximum of the ten logits (a reduce by max from −∞; jax then takes the maximum with a splat of −∞ once more, which
  changes nothing), kept as a column and repeated along the row; the shifted logits; their exponentials; the sum of those
  (a reduce by + from 0), as a column; its logarithm, repeated along the row; and the difference.
  Entry by entry this is cls of the pooled features, the weights and the bias as a 1 × 10 row — the row being the
  one-row cast of the bias vector, whose entry (0, j) is the vector's entry j, as is the host's broadcast's.
-/
import proofs.«101723_j51754355916836_1_alg».proof.ReferenceIdeal
import proofs.«101723_j51754355916836_1_alg».proof.Proof.ClsSpec
import Idealize.ShloMosaic.PureOps.Ideal.Laws
import Idealize.ShloMosaic.Lib.ValueLayout
import Idealize.ShloMosaic.Lib.Pipeline.Value
import Idealize.ShloMosaic.Lib.IdealHost
import Idealize.ShloMosaic.Lib.KernelVsHost

set_option maxRecDepth 16384

noncomputable section

namespace Cert.Bridge.RefCls

open Idealize.ShloMosaic Idealize.ShloMosaic.ValueIdx
open Cert.ReferenceIdeal Cert.ReferenceIdeal.Facts₀ Cert.ReferenceIdeal.Facts
open Cert.Bridge.Cls

variable [Facts]

/-- The reference's last operations composed: the logits, the shifted logits, the log-softmax. -/
def refCls (P : FVec Ideal S64x128 .f32) (Wc : FVec Ideal S128x10 .f32) (b : FVec Ideal S10 .f32) : FVec Ideal S64x10 .f32 :=
  let logits : FVec Ideal S64x10 .f32 :=
    addf (Host.dotGeneral dot_S64x128_S128x10_S64x10_1_0_0_1_n_n none P Wc)
      (broadcastInDim S64x10 ![0, 1] bcast_S1x10_S64x10_0_1 (broadcastInDim S1x10 ![1] bcast_S10_S1x10_1 b))
  let shifted : FVec Ideal S64x10 .f32 :=
    subf logits
      (broadcastInDim S64x10 ![0, 1] bcast_S64x1_S64x10_0_1
        (broadcastInDim S64x1 ![0] bcast_S64_S64x1_0
          (maximumf (broadcastInDim S64 ![] bcast_S_S64 (constant S_ .f32 0xFF800000#32))
            (Host.reduce FloatOps.maximumf logits (constant S_ .f32 0xFF800000#32) reducesTo_S64x10_S64_d1 h_S_))))
  subf shifted
    (broadcastInDim S64x10 ![0, 1] bcast_S64x1_S64x10_0_1
      (Host.log
        (broadcastInDim S64x1 ![0] bcast_S64_S64x1_0
          (Host.reduceAdd (Host.exp shifted) (constant S_ .f32 0x00000000#32) reducesTo_S64x10_S64_d1 h_S_))))

/-! ## The two stages, named -/

/-- Stage one: the logits. -/
def hostLogits (P : FVec Ideal S64x128 .f32) (Wc : FVec Ideal S128x10 .f32) (b : FVec Ideal S10 .f32) : FVec Ideal S64x10 .f32 :=
  addf (Host.dotGeneral dot_S64x128_S128x10_S64x10_1_0_0_1_n_n none P Wc)
    (broadcastInDim S64x10 ![0, 1] bcast_S1x10_S64x10_0_1 (broadcastInDim S1x10 ![1] bcast_S10_S1x10_1 b))

/-- The row maxima of a 64 × 10 array as the host takes them, repeated along each row. -/
def hostTop (z : FVec Ideal S64x10 .f32) : FVec Ideal S64x10 .f32 :=
  broadcastInDim S64x10 ![0, 1] bcast_S64x1_S64x10_0_1
    (broadcastInDim S64x1 ![0] bcast_S64_S64x1_0
      (maximumf (broadcastInDim S64 ![] bcast_S_S64 (constant S_ .f32 0xFF800000#32))
        (Host.reduce FloatOps.maximumf z (constant S_ .f32 0xFF800000#32) reducesTo_S64x10_S64_d1 h_S_)))

/-- The logarithm of each row's sum as the host takes it, repeated along the row. -/
def hostLogSum (e : FVec Ideal S64x10 .f32) : FVec Ideal S64x10 .f32 :=
  broadcastInDim S64x10 ![0, 1] bcast_S64x1_S64x10_0_1
    (Host.log
      (broadcastInDim S64x1 ![0] bcast_S64_S64x1_0
        (Host.reduceAdd e (constant S_ .f32 0x00000000#32) reducesTo_S64x10_S64_d1 h_S_)))

/-- Stage two, on the logits z. -/
def hostLsm (z : FVec Ideal S64x10 .f32) : FVec Ideal S64x10 .f32 :=
  subf (subf z (hostTop z)) (hostLogSum (Host.exp (subf z (hostTop z))))

theorem refCls_split (P : FVec Ideal S64x128 .f32) (Wc : FVec Ideal S128x10 .f32) (b : FVec Ideal S10 .f32) :
    refCls P Wc b = hostLsm (hostLogits P Wc b) := rfl

/-! ## The layout operations at an entry -/

section Layout
variable {α : Type}

/-- A vector of 64 entries as a column: entry (g, 0) is entry g. -/
theorem column_apply (v : S64.Idx → α) (h : S64.BroadcastsInDim S64x1 ![0]) (g : Fin 64) :
    broadcastInDim S64x1 ![0] h v (ix2 g (0 : Fin 1)) = v (ix1 g) :=
  broadcastInDim_apply ![0] h v (ix2 g (0 : Fin 1)) (ix1 g) (fun a => match a with
    | ⟨0, _⟩ => by show g.val = if (64 : Nat) = 1 then 0 else g.val; rw [if_neg (by decide)])

/-- A column repeated along rows of ten: entry (g, j) is the column's entry (g, 0). -/
theorem alongRow_apply (v : S64x1.Idx → α) (h : S64x1.BroadcastsInDim S64x10 ![0, 1]) (g : Fin 64) (j : Fin 10) :
    broadcastInDim S64x10 ![0, 1] h v (ix2 g j) = v (ix2 g (0 : Fin 1)) :=
  broadcastInDim_apply ![0, 1] h v (ix2 g j) (ix2 g (0 : Fin 1)) (fun a => match a with
    | ⟨0, _⟩ => by show g.val = if (64 : Nat) = 1 then 0 else g.val; rw [if_neg (by decide)]
    | ⟨1, _⟩ => by show (0 : Nat) = if (1 : Nat) = 1 then 0 else j.val; rw [if_pos rfl])

/-- A vector of ten entries laid as one row: entry (0, j) is entry j. -/
theorem asRow_apply (v : S10.Idx → α) (h : S10.BroadcastsInDim S1x10 ![1]) (j : Fin 10) :
    broadcastInDim S1x10 ![1] h v (ix2 (0 : Fin 1) j) = v (ix1 j) :=
  broadcastInDim_apply ![1] h v (ix2 (0 : Fin 1) j) (ix1 j) (fun a => match a with
    | ⟨0, _⟩ => by show j.val = if (10 : Nat) = 1 then 0 else j.val; rw [if_neg (by decide)])

end Layout

/-! ## The product at an entry -/

/-- The product's dimension numbers: rows of the left operand against columns of the right, one contracted axis. -/
abbrev dotR : DotDims S64x128 S128x10 S64x10 := dot_S64x128_S128x10_S64x10_1_0_0_1_n_n

/-- The contraction has one axis. -/
theorem dotR_contr_pos : 0 < dotR.contr.rank := by rw [dotR.rank_contr]; exact Nat.one_pos

theorem dotR_lhs0 (i : S64x10.Idx) (q : dotR.contr.Idx) : (dotR.lhsIdx i q 0).val = (i 0).val := by
  unfold DotDims.lhsIdx
  rw [dif_neg (show ¬(0 : Fin S64x128.rank) ∈ dotR.lhsBatch from List.not_mem_nil),
    dif_pos (show (0 : Fin S64x128.rank) ∈ dotR.lhsNonContracting from List.mem_singleton.mpr rfl)]
  rfl

theorem dotR_lhs1 (i : S64x10.Idx) (q : dotR.contr.Idx) : (dotR.lhsIdx i q 1).val = (q ⟨0, dotR_contr_pos⟩).val :=
  dotR.lhsIdx_val_of_single rfl i q

theorem dotR_rhs0 (i : S64x10.Idx) (q : dotR.contr.Idx) : (dotR.rhsIdx i q 0).val = (q ⟨0, dotR_contr_pos⟩).val :=
  dotR.rhsIdx_val_of_single rfl i q

theorem dotR_rhs1 (i : S64x10.Idx) (q : dotR.contr.Idx) : (dotR.rhsIdx i q 1).val = (i 1).val := by
  unfold DotDims.rhsIdx
  rw [dif_neg (show ¬(1 : Fin S128x10.rank) ∈ dotR.rhsBatch from List.not_mem_nil),
    dif_pos (show (1 : Fin S128x10.rank) ∈ dotR.rhsNonContracting from List.mem_singleton.mpr rfl)]
  rfl

/-- The host's product at (g, j): the sum over the 128 features. -/
theorem dotGeneral_at (A : FVec Ideal S64x128 .f32) (B : FVec Ideal S128x10 .f32) (g : Fin 64) (j : Fin 10) :
    Host.dotGeneral dotR none A B (ix2 g j) = ∑ k : Fin 128, A (ix2 g k) * B (ix2 k j) := by
  simp only [Host.dotGeneral]
  rw [Ideal.dotGeneral_apply, ← Equiv.sum_comp (contrEquiv1 dotR 128 rfl rfl).symm]
  refine Finset.sum_congr rfl fun k _ => ?_
  have hk := contrEquiv1_symm_val dotR 128 rfl rfl k
  have el : dotR.lhsIdx (ix2 g j) ((contrEquiv1 dotR 128 rfl rfl).symm k) = ix2 g k := funext fun a => Fin.ext (by
    match a with
    | ⟨0, _⟩ => exact dotR_lhs0 _ _
    | ⟨1, _⟩ => exact (dotR_lhs1 _ _).trans hk)
  have er : dotR.rhsIdx (ix2 g j) ((contrEquiv1 dotR 128 rfl rfl).symm k) = ix2 k j := funext fun a => Fin.ext (by
    match a with
    | ⟨0, _⟩ => exact (dotR_rhs0 _ _).trans hk
    | ⟨1, _⟩ => exact dotR_rhs1 _ _)
  rw [el, er]

/-! ## Stage one at an entry -/

theorem hostLogits_at (P : FVec Ideal S64x128 .f32) (Wc : FVec Ideal S128x10 .f32) (b : FVec Ideal S10 .f32)
    (h : (S10 : Shape).ShapeCasts S1x10) (g : Fin 64) (j : Fin 10) :
    hostLogits P Wc b (ix2 g j) = logit P Wc (shapeCast S1x10 b h) g j := by
  unfold hostLogits logit
  rw [addf_apply, dotGeneral_at, broadcastInDim_oneRow_apply, asRow_apply, shapeCast_a_1a_apply]

theorem hostLogits_eq (P : FVec Ideal S64x128 .f32) (Wc : FVec Ideal S128x10 .f32) (b : FVec Ideal S10 .f32)
    (h : (S10 : Shape).ShapeCasts S1x10) :
    hostLogits P Wc b = fun i => logit P Wc (shapeCast S1x10 b h) (i 0) (i 1) := by
  funext i
  obtain ⟨g, j, rfl⟩ : ∃ (g : Fin 64) (j : Fin 10), i = ix2 g j := ⟨i 0, i 1, eq_ix2 i⟩
  exact hostLogits_at P Wc b h g j

/-! ## Stage two at an entry -/

/-- The index over row g with class q put back on the reduced axis is (g, q). -/
theorem lift_row (hR : S64x10.Reduces [1] S64) (g : Fin 64) (q : Fin 10) : hR.lift (ix1 g) q = ix2 g q :=
  funext fun a => Fin.ext (by
    match a with
    | ⟨0, _⟩ => rfl
    | ⟨1, _⟩ => rfl)

/-- The host's reduce by max along the class axis from −∞, at row g: the fold of max over the ten classes from ⊥. -/
theorem hostMax_at (z : FVec Ideal S64x10 .f32) (h' : S64x10.ReducesTo [1] S64) (hu : 0 < S_.numel) (g : Fin 64) :
    Host.reduce FloatOps.maximumf z (constant S_ .f32 0xFF800000#32) h' hu (ix1 g)
      = (Finset.univ : Finset (Fin 10)).fold max ⊥ (fun q => z (ix2 g q)) := by
  have hR : S64x10.Reduces [1] S64 := by decide
  rw [Host.reduce_eq_fold_single FloatOps.maximumf z _ h' hR hu]
  have e : (Finset.univ : Finset (Fin 10)).fold max (Ideal.ofBits .f32 0xFF800000#32) (fun q => z (hR.lift (ix1 g) q))
      = (Finset.univ : Finset (Fin 10)).fold max ⊥ (fun q => z (ix2 g q)) := by
    rw [ofBits_negInf_f32]
    exact congrArg (fun f => (Finset.univ : Finset (Fin 10)).fold max ⊥ f) (funext fun q => congrArg z (lift_row hR g q))
  exact e

/-- The host's reduce by + along the class axis from 0, at row g: the sum over the ten classes. -/
theorem hostSum_at (e : FVec Ideal S64x10 .f32) (h' : S64x10.ReducesTo [1] S64) (hu : 0 < S_.numel) (g : Fin 64) :
    Host.reduceAdd e (constant S_ .f32 0x00000000#32) h' hu (ix1 g) = ∑ q : Fin 10, e (ix2 g q) := by
  have hR : S64x10.Reduces [1] S64 := by decide
  rw [hostReduceAdd_apply, Ideal.hostReduceAdd_single h' hR]
  show Ideal.ofBits .f32 0x00000000#32 + ∑ q : Fin 10, e (hR.lift (ix1 g) q) = _
  rw [Ideal.ofBits_zero_f32, zero_add]
  exact Finset.sum_congr rfl fun q _ => congrArg e (lift_row hR g q)

theorem hostTop_at (z : FVec Ideal S64x10 .f32) (g : Fin 64) (j : Fin 10) :
    hostTop z (ix2 g j) = (Finset.univ : Finset (Fin 10)).fold max ⊥ (fun q => z (ix2 g q)) := by
  unfold hostTop
  rw [alongRow_apply, column_apply, maximumf_apply, hostMax_at, broadcastInDim_scalar_apply, constant_apply,
    ofBits_negInf_f32]
  exact max_eq_right bot_le

theorem hostLogSum_at (e : FVec Ideal S64x10 .f32) (g : Fin 64) (j : Fin 10) :
    hostLogSum e (ix2 g j) = Ideal.log (∑ q : Fin 10, e (ix2 g q)) := by
  unfold hostLogSum
  rw [alongRow_apply]
  exact congrArg Ideal.log ((column_apply _ _ g).trans (hostSum_at e _ _ g))

theorem hostLsm_at (z : FVec Ideal S64x10 .f32) (g : Fin 64) (j : Fin 10) :
    hostLsm z (ix2 g j)
      = (z (ix2 g j) - (Finset.univ : Finset (Fin 10)).fold max ⊥ (fun q => z (ix2 g q)))
        - Ideal.log (∑ q : Fin 10, Ideal.exp (z (ix2 g q) - (Finset.univ : Finset (Fin 10)).fold max ⊥ (fun q' => z (ix2 g q')))) := by
  unfold hostLsm
  rw [subf_apply, subf_apply, hostLogSum_at, hostTop_at]
  refine congrArg (fun s => (z (ix2 g j) - (Finset.univ : Finset (Fin 10)).fold max ⊥ (fun q => z (ix2 g q))) - Ideal.log s) ?_
  refine Finset.sum_congr rfl fun q _ => ?_
  show Ideal.exp (z (ix2 g q) - hostTop z (ix2 g q)) = _
  rw [hostTop_at]

/-! ## The reference's classifier is the specification -/

theorem refCls_eq (P : FVec Ideal S64x128 .f32) (Wc : FVec Ideal S128x10 .f32) (b : FVec Ideal S10 .f32)
    (h : (S10 : Shape).ShapeCasts S1x10) : refCls P Wc b = Cert.Bridge.Cls.cls P Wc (shapeCast S1x10 b h) := by
  rw [refCls_split, hostLogits_eq P Wc b h]
  funext i
  obtain ⟨g, j, rfl⟩ : ∃ (g : Fin 64) (j : Fin 10), i = ix2 g j := ⟨i 0, i 1, eq_ix2 i⟩
  rw [hostLsm_at]
  rfl

end Cert.Bridge.RefCls

end
-- ==== Proof.SimOut.lean ====
/-
  Each layer's output on the reference's side: the three products of the layer's Chebyshev terms with the three weight
  matrices, their two sums and the broadcast bias, read back from the fold of the slice's operations; and the
  classifier's: the product with the class weights, the bias, and the log-softmax over the ten classes.
-/
import proofs.«101723_j51754355916836_1_alg».proof.Proof.RefRun
import proofs.«101723_j51754355916836_1_alg».proof.Proof.RefDense
import proofs.«101723_j51754355916836_1_alg».proof.Proof.RefCls
import Idealize.ShloMosaic.PureOps.Ideal

set_option maxRecDepth 16384

noncomputable section

namespace Cert.Bridge.SimOut

open Idealize.ShloMosaic Idealize.ShloMosaic.TcCoe Idealize.SL.Sem Idealize.ShloMosaic.StableHlo

variable (VR : Valuation Cert.ReferenceIdeal.τ Cert.ReferenceIdeal.sig (Elt Ideal))

local notation "rref" => Proc.devRef (τ := Cert.ReferenceIdeal.τ) (sig := Cert.ReferenceIdeal.sig) Proc.tc

set_option maxHeartbeats 4000000 in
/-- Layer 1's output is the dense stage of the layer's input, its two further Chebyshev terms, its weights and bias. -/
theorem out1 :
    after (Cert.Bridge.Ref.ops1 (F := Ideal)) VR (rref Cert.ReferenceIdeal.main_v79)
      = Cert.Bridge.RefDense.refDense1 (VR (rref Cert.ReferenceIdeal.main_arg0)) (after (Cert.Bridge.Ref.ops1 (F := Ideal)) VR (rref Cert.ReferenceIdeal.main_v49)) (after (Cert.Bridge.Ref.ops1 (F := Ideal)) VR (rref Cert.ReferenceIdeal.main_v72)) (VR (rref Cert.ReferenceIdeal.main_arg3)) (VR (rref Cert.ReferenceIdeal.main_arg4)) := by
  dsimp only [Cert.Bridge.Ref.ops1]
  after_results_simp
  rfl

set_option maxHeartbeats 4000000 in
/-- Layer 2's output is the dense stage of the layer's input, its two further Chebyshev terms, its weights and bias. -/
theorem out2 :
    after (Cert.Bridge.Ref.ops2 (F := Ideal)) VR (rref Cert.ReferenceIdeal.main_v128)
      = Cert.Bridge.RefDense.refDense2 (VR (rref Cert.ReferenceIdeal.main_v79)) (after (Cert.Bridge.Ref.ops2 (F := Ideal)) VR (rref Cert.ReferenceIdeal.main_v98)) (after (Cert.Bridge.Ref.ops2 (F := Ideal)) VR (rref Cert.ReferenceIdeal.main_v121)) (VR (rref Cert.ReferenceIdeal.main_arg5)) (VR (rref Cert.ReferenceIdeal.main_arg6)) := by
  dsimp only [Cert.Bridge.Ref.ops2]
  after_results_simp
  rfl

set_option maxHeartbeats 4000000 in
/-- Layer 3's output is the dense stage of the layer's input, its two further Chebyshev terms, its weights and bias. -/
theorem out3 :
    after (Cert.Bridge.Ref.ops3 (F := Ideal)) VR (rref Cert.ReferenceIdeal.main_v177)
      = Cert.Bridge.RefDense.refDense3 (VR (rref Cert.ReferenceIdeal.main_v128)) (after (Cert.Bridge.Ref.ops3 (F := Ideal)) VR (rref Cert.ReferenceIdeal.main_v147)) (after (Cert.Bridge.Ref.ops3 (F := Ideal)) VR (rref Cert.ReferenceIdeal.main_v170)) (VR (rref Cert.ReferenceIdeal.main_arg7)) (VR (rref Cert.ReferenceIdeal.main_arg8)) := by
  dsimp only [Cert.Bridge.Ref.ops3]
  after_results_simp
  rfl

set_option maxHeartbeats 4000000 in
/-- The result is the classifier's log-softmax of the pooled means. -/
theorem out4 :
    after (Cert.Bridge.Ref.ops4 (F := Ideal)) VR (rref Cert.ReferenceIdeal.main_v194)
      = Cert.Bridge.RefCls.refCls (after (Cert.Bridge.Ref.ops4 (F := Ideal)) VR (rref Cert.ReferenceIdeal.main_v189)) (VR (rref Cert.ReferenceIdeal.main_arg9)) (VR (rref Cert.ReferenceIdeal.main_arg10)) := by
  dsimp only [Cert.Bridge.Ref.ops4]
  after_results_simp
  rfl

end Cert.Bridge.SimOut

end
-- ==== Proof.DensePay0.lean ====
/-
  One block of the first dense stage, entry by entry.

  The body works on 2000 rows at a time.  It takes the three Chebyshev terms of those rows (each 2000 × 128), the
  three stacked weight matrices (3 × 128 × 192) and the bias row (1 × 192); it cuts the stack into its three
  128 × 192 matrices, multiplies each term by its matrix into a zero accumulator, adds the three products in
  order and then adds the bias row to every row.  On the extended reals a change of float format is the identity and a
  product into a zero accumulator is the plain sum over the 128 input features, so the block is exactly the dense
  stage of the specification read on these 2000 rows.
-/
import proofs.«101723_j51754355916836_1_alg».proof.Proof.Gen.KernelIdeal.Skeleton
import proofs.«101723_j51754355916836_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Bridge.Dense0

open Idealize.ShloMosaic Idealize.ShloMosaic.ValueIdx Cert.KernelIdeal Cert.KernelIdeal.Gen

/-- The product's dimension numbers: rows × features times features × outputs, the features contracted. -/
abbrev dd : DotDims S2000x128 S128x192 S2000x192 := dot_S2000x128_S128x192_S2000x192_1_0_0_1_n_n

/-- On the left operand's row axis the index is the output's row. -/
theorem lhs_row (j : S2000x192.Idx) (k : dd.contr.Idx) : (dd.lhsIdx j k 0).val = (j 0).val := by
  unfold DotDims.lhsIdx
  rw [dif_neg (show ¬(0 : Fin S2000x128.rank) ∈ dd.lhsBatch by decide),
    dif_pos (show (0 : Fin S2000x128.rank) ∈ dd.lhsNonContracting by decide)]
  rfl

/-- On the right operand's column axis the index is the output's column. -/
theorem rhs_col (j : S2000x192.Idx) (k : dd.contr.Idx) : (dd.rhsIdx j k 1).val = (j 1).val := by
  unfold DotDims.rhsIdx
  rw [dif_neg (show ¬(1 : Fin S128x192.rank) ∈ dd.rhsBatch by decide),
    dif_pos (show (1 : Fin S128x192.rank) ∈ dd.rhsNonContracting by decide)]
  rfl

/-- A product into a zero accumulator, at row p and column q, is the sum over the 128 features of the left operand's
    row p times the right operand's column q. -/
theorem matmul_entry (x : FVec Ideal S2000x128 .bf16) (y : FVec Ideal S128x192 .bf16) (p : Fin 2000) (q : Fin 192) :
    matmul (F := Ideal) dd none x y (constant S2000x192 .f32 0x00000000#32) (ix2 p q)
      = ∑ κ : Fin 128, x (ix2 p κ) * y (ix2 κ q) := by
  refine (Ideal.matmul_constant_zero_apply dd none x y (ix2 p q)).trans ?_
  rw [← Equiv.sum_comp (contrEquiv1 dd 128 rfl rfl).symm]
  refine Finset.sum_congr rfl fun κ _ => ?_
  have hk := contrEquiv1_symm_val dd 128 rfl rfl κ
  have el : dd.lhsIdx (ix2 p q) ((contrEquiv1 dd 128 rfl rfl).symm κ) = ix2 p κ := funext fun a => Fin.ext (by
    match a with
    | ⟨0, _⟩ => exact lhs_row _ _
    | ⟨1, _⟩ => exact (dd.lhsIdx_val_of_single rfl _ _).trans hk)
  have er : dd.rhsIdx (ix2 p q) ((contrEquiv1 dd 128 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x128x192 .f32) (hs : S3x128x192.Slices off S1x128x192)
    (hc : S1x128x192.ShapeCasts S128x192) (c : Fin 3) (h0 : off 0 = c.val) (h1 : off 1 = 0) (h2 : off 2 = 0)
    (κ : Fin 128) (q : Fin 192) :
    shapeCast S128x192 (extractStridedSlice S1x128x192 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The block the body stores is the dense stage of its five loaded blocks. -/
theorem pay0_eq (w : Vec Ideal S3x128x192 .f32) (a b c : Vec Ideal S2000x128 .f32) (bias : Vec Ideal S1x192 .f32) :
    k0_pay1 (F := Ideal) w a b c bias = Cert.Spec.dense a b c w bias := by
  funext j
  obtain ⟨p, q, rfl⟩ : ∃ (p : Fin 2000) (q : Fin 192), j = ix2 p q := ⟨j 0, j 1, eq_ix2 j⟩
  refine Eq.trans ?_ (Cert.Spec.dense_ix2 a b c w bias p q).symm
  unfold k0_pay1
  simp only [addf_apply, shapeCast_self]
  rw [matmul_entry, matmul_entry, matmul_entry, broadcastTo_1b_ab_apply]
  simp only [truncf_apply]
  have e0 : ∀ κ : Fin 128, shapeCast S128x192 (extractStridedSlice S1x128x192 ![0, 0, 0] w
      slices_S3x128x192_o0_0_0_S1x128x192) shapeCasts_S1x128x192_S128x192 (ix2 κ q) = w (ix3 (0 : Fin 3) κ q) :=
    fun κ => weight_entry ![0, 0, 0] w _ _ (0 : Fin 3) rfl rfl rfl κ q
  have e1 : ∀ κ : Fin 128, shapeCast S128x192 (extractStridedSlice S1x128x192 ![1, 0, 0] w
      slices_S3x128x192_o1_0_0_S1x128x192) shapeCasts_S1x128x192_S128x192 (ix2 κ q) = w (ix3 (1 : Fin 3) κ q) :=
    fun κ => weight_entry ![1, 0, 0] w _ _ (1 : Fin 3) rfl rfl rfl κ q
  have e2 : ∀ κ : Fin 128, shapeCast S128x192 (extractStridedSlice S1x128x192 ![2, 0, 0] w
      slices_S3x128x192_o2_0_0_S1x128x192) shapeCasts_S1x128x192_S128x192 (ix2 κ q) = w (ix3 (2 : Fin 3) κ q) :=
    fun κ => weight_entry ![2, 0, 0] w _ _ (2 : Fin 3) rfl rfl rfl κ q
  simp only [e0, e1, e2]

end Cert.Bridge.Dense0

end
-- ==== Proof.DenseFinal0.lean ====
/-
  The first dense stage on the whole arrays.

  The stage runs over 25 grid points.  Point t stages rows 2000·t … 2000·t + 1999 of each of the three Chebyshev
  terms, the whole weight stack and the whole bias row, and writes back rows 2000·t … 2000·t + 1999 of the result.
  An entry of the dense stage in row r depends only on row r of the three terms (and on all of the weights and the
  bias), so the block point t writes is exactly rows 2000·t … of the dense stage of the WHOLE arrays; the 25 row
  blocks tile the 50000 rows (row r lies in block r / 2000), so after the last point the result array is the dense
  stage of the five arrays the region found.
-/
import proofs.«101723_j51754355916836_1_alg».proof.Proof.Gen.KernelIdeal.Frame
import proofs.«101723_j51754355916836_1_alg».proof.Proof.DensePay0
import Idealize.ShloMosaic.Lib.Pipeline.Value

set_option maxRecDepth 16384

noncomputable section

namespace Cert.Bridge.Dense0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- An entry of the dense stage in row p of a block of rows equals the entry in row r of the whole arrays as soon as
    row p of each of the block's three terms is row r of the whole term (same weights, same bias). -/
theorem dense_row (A B C : FVec Ideal S50000x128 .f32) (a b c : FVec Ideal S2000x128 .f32)
    (W : FVec Ideal S3x128x192 .f32) (bb : FVec Ideal S1x192 .f32) (p : Fin 2000) (r : Fin 50000) (q : Fin 192)
    (ha : ∀ κ : Fin 128, a (ix2 p κ) = A (ix2 r κ)) (hb : ∀ κ : Fin 128, b (ix2 p κ) = B (ix2 r κ))
    (hc : ∀ κ : Fin 128, c (ix2 p κ) = C (ix2 r κ)) :
    Cert.Spec.dense a b c W bb (ix2 p q) = Cert.Spec.dense A B C W bb (ix2 r q) := by
  rw [Cert.Spec.dense_ix2, Cert.Spec.dense_ix2]
  simp only [ha, hb, hc]

/-- The block indices of the six windows at point t, decided over the 25 points: the three terms and the result move
    down the rows with t, the weights and the bias stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first term's block at point t is row 2000·t + p of the first term. -/
theorem term0_row (c : Dev nD) (t : Fin cfg0.N) (p : Fin 2000) (κ : Fin 128) (r : Fin 50000)
    (hr : r.val = 2000 * t.val + p.val) :
    (iblk0 V c 0 t : Vec Ideal S2000x128 .f32) (ix2 p κ)
      = (V c (Pipeline.arrRef spec0 0) : Vec Ideal S50000x128 .f32) (ix2 r κ) := by
  obtain ⟨e0, e1, -⟩ := block_index t
  unfold iblk0
  rw [View.read_apply]
  show V c main_arg0 (((cfg0.win 0).blk t).view.emb (ix2 p κ)) = V c main_arg0 (ix2 r κ)
  refine congrArg (V c main_arg0) ?_
  funext a; apply Fin.ext
  match a with
  | ⟨0, _⟩ => show win0_0.index t (0 : Fin 2) * 2000 + 1 * p.val = r.val; omega
  | ⟨1, _⟩ => show win0_0.index t (1 : Fin 2) * 128 + 1 * κ.val = κ.val; omega

/-- Row p of the second term's block at point t is row 2000·t + p of the second term. -/
theorem term1_row (c : Dev nD) (t : Fin cfg0.N) (p : Fin 2000) (κ : Fin 128) (r : Fin 50000)
    (hr : r.val = 2000 * t.val + p.val) :
    (iblk0 V c 1 t : Vec Ideal S2000x128 .f32) (ix2 p κ)
      = (V c (Pipeline.arrRef spec0 1) : Vec Ideal S50000x128 .f32) (ix2 r κ) := by
  obtain ⟨-, -, e0, e1, -⟩ := block_index t
  unfold iblk0
  rw [View.read_apply]
  show V c main_v46 (((cfg0.win 1).blk t).view.emb (ix2 p κ)) = V c main_v46 (ix2 r κ)
  refine congrArg (V c main_v46) ?_
  funext a; apply Fin.ext
  match a with
  | ⟨0, _⟩ => show win0_1.index t (0 : Fin 2) * 2000 + 1 * p.val = r.val; omega
  | ⟨1, _⟩ => show win0_1.index t (1 : Fin 2) * 128 + 1 * κ.val = κ.val; omega

/-- Row p of the third term's block at point t is row 2000·t + p of the third term. -/
theorem term2_row (c : Dev nD) (t : Fin cfg0.N) (p : Fin 2000) (κ : Fin 128) (r : Fin 50000)
    (hr : r.val = 2000 * t.val + p.val) :
    (iblk0 V c 2 t : Vec Ideal S2000x128 .f32) (ix2 p κ)
      = (V c (Pipeline.arrRef spec0 2) : Vec Ideal S50000x128 .f32) (ix2 r κ) := by
  obtain ⟨-, -, -, -, e0, e1, -⟩ := block_index t
  unfold iblk0
  rw [View.read_apply]
  show V c main_v65 (((cfg0.win 2).blk t).view.emb (ix2 p κ)) = V c main_v65 (ix2 r κ)
  refine congrArg (V c main_v65) ?_
  funext a; apply Fin.ext
  match a with
  | ⟨0, _⟩ => show win0_2.index t (0 : Fin 2) * 2000 + 1 * p.val = r.val; omega
  | ⟨1, _⟩ => show win0_2.index t (1 : Fin 2) * 128 + 1 * κ.val = κ.val; omega

/-- The weights' block at every point is the whole weight stack. -/
theorem weights_whole (c : Dev nD) (t : Fin cfg0.N) :
    (iblk0 V c 3 t : Vec Ideal S3x128x192 .f32) = (V c (Pipeline.arrRef spec0 3) : Vec Ideal S3x128x192 .f32) := by
  obtain ⟨-, -, -, -, -, -, e0, e1, e2, -⟩ := block_index t
  funext y
  unfold iblk0
  rw [View.read_apply]
  show V c main_arg3 (((cfg0.win 3).blk t).view.emb y) = V c main_arg3 y
  refine congrArg (V c main_arg3) ?_
  funext a; apply Fin.ext
  match a with
  | ⟨0, _⟩ => show win0_3.index t (0 : Fin 3) * 3 + 1 * (y 0).val = (y 0).val; omega
  | ⟨1, _⟩ => show win0_3.index t (1 : Fin 3) * 128 + 1 * (y 1).val = (y 1).val; omega
  | ⟨2, _⟩ => show win0_3.index t (2 : Fin 3) * 192 + 1 * (y 2).val = (y 2).val; omega

/-- The bias' block at every point is the whole bias row. -/
theorem bias_whole (c : Dev nD) (t : Fin cfg0.N) :
    (iblk0 V c 4 t : Vec Ideal S1x192 .f32) = (V c (Pipeline.arrRef spec0 4) : Vec Ideal S1x192 .f32) := by
  obtain ⟨-, -, -, -, -, -, -, -, -, e0, e1, -⟩ := block_index t
  funext y
  unfold iblk0
  rw [View.read_apply]
  show V c main_v66 (((cfg0.win 4).blk t).view.emb y) = V c main_v66 y
  refine congrArg (V c main_v66) ?_
  funext a; apply Fin.ext
  match a with
  | ⟨0, _⟩ => show win0_4.index t (0 : Fin 2) * 1 + 1 * (y 0).val = (y 0).val; omega
  | ⟨1, _⟩ => show win0_4.index t (1 : Fin 2) * 192 + 1 * (y 1).val = (y 1).val; omega

/-- The dense stage of the five arrays the region finds. -/
abbrev result (c : Dev nD) : FVec Ideal S50000x192 .f32 :=
  Cert.Spec.dense (n := 50000) (k := 128) (f := 192) (V c (Pipeline.arrRef spec0 0)) (V c (Pipeline.arrRef spec0 1))
    (V c (Pipeline.arrRef spec0 2)) (V c (Pipeline.arrRef spec0 3)) (V c (Pipeline.arrRef spec0 4))

/-- What point t writes back is rows 2000·t … 2000·t + 1999 of the dense stage of the whole arrays. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero zero2]
  simp only [View.ld_unit_zero (S := S2000x128) zero2, View.ld_unit_zero (S := S3x128x192) zero3,
    View.ld_unit_zero (S := S1x192) zero2]
  rw [pay0_eq, weights_whole V c t, bias_whole V c t]
  obtain ⟨-, -, -, -, -, -, -, -, -, -, -, e0, e1⟩ := block_index t
  have hN : cfg0.N = 25 := N_0
  have ht : t.val < 25 := hN ▸ t.isLt
  funext j
  obtain ⟨p, q, rfl⟩ : ∃ (p : Fin 2000) (q : Fin 192), j = ix2 p q := ⟨j 0, j 1, eq_ix2 j⟩
  rw [View.read_apply]
  have hemb : ((cfg0.win 5).blk t).view.emb (ix2 p q) = (ix2 (⟨2000 * t.val + p.val, by omega⟩ : Fin 50000) q : S50000x192.Idx) := by
    funext a; apply Fin.ext
    match a with
    | ⟨0, _⟩ => show win0_5.index t (0 : Fin 2) * 2000 + 1 * p.val = 2000 * t.val + p.val; omega
    | ⟨1, _⟩ => show win0_5.index t (1 : Fin 2) * 192 + 1 * q.val = q.val; omega
  refine Eq.trans ?_ (congrArg (result V c) hemb).symm
  exact dense_row _ _ _ _ _ _ _ _ p ⟨2000 * t.val + p.val, by omega⟩ q
    (fun κ => term0_row V c t p κ _ rfl) (fun κ => term1_row V c t p κ _ rfl) (fun κ => term2_row V c t p κ _ rfl)

/-- A row and column of the result lie in point t's block iff the row is one of 2000·t … 2000·t + 1999. -/
theorem mem_blk (t : Fin cfg0.N) (i : S50000x192.Idx) :
    i ∈ ((cfg0.win 5).blk t).view.set ↔ ∀ a : Fin 2, win0_5.index t a * S2000x192.size a ≤ (i a).val ∧ (i a).val < win0_5.index t a * S2000x192.size a + S2000x192.size a := by
  show i ∈ ((View.whole main_v67).slice (win0_5.rect t)).set ↔ _
  rw [View.set_slice_whole, Rect.mem_set_unit]
  exact Iff.rfl

/-- Every entry of the result is written by some point: row r by point r / 2000. -/
theorem cover (i : S50000x192.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 192 := (i 1).isLt
  let t : Fin cfg0.N := ⟨(i 0).val / 2000, by rw [hN]; omega⟩
  have htv : t.val = (i 0).val / 2000 := rfl
  obtain ⟨-, -, -, -, -, -, -, -, -, -, -, e0, e1⟩ := block_index t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 192 ≤ (i 1).val ∧ (i 1).val < win0_5.index t (1 : Fin 2) * 192 + 192; omega

/-- After the region the result array is the dense stage of the five arrays the region found. -/
theorem final0 (c : Dev nD) :
    (dat0 (F := Ideal) V c).arrAt 5 cfg0.N
      = Cert.Spec.dense (n := 50000) (k := 128) (f := 192) (V c (Pipeline.arrRef spec0 0)) (V c (Pipeline.arrRef spec0 1))
          (V c (Pipeline.arrRef spec0 2)) (V c (Pipeline.arrRef spec0 3)) (V c (Pipeline.arrRef spec0 4)) :=
  (dat0 (F := Ideal) V c).arrAt_eq_of_cover 5 (result V c) (fun t _ => flushed_eq V c t) cover

end Cert.Bridge.Dense0

end
-- ==== Proof.DensePay1.lean ====
/-
  One block of the second dense stage, entry by entry.

  The body works on 2000 rows at a time.  It takes the three Chebyshev terms of those rows (each 2000 × 192), the
  three stacked weight matrices (3 × 192 × 192) and the bias row (1 × 192); it cuts the stack into its three
  192 × 192 matrices, multiplies each term by its matrix into a zero accumulator, adds the three products in
  order and then adds the bias row to every row.  On the extended reals a change of float format is the identity and a
  product into a zero accumulator is the plain sum over the 192 input features, so the block is exactly the dense
  stage of the specification read on these 2000 rows.
-/
import proofs.«101723_j51754355916836_1_alg».proof.Proof.Gen.KernelIdeal.Skeleton
import proofs.«101723_j51754355916836_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Bridge.Dense1

open Idealize.ShloMosaic Idealize.ShloMosaic.ValueIdx Cert.KernelIdeal Cert.KernelIdeal.Gen

/-- The product's dimension numbers: rows × features times features × outputs, the features contracted. -/
abbrev dd : DotDims S2000x192 S192x192 S2000x192 := dot_S2000x192_S192x192_S2000x192_1_0_0_1_n_n

/-- On the left operand's row axis the index is the output's row. -/
theorem lhs_row (j : S2000x192.Idx) (k : dd.contr.Idx) : (dd.lhsIdx j k 0).val = (j 0).val := by
  unfold DotDims.lhsIdx
  rw [dif_neg (show ¬(0 : Fin S2000x192.rank) ∈ dd.lhsBatch by decide),
    dif_pos (show (0 : Fin S2000x192.rank) ∈ dd.lhsNonContracting by decide)]
  rfl

/-- On the right operand's column axis the index is the output's column. -/
theorem rhs_col (j : S2000x192.Idx) (k : dd.contr.Idx) : (dd.rhsIdx j k 1).val = (j 1).val := by
  unfold DotDims.rhsIdx
  rw [dif_neg (show ¬(1 : Fin S192x192.rank) ∈ dd.rhsBatch by decide),
    dif_pos (show (1 : Fin S192x192.rank) ∈ dd.rhsNonContracting by decide)]
  rfl

/-- A product into a zero accumulator, at row p and column q, is the sum over the 192 features of the left operand's
    row p times the right operand's column q. -/
theorem matmul_entry (x : FVec Ideal S2000x192 .bf16) (y : FVec Ideal S192x192 .bf16) (p : Fin 2000) (q : Fin 192) :
    matmul (F := Ideal) dd none x y (constant S2000x192 .f32 0x00000000#32) (ix2 p q)
      = ∑ κ : Fin 192, x (ix2 p κ) * y (ix2 κ q) := by
  refine (Ideal.matmul_constant_zero_apply dd none x y (ix2 p q)).trans ?_
  rw [← Equiv.sum_comp (contrEquiv1 dd 192 rfl rfl).symm]
  refine Finset.sum_congr rfl fun κ _ => ?_
  have hk := contrEquiv1_symm_val dd 192 rfl rfl κ
  have el : dd.lhsIdx (ix2 p q) ((contrEquiv1 dd 192 rfl rfl).symm κ) = ix2 p κ := funext fun a => Fin.ext (by
    match a with
    | ⟨0, _⟩ => exact lhs_row _ _
    | ⟨1, _⟩ => exact (dd.lhsIdx_val_of_single rfl _ _).trans hk)
  have er : dd.rhsIdx (ix2 p q) ((contrEquiv1 dd 192 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x192x192 .f32) (hs : S3x192x192.Slices off S1x192x192)
    (hc : S1x192x192.ShapeCasts S192x192) (c : Fin 3) (h0 : off 0 = c.val) (h1 : off 1 = 0) (h2 : off 2 = 0)
    (κ : Fin 192) (q : Fin 192) :
    shapeCast S192x192 (extractStridedSlice S1x192x192 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The block the body stores is the dense stage of its five loaded blocks. -/
theorem pay1_eq (w : Vec Ideal S3x192x192 .f32) (a b c : Vec Ideal S2000x192 .f32) (bias : Vec Ideal S1x192 .f32) :
    k1_pay1 (F := Ideal) w a b c bias = Cert.Spec.dense a b c w bias := by
  funext j
  obtain ⟨p, q, rfl⟩ : ∃ (p : Fin 2000) (q : Fin 192), j = ix2 p q := ⟨j 0, j 1, eq_ix2 j⟩
  refine Eq.trans ?_ (Cert.Spec.dense_ix2 a b c w bias p q).symm
  unfold k1_pay1
  simp only [addf_apply, shapeCast_self]
  rw [matmul_entry, matmul_entry, matmul_entry, broadcastTo_1b_ab_apply]
  simp only [truncf_apply]
  have e0 : ∀ κ : Fin 192, shapeCast S192x192 (extractStridedSlice S1x192x192 ![0, 0, 0] w
      slices_S3x192x192_o0_0_0_S1x192x192) shapeCasts_S1x192x192_S192x192 (ix2 κ q) = w (ix3 (0 : Fin 3) κ q) :=
    fun κ => weight_entry ![0, 0, 0] w _ _ (0 : Fin 3) rfl rfl rfl κ q
  have e1 : ∀ κ : Fin 192, shapeCast S192x192 (extractStridedSlice S1x192x192 ![1, 0, 0] w
      slices_S3x192x192_o1_0_0_S1x192x192) shapeCasts_S1x192x192_S192x192 (ix2 κ q) = w (ix3 (1 : Fin 3) κ q) :=
    fun κ => weight_entry ![1, 0, 0] w _ _ (1 : Fin 3) rfl rfl rfl κ q
  have e2 : ∀ κ : Fin 192, shapeCast S192x192 (extractStridedSlice S1x192x192 ![2, 0, 0] w
      slices_S3x192x192_o2_0_0_S1x192x192) shapeCasts_S1x192x192_S192x192 (ix2 κ q) = w (ix3 (2 : Fin 3) κ q) :=
    fun κ => weight_entry ![2, 0, 0] w _ _ (2 : Fin 3) rfl rfl rfl κ q
  simp only [e0, e1, e2]

end Cert.Bridge.Dense1

end
-- ==== Proof.DenseFinal1.lean ====
/-
  The second dense stage on the whole arrays.

  The stage runs over 25 grid points.  Point t stages rows 2000·t … 2000·t + 1999 of each of the three Chebyshev
  terms, the whole weight stack and the whole bias row, and writes back rows 2000·t … 2000·t + 1999 of the result.
  An entry of the dense stage in row r depends only on row r of the three terms (and on all of the weights and the
  bias), so the block point t writes is exactly rows 2000·t … of the dense stage of the WHOLE arrays; the 25 row
  blocks tile the 50000 rows (row r lies in block r / 2000), so after the last point the result array is the dense
  stage of the five arrays the region found.
-/
import proofs.«101723_j51754355916836_1_alg».proof.Proof.Gen.KernelIdeal.Frame
import proofs.«101723_j51754355916836_1_alg».proof.Proof.DensePay1
import Idealize.ShloMosaic.Lib.Pipeline.Value

set_option maxRecDepth 16384

noncomputable section

namespace Cert.Bridge.Dense1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- An entry of the dense stage in row p of a block of rows equals the entry in row r of the whole arrays as soon as
    row p of each of the block's three terms is row r of the whole term (same weights, same bias). -/
theorem dense_row (A B C : FVec Ideal S50000x192 .f32) (a b c : FVec Ideal S2000x192 .f32)
    (W : FVec Ideal S3x192x192 .f32) (bb : FVec Ideal S1x192 .f32) (p : Fin 2000) (r : Fin 50000) (q : Fin 192)
    (ha : ∀ κ : Fin 192, a (ix2 p κ) = A (ix2 r κ)) (hb : ∀ κ : Fin 192, b (ix2 p κ) = B (ix2 r κ))
    (hc : ∀ κ : Fin 192, c (ix2 p κ) = C (ix2 r κ)) :
    Cert.Spec.dense a b c W bb (ix2 p q) = Cert.Spec.dense A B C W bb (ix2 r q) := by
  rw [Cert.Spec.dense_ix2, Cert.Spec.dense_ix2]
  simp only [ha, hb, hc]

/-- The block indices of the six windows at point t, decided over the 25 points: the three terms and the result move
    down the rows with t, the weights and the bias stay. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the first term's block at point t is row 2000·t + p of the first term. -/
theorem term0_row (c : Dev nD) (t : Fin cfg1.N) (p : Fin 2000) (κ : Fin 192) (r : Fin 50000)
    (hr : r.val = 2000 * t.val + p.val) :
    (iblk1 V c 0 t : Vec Ideal S2000x192 .f32) (ix2 p κ)
      = (V c (Pipeline.arrRef spec1 0) : Vec Ideal S50000x192 .f32) (ix2 r κ) := by
  obtain ⟨e0, e1, -⟩ := block_index t
  unfold iblk1
  rw [View.read_apply]
  show V c main_v67 (((cfg1.win 0).blk t).view.emb (ix2 p κ)) = V c main_v67 (ix2 r κ)
  refine congrArg (V c main_v67) ?_
  funext a; apply Fin.ext
  match a with
  | ⟨0, _⟩ => show win1_0.index t (0 : Fin 2) * 2000 + 1 * p.val = r.val; omega
  | ⟨1, _⟩ => show win1_0.index t (1 : Fin 2) * 192 + 1 * κ.val = κ.val; omega

/-- Row p of the second term's block at point t is row 2000·t + p of the second term. -/
theorem term1_row (c : Dev nD) (t : Fin cfg1.N) (p : Fin 2000) (κ : Fin 192) (r : Fin 50000)
    (hr : r.val = 2000 * t.val + p.val) :
    (iblk1 V c 1 t : Vec Ideal S2000x192 .f32) (ix2 p κ)
      = (V c (Pipeline.arrRef spec1 1) : Vec Ideal S50000x192 .f32) (ix2 r κ) := by
  obtain ⟨-, -, e0, e1, -⟩ := block_index t
  unfold iblk1
  rw [View.read_apply]
  show V c main_v83 (((cfg1.win 1).blk t).view.emb (ix2 p κ)) = V c main_v83 (ix2 r κ)
  refine congrArg (V c main_v83) ?_
  funext a; apply Fin.ext
  match a with
  | ⟨0, _⟩ => show win1_1.index t (0 : Fin 2) * 2000 + 1 * p.val = r.val; omega
  | ⟨1, _⟩ => show win1_1.index t (1 : Fin 2) * 192 + 1 * κ.val = κ.val; omega

/-- Row p of the third term's block at point t is row 2000·t + p of the third term. -/
theorem term2_row (c : Dev nD) (t : Fin cfg1.N) (p : Fin 2000) (κ : Fin 192) (r : Fin 50000)
    (hr : r.val = 2000 * t.val + p.val) :
    (iblk1 V c 2 t : Vec Ideal S2000x192 .f32) (ix2 p κ)
      = (V c (Pipeline.arrRef spec1 2) : Vec Ideal S50000x192 .f32) (ix2 r κ) := by
  obtain ⟨-, -, -, -, e0, e1, -⟩ := block_index t
  unfold iblk1
  rw [View.read_apply]
  show V c main_v102 (((cfg1.win 2).blk t).view.emb (ix2 p κ)) = V c main_v102 (ix2 r κ)
  refine congrArg (V c main_v102) ?_
  funext a; apply Fin.ext
  match a with
  | ⟨0, _⟩ => show win1_2.index t (0 : Fin 2) * 2000 + 1 * p.val = r.val; omega
  | ⟨1, _⟩ => show win1_2.index t (1 : Fin 2) * 192 + 1 * κ.val = κ.val; omega

/-- The weights' block at every point is the whole weight stack. -/
theorem weights_whole (c : Dev nD) (t : Fin cfg1.N) :
    (iblk1 V c 3 t : Vec Ideal S3x192x192 .f32) = (V c (Pipeline.arrRef spec1 3) : Vec Ideal S3x192x192 .f32) := by
  obtain ⟨-, -, -, -, -, -, e0, e1, e2, -⟩ := block_index t
  funext y
  unfold iblk1
  rw [View.read_apply]
  show V c main_arg5 (((cfg1.win 3).blk t).view.emb y) = V c main_arg5 y
  refine congrArg (V c main_arg5) ?_
  funext a; apply Fin.ext
  match a with
  | ⟨0, _⟩ => show win1_3.index t (0 : Fin 3) * 3 + 1 * (y 0).val = (y 0).val; omega
  | ⟨1, _⟩ => show win1_3.index t (1 : Fin 3) * 192 + 1 * (y 1).val = (y 1).val; omega
  | ⟨2, _⟩ => show win1_3.index t (2 : Fin 3) * 192 + 1 * (y 2).val = (y 2).val; omega

/-- The bias' block at every point is the whole bias row. -/
theorem bias_whole (c : Dev nD) (t : Fin cfg1.N) :
    (iblk1 V c 4 t : Vec Ideal S1x192 .f32) = (V c (Pipeline.arrRef spec1 4) : Vec Ideal S1x192 .f32) := by
  obtain ⟨-, -, -, -, -, -, -, -, -, e0, e1, -⟩ := block_index t
  funext y
  unfold iblk1
  rw [View.read_apply]
  show V c main_v103 (((cfg1.win 4).blk t).view.emb y) = V c main_v103 y
  refine congrArg (V c main_v103) ?_
  funext a; apply Fin.ext
  match a with
  | ⟨0, _⟩ => show win1_4.index t (0 : Fin 2) * 1 + 1 * (y 0).val = (y 0).val; omega
  | ⟨1, _⟩ => show win1_4.index t (1 : Fin 2) * 192 + 1 * (y 1).val = (y 1).val; omega

/-- The dense stage of the five arrays the region finds. -/
abbrev result (c : Dev nD) : FVec Ideal S50000x192 .f32 :=
  Cert.Spec.dense (n := 50000) (k := 192) (f := 192) (V c (Pipeline.arrRef spec1 0)) (V c (Pipeline.arrRef spec1 1))
    (V c (Pipeline.arrRef spec1 2)) (V c (Pipeline.arrRef spec1 3)) (V c (Pipeline.arrRef spec1 4))

/-- What point t writes back is rows 2000·t … 2000·t + 1999 of the dense stage of the whole arrays. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 (F := Ideal) V c).after 5 t) = _
  rw [after1_5]
  unfold out1_5
  rw [View.canon_unit_zero zero2]
  simp only [View.ld_unit_zero (S := S2000x192) zero2, View.ld_unit_zero (S := S3x192x192) zero3,
    View.ld_unit_zero (S := S1x192) zero2]
  rw [pay1_eq, weights_whole V c t, bias_whole V c t]
  obtain ⟨-, -, -, -, -, -, -, -, -, -, -, e0, e1⟩ := block_index t
  have hN : cfg1.N = 25 := N_1
  have ht : t.val < 25 := hN ▸ t.isLt
  funext j
  obtain ⟨p, q, rfl⟩ : ∃ (p : Fin 2000) (q : Fin 192), j = ix2 p q := ⟨j 0, j 1, eq_ix2 j⟩
  rw [View.read_apply]
  have hemb : ((cfg1.win 5).blk t).view.emb (ix2 p q) = (ix2 (⟨2000 * t.val + p.val, by omega⟩ : Fin 50000) q : S50000x192.Idx) := by
    funext a; apply Fin.ext
    match a with
    | ⟨0, _⟩ => show win1_5.index t (0 : Fin 2) * 2000 + 1 * p.val = 2000 * t.val + p.val; omega
    | ⟨1, _⟩ => show win1_5.index t (1 : Fin 2) * 192 + 1 * q.val = q.val; omega
  refine Eq.trans ?_ (congrArg (result V c) hemb).symm
  exact dense_row _ _ _ _ _ _ _ _ p ⟨2000 * t.val + p.val, by omega⟩ q
    (fun κ => term0_row V c t p κ _ rfl) (fun κ => term1_row V c t p κ _ rfl) (fun κ => term2_row V c t p κ _ rfl)

/-- A row and column of the result lie in point t's block iff the row is one of 2000·t … 2000·t + 1999. -/
theorem mem_blk (t : Fin cfg1.N) (i : S50000x192.Idx) :
    i ∈ ((cfg1.win 5).blk t).view.set ↔ ∀ a : Fin 2, win1_5.index t a * S2000x192.size a ≤ (i a).val ∧ (i a).val < win1_5.index t a * S2000x192.size a + S2000x192.size a := by
  show i ∈ ((View.whole main_v104).slice (win1_5.rect t)).set ↔ _
  rw [View.set_slice_whole, Rect.mem_set_unit]
  exact Iff.rfl

/-- Every entry of the result is written by some point: row r by point r / 2000. -/
theorem cover (i : S50000x192.Idx) :
    ∃ t : Fin cfg1.N, (cfg1.win 5).flush t = true ∧ i ∈ ((cfg1.win 5).blk t).view.set := by
  have hN : cfg1.N = 25 := N_1
  have hi0 : (i 0).val < 50000 := (i 0).isLt
  have hi1 : (i 1).val < 192 := (i 1).isLt
  let t : Fin cfg1.N := ⟨(i 0).val / 2000, by rw [hN]; omega⟩
  have htv : t.val = (i 0).val / 2000 := rfl
  obtain ⟨-, -, -, -, -, -, -, -, -, -, -, e0, e1⟩ := block_index t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 192 ≤ (i 1).val ∧ (i 1).val < win1_5.index t (1 : Fin 2) * 192 + 192; omega

/-- After the region the result array is the dense stage of the five arrays the region found. -/
theorem final1 (c : Dev nD) :
    (dat1 (F := Ideal) V c).arrAt 5 cfg1.N
      = Cert.Spec.dense (n := 50000) (k := 192) (f := 192) (V c (Pipeline.arrRef spec1 0)) (V c (Pipeline.arrRef spec1 1))
          (V c (Pipeline.arrRef spec1 2)) (V c (Pipeline.arrRef spec1 3)) (V c (Pipeline.arrRef spec1 4)) :=
  (dat1 (F := Ideal) V c).arrAt_eq_of_cover 5 (result V c) (fun t _ => flushed_eq V c t) cover

end Cert.Bridge.Dense1

end
-- ==== Proof.DensePay2.lean ====
/-
  One block of the third dense stage, entry by entry.

  The body works on 2000 rows at a time.  It takes the three Chebyshev terms of those rows (each 2000 × 192), the
  three stacked weight matrices (3 × 192 × 128) and the bias row (1 × 128); it cuts the stack into its three
  192 × 128 matrices, multiplies each term by its matrix into a zero accumulator, adds the three products in
  order and then adds the bias row to every row.  On the extended reals a change of float format is the identity and a
  product into a zero accumulator is the plain sum over the 192 input features, so the block is exactly the dense
  stage of the specification read on these 2000 rows.
-/
import proofs.«101723_j51754355916836_1_alg».proof.Proof.Gen.KernelIdeal.Skeleton
import proofs.«101723_j51754355916836_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Bridge.Dense2

open Idealize.ShloMosaic Idealize.ShloMosaic.ValueIdx Cert.KernelIdeal Cert.KernelIdeal.Gen

/-- The product's dimension numbers: rows × features times features × outputs, the features contracted. -/
abbrev dd : DotDims S2000x192 S192x128 S2000x128 := dot_S2000x192_S192x128_S2000x128_1_0_0_1_n_n

/-- On the left operand's row axis the index is the output's row. -/
theorem lhs_row (j : S2000x128.Idx) (k : dd.contr.Idx) : (dd.lhsIdx j k 0).val = (j 0).val := by
  unfold DotDims.lhsIdx
  rw [dif_neg (show ¬(0 : Fin S2000x192.rank) ∈ dd.lhsBatch by decide),
    dif_pos (show (0 : Fin S2000x192.rank) ∈ dd.lhsNonContracting by decide)]
  rfl

/-- On the right operand's column axis the index is the output's column. -/
theorem rhs_col (j : S2000x128.Idx) (k : dd.contr.Idx) : (dd.rhsIdx j k 1).val = (j 1).val := by
  unfold DotDims.rhsIdx
  rw [dif_neg (show ¬(1 : Fin S192x128.rank) ∈ dd.rhsBatch by decide),
    dif_pos (show (1 : Fin S192x128.rank) ∈ dd.rhsNonContracting by decide)]
  rfl

/-- A product into a zero accumulator, at row p and column q, is the sum over the 192 features of the left operand's
    row p times the right operand's column q. -/
theorem matmul_entry (x : FVec Ideal S2000x192 .bf16) (y : FVec Ideal S192x128 .bf16) (p : Fin 2000) (q : Fin 128) :
    matmul (F := Ideal) dd none x y (constant S2000x128 .f32 0x00000000#32) (ix2 p q)
      = ∑ κ : Fin 192, x (ix2 p κ) * y (ix2 κ q) := by
  refine (Ideal.matmul_constant_zero_apply dd none x y (ix2 p q)).trans ?_
  rw [← Equiv.sum_comp (contrEquiv1 dd 192 rfl rfl).symm]
  refine Finset.sum_congr rfl fun κ _ => ?_
  have hk := contrEquiv1_symm_val dd 192 rfl rfl κ
  have el : dd.lhsIdx (ix2 p q) ((contrEquiv1 dd 192 rfl rfl).symm κ) = ix2 p κ := funext fun a => Fin.ext (by
    match a with
    | ⟨0, _⟩ => exact lhs_row _ _
    | ⟨1, _⟩ => exact (dd.lhsIdx_val_of_single rfl _ _).trans hk)
  have er : dd.rhsIdx (ix2 p q) ((contrEquiv1 dd 192 rfl rfl).symm κ) = ix2 κ q := funext fun a => Fin.ext (by
    match a with
    | ⟨0, _⟩ => exact (dd.rhsIdx_val_of_single rfl _ _).trans hk
    | ⟨1, _⟩ => exact rhs_col _ _)
  rw [el, er]

/-- Matrix c of the weight stack: the slice of the stack at offset c on its first axis, its unit axis dropped, read at
    (κ, q) is the stack at (c, κ, q). -/
theorem weight_entry (off : Fin 3 → ℕ) (w : FVec Ideal S3x192x128 .f32) (hs : S3x192x128.Slices off S1x192x128)
    (hc : S1x192x128.ShapeCasts S192x128) (c : Fin 3) (h0 : off 0 = c.val) (h1 : off 1 = 0) (h2 : off 2 = 0)
    (κ : Fin 192) (q : Fin 128) :
    shapeCast S192x128 (extractStridedSlice S1x192x128 off w hs) hc (ix2 κ q) = w (ix3 c κ q) := by
  refine (shapeCast_1ab_ab_apply _ hc κ q).trans ?_
  refine extractStridedSlice_apply off w hs (ix3 (0 : Fin 1) κ q) (ix3 c κ q) fun a => ?_
  match a with
  | ⟨0, _⟩ => show c.val = off 0 + 0; omega
  | ⟨1, _⟩ => show κ.val = off 1 + κ.val; omega
  | ⟨2, _⟩ => show q.val = off 2 + q.val; omega

/-- The block the body stores is the dense stage of its five loaded blocks. -/
theorem pay2_eq (w : Vec Ideal S3x192x128 .f32) (a b c : Vec Ideal S2000x192 .f32) (bias : Vec Ideal S1x128 .f32) :
    k2_pay1 (F := Ideal) w a b c bias = Cert.Spec.dense a b c w bias := by
  funext j
  obtain ⟨p, q, rfl⟩ : ∃ (p : Fin 2000) (q : Fin 128), j = ix2 p q := ⟨j 0, j 1, eq_ix2 j⟩
  refine Eq.trans ?_ (Cert.Spec.dense_ix2 a b c w bias p q).symm
  unfold k2_pay1
  simp only [addf_apply, shapeCast_self]
  rw [matmul_entry, matmul_entry, matmul_entry, broadcastTo_1b_ab_apply]
  simp only [truncf_apply]
  have e0 : ∀ κ : Fin 192, shapeCast S192x128 (extractStridedSlice S1x192x128 ![0, 0, 0] w
      slices_S3x192x128_o0_0_0_S1x192x128) shapeCasts_S1x192x128_S192x128 (ix2 κ q) = w (ix3 (0 : Fin 3) κ q) :=
    fun κ => weight_entry ![0, 0, 0] w _ _ (0 : Fin 3) rfl rfl rfl κ q
  have e1 : ∀ κ : Fin 192, shapeCast S192x128 (extractStridedSlice S1x192x128 ![1, 0, 0] w
      slices_S3x192x128_o1_0_0_S1x192x128) shapeCasts_S1x192x128_S192x128 (ix2 κ q) = w (ix3 (1 : Fin 3) κ q) :=
    fun κ => weight_entry ![1, 0, 0] w _ _ (1 : Fin 3) rfl rfl rfl κ q
  have e2 : ∀ κ : Fin 192, shapeCast S192x128 (extractStridedSlice S1x192x128 ![2, 0, 0] w
      slices_S3x192x128_o2_0_0_S1x192x128) shapeCasts_S1x192x128_S192x128 (ix2 κ q) = w (ix3 (2 : Fin 3) κ q) :=
    fun κ => weight_entry ![2, 0, 0] w _ _ (2 : Fin 3) rfl rfl rfl κ q
  simp only [e0, e1, e2]

end Cert.Bridge.Dense2

end
-- ==== Proof.DenseFinal2.lean ====
/-
  The third dense stage on the whole arrays.

  The stage runs over 25 grid points.  Point t stages rows 2000·t … 2000·t + 1999 of each of the three Chebyshev
  terms, the whole weight stack and the whole bias row, and writes back rows 2000·t … 2000·t + 1999 of the result.
  An entry of the dense stage in row r depends only on row r of the three terms (and on all of the weights and the
  bias), so the block point t writes is exactly rows 2000·t … of the dense stage of the WHOLE arrays; the 25 row
  blocks tile the 50000 rows (row r lies in block r / 2000), so after the last point the result array is the dense
  stage of the five arrays the region found.
-/
import proofs.«101723_j51754355916836_1_alg».proof.Proof.Gen.KernelIdeal.Frame
import proofs.«101723_j51754355916836_1_alg».proof.Proof.DensePay2
import Idealize.ShloMosaic.Lib.Pipeline.Value

set_option maxRecDepth 16384

noncomputable section

namespace Cert.Bridge.Dense2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- An entry of the dense stage in row p of a block of rows equals the entry in row r of the whole arrays as soon as
    row p of each of the block's three terms is row r of the whole term (same weights, same bias). -/
theorem dense_row (A B C : FVec Ideal S50000x192 .f32) (a b c : FVec Ideal S2000x192 .f32)
    (W : FVec Ideal S3x192x128 .f32) (bb : FVec Ideal S1x128 .f32) (p : Fin 2000) (r : Fin 50000) (q : Fin 128)
    (ha : ∀ κ : Fin 192, a (ix2 p κ) = A (ix2 r κ)) (hb : ∀ κ : Fin 192, b (ix2 p κ) = B (ix2 r κ))
    (hc : ∀ κ : Fin 192, c (ix2 p κ) = C (ix2 r κ)) :
    Cert.Spec.dense a b c W bb (ix2 p q) = Cert.Spec.dense A B C W bb (ix2 r q) := by
  rw [Cert.Spec.dense_ix2, Cert.Spec.dense_ix2]
  simp only [ha, hb, hc]

/-- The block indices of the six windows at point t, decided over the 25 points: the three terms and the result move
    down the rows with t, the weights and the bias stay. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the first term's block at point t is row 2000·t + p of the first term. -/
theorem term0_row (c : Dev nD) (t : Fin cfg2.N) (p : Fin 2000) (κ : Fin 192) (r : Fin 50000)
    (hr : r.val = 2000 * t.val + p.val) :
    (iblk2 V c 0 t : Vec Ideal S2000x192 .f32) (ix2 p κ)
      = (V c (Pipeline.arrRef spec2 0) : Vec Ideal S50000x192 .f32) (ix2 r κ) := by
  obtain ⟨e0, e1, -⟩ := block_index t
  unfold iblk2
  rw [View.read_apply]
  show V c main_v104 (((cfg2.win 0).blk t).view.emb (ix2 p κ)) = V c main_v104 (ix2 r κ)
  refine congrArg (V c main_v104) ?_
  funext a; apply Fin.ext
  match a with
  | ⟨0, _⟩ => show win2_0.index t (0 : Fin 2) * 2000 + 1 * p.val = r.val; omega
  | ⟨1, _⟩ => show win2_0.index t (1 : Fin 2) * 192 + 1 * κ.val = κ.val; omega

/-- Row p of the second term's block at point t is row 2000·t + p of the second term. -/
theorem term1_row (c : Dev nD) (t : Fin cfg2.N) (p : Fin 2000) (κ : Fin 192) (r : Fin 50000)
    (hr : r.val = 2000 * t.val + p.val) :
    (iblk2 V c 1 t : Vec Ideal S2000x192 .f32) (ix2 p κ)
      = (V c (Pipeline.arrRef spec2 1) : Vec Ideal S50000x192 .f32) (ix2 r κ) := by
  obtain ⟨-, -, e0, e1, -⟩ := block_index t
  unfold iblk2
  rw [View.read_apply]
  show V c main_v120 (((cfg2.win 1).blk t).view.emb (ix2 p κ)) = V c main_v120 (ix2 r κ)
  refine congrArg (V c main_v120) ?_
  funext a; apply Fin.ext
  match a with
  | ⟨0, _⟩ => show win2_1.index t (0 : Fin 2) * 2000 + 1 * p.val = r.val; omega
  | ⟨1, _⟩ => show win2_1.index t (1 : Fin 2) * 192 + 1 * κ.val = κ.val; omega

/-- Row p of the third term's block at point t is row 2000·t + p of the third term. -/
theorem term2_row (c : Dev nD) (t : Fin cfg2.N) (p : Fin 2000) (κ : Fin 192) (r : Fin 50000)
    (hr : r.val = 2000 * t.val + p.val) :
    (iblk2 V c 2 t : Vec Ideal S2000x192 .f32) (ix2 p κ)
      = (V c (Pipeline.arrRef spec2 2) : Vec Ideal S50000x192 .f32) (ix2 r κ) := by
  obtain ⟨-, -, -, -, e0, e1, -⟩ := block_index t
  unfold iblk2
  rw [View.read_apply]
  show V c main_v139 (((cfg2.win 2).blk t).view.emb (ix2 p κ)) = V c main_v139 (ix2 r κ)
  refine congrArg (V c main_v139) ?_
  funext a; apply Fin.ext
  match a with
  | ⟨0, _⟩ => show win2_2.index t (0 : Fin 2) * 2000 + 1 * p.val = r.val; omega
  | ⟨1, _⟩ => show win2_2.index t (1 : Fin 2) * 192 + 1 * κ.val = κ.val; omega

/-- The weights' block at every point is the whole weight stack. -/
theorem weights_whole (c : Dev nD) (t : Fin cfg2.N) :
    (iblk2 V c 3 t : Vec Ideal S3x192x128 .f32) = (V c (Pipeline.arrRef spec2 3) : Vec Ideal S3x192x128 .f32) := by
  obtain ⟨-, -, -, -, -, -, e0, e1, e2, -⟩ := block_index t
  funext y
  unfold iblk2
  rw [View.read_apply]
  show V c main_arg7 (((cfg2.win 3).blk t).view.emb y) = V c main_arg7 y
  refine congrArg (V c main_arg7) ?_
  funext a; apply Fin.ext
  match a with
  | ⟨0, _⟩ => show win2_3.index t (0 : Fin 3) * 3 + 1 * (y 0).val = (y 0).val; omega
  | ⟨1, _⟩ => show win2_3.index t (1 : Fin 3) * 192 + 1 * (y 1).val = (y 1).val; omega
  | ⟨2, _⟩ => show win2_3.index t (2 : Fin 3) * 128 + 1 * (y 2).val = (y 2).val; omega

/-- The bias' block at every point is the whole bias row. -/
theorem bias_whole (c : Dev nD) (t : Fin cfg2.N) :
    (iblk2 V c 4 t : Vec Ideal S1x128 .f32) = (V c (Pipeline.arrRef spec2 4) : Vec Ideal S1x128 .f32) := by
  obtain ⟨-, -, -, -, -, -, -, -, -, e0, e1, -⟩ := block_index t
  funext y
  unfold iblk2
  rw [View.read_apply]
  show V c main_v140 (((cfg2.win 4).blk t).view.emb y) = V c main_v140 y
  refine congrArg (V c main_v140) ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The dense stage of the five arrays the region finds. -/
abbrev result (c : Dev nD) : FVec Ideal S50000x128 .f32 :=
  Cert.Spec.dense (n := 50000) (k := 192) (f := 128) (V c (Pipeline.arrRef spec2 0)) (V c (Pipeline.arrRef spec2 1))
    (V c (Pipeline.arrRef spec2 2)) (V c (Pipeline.arrRef spec2 3)) (V c (Pipeline.arrRef spec2 4))

/-- What point t writes back is rows 2000·t … 2000·t + 1999 of the dense stage of the whole arrays. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 (F := Ideal) V c).after 5 t) = _
  rw [after2_5]
  unfold out2_5
  rw [View.canon_unit_zero zero2]
  simp only [View.ld_unit_zero (S := S2000x192) zero2, View.ld_unit_zero (S := S3x192x128) zero3,
    View.ld_unit_zero (S := S1x128) zero2]
  rw [pay2_eq, weights_whole V c t, bias_whole V c t]
  obtain ⟨-, -, -, -, -, -, -, -, -, -, -, e0, e1⟩ := block_index t
  have hN : cfg2.N = 25 := N_2
  have ht : t.val < 25 := hN ▸ t.isLt
  funext j
  obtain ⟨p, q, rfl⟩ : ∃ (p : Fin 2000) (q : Fin 128), j = ix2 p q := ⟨j 0, j 1, eq_ix2 j⟩
  rw [View.read_apply]
  have hemb : ((cfg2.win 5).blk t).view.emb (ix2 p q) = (ix2 (⟨2000 * t.val + p.val, by omega⟩ : Fin 50000) q : S50000x128.Idx) := by
    funext a; apply Fin.ext
    match a with
    | ⟨0, _⟩ => show win2_5.index t (0 : Fin 2) * 2000 + 1 * p.val = 2000 * t.val + p.val; omega
    | ⟨1, _⟩ => show win2_5.index t (1 : Fin 2) * 128 + 1 * q.val = q.val; omega
  refine Eq.trans ?_ (congrArg (result V c) hemb).symm
  exact dense_row _ _ _ _ _ _ _ _ p ⟨2000 * t.val + p.val, by omega⟩ q
    (fun κ => term0_row V c t p κ _ rfl) (fun κ => term1_row V c t p κ _ rfl) (fun κ => term2_row V c t p κ _ rfl)

/-- A row and column of the result lie in point t's block iff the row is one of 2000·t … 2000·t + 1999. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v141).slice (win2_5.rect t)).set ↔ _
  rw [View.set_slice_whole, Rect.mem_set_unit]
  exact Iff.rfl

/-- Every entry of the result is written by some point: row r by point r / 2000. -/
theorem cover (i : S50000x128.Idx) :
    ∃ t : Fin cfg2.N, (cfg2.win 5).flush t = true ∧ i ∈ ((cfg2.win 5).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  have htv : t.val = (i 0).val / 2000 := rfl
  obtain ⟨-, -, -, -, -, -, -, -, -, -, -, e0, e1⟩ := block_index t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- After the region the result array is the dense stage of the five arrays the region found. -/
theorem final2 (c : Dev nD) :
    (dat2 (F := Ideal) V c).arrAt 5 cfg2.N
      = Cert.Spec.dense (n := 50000) (k := 192) (f := 128) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 (result V c) (fun t _ => flushed_eq V c t) cover

end Cert.Bridge.Dense2

end
-- ==== Proof.LibKeepdims.lean ====
/-
  Two layout reads that every row reduction with kept dimensions meets, at any sizes:
  a vector of length a viewed as an a × 1 column, and an a × 1 column repeated along rows of length b.
  Both only rename entries: the column's entry (p, 0) is the vector's entry p, and the broadcast's entry (p, k) is
  the column's entry (p, 0), whatever k.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A length-`a` vector reshaped to an `a × 1` column: entry (p, 0) of the column is entry p of the vector
    (both sit at row-major position p). -/
theorem shapeCast_column_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An `a × 1` column broadcast along rows of length `b`: entry (p, k) of the result is entry (p, 0) of the
    column (when a = 1 the only row is row 0, so the rule "a unit axis reads 0" and the rule "a kept axis reads
    its own coordinate" agree). -/
theorem broadcastTo_column_apply {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun c => ?_
  match c with
  | ⟨0, _⟩ =>
    show p.val = if a = 1 then 0 else p.val
    split
    · have := p.isLt; omega
    · rfl
  | ⟨1, _⟩ => show 0 = if (1 : Nat) = 1 then 0 else k.val; rw [if_pos rfl]

end Cert.Lib.Keepdims

end
-- ==== Proof.ClsPay.lean ====
/-
  The classifier kernel's stored value, entry by entry, is the log-softmax of the logits.
  The body computes in two stages. First the logits: the pooled block times the weight block (a matrix product into a
  zero accumulator, which on the extended reals is the plain sum over the 128 features; the narrowing of both operands
  to a shorter float format changes nothing there) plus the bias row repeated down the 64 rows. Then, on the logits z,
  row by row: the row's maximum (a reduction by max along the class axis from −∞, kept as a column and repeated along
  the row), the shifted logits z − max, the sum of their exponentials (a reduction by + along the class axis from 0,
  again as a column), its logarithm, and the difference.
-/
import proofs.«101723_j51754355916836_1_alg».proof.Proof.Gen.KernelIdeal.Skeleton
import proofs.«101723_j51754355916836_1_alg».proof.Proof.ClsSpec
import proofs.«101723_j51754355916836_1_alg».proof.Proof.LibKeepdims
import Idealize.ShloMosaic.PureOps.Ideal.Laws
import Idealize.ShloMosaic.Lib.ValueLayout
import Idealize.ShloMosaic.Lib.Pipeline.Value

set_option maxRecDepth 16384

noncomputable section

namespace Cert.Bridge.Cls

open Idealize.ShloMosaic Idealize.ShloMosaic.ValueIdx
open Cert.KernelIdeal Cert.KernelIdeal.Gen
open Cert.Lib.Keepdims

/-- The product's dimension numbers: rows of the left operand against columns of the right, one contracted axis. -/
abbrev dotC : DotDims S64x128 S128x10 S64x10 := dot_S64x128_S128x10_S64x10_1_0_0_1_n_n

/-! ## The operand indices of the product at output entry (g, j) and feature k -/

theorem dotC_lhs0 (i : S64x10.Idx) (q : dotC.contr.Idx) : (dotC.lhsIdx i q 0).val = (i 0).val := by
  unfold DotDims.lhsIdx
  rw [dif_neg (show ¬(0 : Fin S64x128.rank) ∈ dotC.lhsBatch by decide),
    dif_pos (show (0 : Fin S64x128.rank) ∈ dotC.lhsNonContracting by decide)]
  rfl

theorem dotC_lhs1 (i : S64x10.Idx) (q : dotC.contr.Idx) : (dotC.lhsIdx i q 1).val = (q ⟨0, by decide⟩).val :=
  dotC.lhsIdx_val_of_single rfl i q

theorem dotC_rhs0 (i : S64x10.Idx) (q : dotC.contr.Idx) : (dotC.rhsIdx i q 0).val = (q ⟨0, by decide⟩).val :=
  dotC.rhsIdx_val_of_single rfl i q

theorem dotC_rhs1 (i : S64x10.Idx) (q : dotC.contr.Idx) : (dotC.rhsIdx i q 1).val = (i 1).val := by
  unfold DotDims.rhsIdx
  rw [dif_neg (show ¬(1 : Fin S128x10.rank) ∈ dotC.rhsBatch by decide),
    dif_pos (show (1 : Fin S128x10.rank) ∈ dotC.rhsNonContracting by decide)]
  rfl

/-- The left operand is read at (g, k) … -/
theorem dotC_lhsIdx (g : Fin 64) (j : Fin 10) (k : Fin 128) :
    dotC.lhsIdx (ix2 g j) ((contrEquiv1 dotC 128 rfl rfl).symm k) = ix2 g k :=
  funext fun a => Fin.ext (by
    have hk := contrEquiv1_symm_val dotC 128 rfl rfl k
    match a with
    | ⟨0, _⟩ => exact dotC_lhs0 _ _
    | ⟨1, _⟩ => exact (dotC_lhs1 _ _).trans hk)

/-- … and the right one at (k, j). -/
theorem dotC_rhsIdx (g : Fin 64) (j : Fin 10) (k : Fin 128) :
    dotC.rhsIdx (ix2 g j) ((contrEquiv1 dotC 128 rfl rfl).symm k) = ix2 k j :=
  funext fun a => Fin.ext (by
    have hk := contrEquiv1_symm_val dotC 128 rfl rfl k
    match a with
    | ⟨0, _⟩ => exact (dotC_rhs0 _ _).trans hk
    | ⟨1, _⟩ => exact dotC_rhs1 _ _)

/-- The product into the zero accumulator, at (g, j): the sum over the 128 features. -/
theorem matmul_at (A : FVec Ideal S64x128 .bf16) (B : FVec Ideal S128x10 .bf16) (g : Fin 64) (j : Fin 10) :
    matmul dotC none A B (constant S64x10 .f32 0x00000000#32) (ix2 g j) = ∑ k : Fin 128, A (ix2 g k) * B (ix2 k j) := by
  simp only [matmul]
  rw [Ideal.matmul_constant_zero_apply, ← Equiv.sum_comp (contrEquiv1 dotC 128 rfl rfl).symm]
  refine Finset.sum_congr rfl fun k _ => ?_
  rw [dotC_lhsIdx, dotC_rhsIdx]

/-! ## The two stages of the body -/

/-- Stage one, the logits: product plus the bias row repeated down the rows. -/
def klogits (x0 : Vec Ideal S64x128 .f32) (x1 : Vec Ideal S128x10 .f32) (x2 : Vec Ideal S1x10 .f32) : FVec Ideal S64x10 .f32 :=
  addf
    (matmul dotC none (truncf .bf16 (shapeCast S64x128 x0 shapeCasts_S64x128_S64x128) bitsLt_bf16_f32)
      (truncf .bf16 x1 bitsLt_bf16_f32) (constant S64x10 .f32 0x00000000#32))
    (broadcastTo S64x10 (shapeCast S1x10 x2 shapeCasts_S1x10_S1x10) broadcasts_S1x10_S64x10)

/-- The row maxima of a 64 × 10 array, repeated along each row. -/
def rowTop (z : FVec Ideal S64x10 .f32) : FVec Ideal S64x10 .f32 :=
  broadcastTo S64x10
    (shapeCast S64x1 (multiReduction .maximumf [1] S64 z 0xFF800000#32 reduces_S64x10_S64 (.inl rfl) rfl) shapeCasts_S64_S64x1)
    broadcasts_S64x1_S64x10

/-- The logarithm of each row's sum, repeated along the row. -/
def rowLogSum (e : FVec Ideal S64x10 .f32) : FVec Ideal S64x10 .f32 :=
  broadcastTo S64x10
    (log (shapeCast S64x1 (multiReduction .add [1] S64 e 0x00000000#32 reduces_S64x10_S64 (.inl rfl) rfl) shapeCasts_S64_S64x1))
    broadcasts_S64x1_S64x10

/-- Stage two, on the logits z: (z − top) − log ∑ exp (z − top), row by row. -/
def lsm (z : FVec Ideal S64x10 .f32) : FVec Ideal S64x10 .f32 :=
  subf (subf z (rowTop z)) (rowLogSum (exp (subf z (rowTop z))))

/-- The stored value is stage two of stage one. -/
theorem pay3_split (x0 : Vec Ideal S64x128 .f32) (x1 : Vec Ideal S128x10 .f32) (x2 : Vec Ideal S1x10 .f32) :
    k3_pay1 (F := Ideal) x0 x1 x2 = lsm (klogits x0 x1 x2) := rfl

/-! ## Stage one at an entry -/

theorem klogits_at (x0 : Vec Ideal S64x128 .f32) (x1 : Vec Ideal S128x10 .f32) (x2 : Vec Ideal S1x10 .f32)
    (g : Fin 64) (j : Fin 10) : klogits x0 x1 x2 (ix2 g j) = logit x0 x1 x2 g j := by
  unfold klogits
  rw [addf_apply, matmul_at, shapeCast_self, shapeCast_self, broadcastTo_1b_ab_apply]
  rfl

theorem klogits_eq (x0 : Vec Ideal S64x128 .f32) (x1 : Vec Ideal S128x10 .f32) (x2 : Vec Ideal S1x10 .f32) :
    klogits x0 x1 x2 = fun i => logit x0 x1 x2 (i 0) (i 1) := by
  funext i
  obtain ⟨g, j, rfl⟩ : ∃ (g : Fin 64) (j : Fin 10), i = ix2 g j := ⟨i 0, i 1, eq_ix2 i⟩
  exact klogits_at x0 x1 x2 g j

/-! ## Stage two at an entry -/

/-- The index over row g with class q put back on the reduced axis is (g, q). -/
theorem lift_row (g : Fin 64) (q : Fin 10) : reduces_S64x10_S64.lift (ix1 g) q = ix2 g q :=
  funext fun a => Fin.ext (by
    match a with
    | ⟨0, _⟩ => rfl
    | ⟨1, _⟩ => rfl)

/-- The reduction by max along the class axis from −∞, at row g: the fold of max over the ten classes from ⊥. -/
theorem reduceMax_at (z : FVec Ideal S64x10 .f32) (hφ : FKind.Formats .f32)
    (hacc : (0xFF800000#32 : BitVec 32) = FKind.maximumf.neutral .f32 hφ) (g : Fin 64) :
    multiReduction .maximumf [1] S64 z 0xFF800000#32 reduces_S64x10_S64 hφ hacc (ix1 g)
      = (Finset.univ : Finset (Fin 10)).fold max ⊥ (fun q => z (ix2 g q)) := by
  refine (Ideal.multiReduction_maximumf_single z 0xFF800000#32 reduces_S64x10_S64 hφ hacc (ix1 g)).trans ?_
  show (Finset.univ : Finset (Fin 10)).fold max (Ideal.ofBits .f32 0xFF800000#32)
      (fun q => z (reduces_S64x10_S64.lift (ix1 g) q)) = _
  rw [ofBits_negInf_f32]
  exact congrArg (fun f => (Finset.univ : Finset (Fin 10)).fold max ⊥ f) (funext fun q => congrArg z (lift_row g q))

/-- The reduction by + along the class axis from 0, at row g: the sum over the ten classes. -/
theorem reduceAdd_at (e : FVec Ideal S64x10 .f32) (hφ : FKind.Formats .f32)
    (hacc : (0x00000000#32 : BitVec 32) = FKind.add.neutral .f32 hφ) (g : Fin 64) :
    multiReduction .add [1] S64 e 0x00000000#32 reduces_S64x10_S64 hφ hacc (ix1 g) = ∑ q : Fin 10, e (ix2 g q) := by
  refine (Ideal.multiReduction_add_single e 0x00000000#32 reduces_S64x10_S64 hφ hacc (ix1 g)).trans ?_
  show ∑ q : Fin 10, e (reduces_S64x10_S64.lift (ix1 g) q) = _
  exact Finset.sum_congr rfl fun q _ => congrArg e (lift_row g q)

theorem rowTop_at (z : FVec Ideal S64x10 .f32) (g : Fin 64) (j : Fin 10) :
    rowTop z (ix2 g j) = (Finset.univ : Finset (Fin 10)).fold max ⊥ (fun q => z (ix2 g q)) := by
  unfold rowTop
  rw [broadcastTo_column_apply, shapeCast_column_apply]
  exact reduceMax_at z _ _ g

theorem rowLogSum_at (e : FVec Ideal S64x10 .f32) (g : Fin 64) (j : Fin 10) :
    rowLogSum e (ix2 g j) = Ideal.log (∑ q : Fin 10, e (ix2 g q)) := by
  unfold rowLogSum
  rw [broadcastTo_column_apply]
  show Ideal.log (shapeCast S64x1 _ shapeCasts_S64_S64x1 (ix2 g (0 : Fin 1))) = _
  rw [shapeCast_column_apply]
  exact congrArg Ideal.log (reduceAdd_at e _ _ g)

theorem lsm_at (z : FVec Ideal S64x10 .f32) (g : Fin 64) (j : Fin 10) :
    lsm z (ix2 g j)
      = (z (ix2 g j) - (Finset.univ : Finset (Fin 10)).fold max ⊥ (fun q => z (ix2 g q)))
        - Ideal.log (∑ q : Fin 10, Ideal.exp (z (ix2 g q) - (Finset.univ : Finset (Fin 10)).fold max ⊥ (fun q' => z (ix2 g q')))) := by
  unfold lsm
  rw [subf_apply, subf_apply, rowLogSum_at, rowTop_at]
  refine congrArg (fun s => (z (ix2 g j) - (Finset.univ : Finset (Fin 10)).fold max ⊥ (fun q => z (ix2 g q))) - Ideal.log s) ?_
  refine Finset.sum_congr rfl fun q _ => ?_
  show Ideal.exp (z (ix2 g q) - rowTop z (ix2 g q)) = _
  rw [rowTop_at]

/-! ## The stored value is the specification -/

theorem pay3_eq (x0 : Vec Ideal S64x128 .f32) (x1 : Vec Ideal S128x10 .f32) (x2 : Vec Ideal S1x10 .f32) :
    Cert.KernelIdeal.Gen.k3_pay1 (F := Ideal) x0 x1 x2 = Cert.Bridge.Cls.cls x0 x1 x2 := by
  rw [pay3_split, klogits_eq]
  funext i
  obtain ⟨g, j, rfl⟩ : ∃ (g : Fin 64) (j : Fin 10), i = ix2 g j := ⟨i 0, i 1, eq_ix2 i⟩
  rw [lsm_at]
  rfl

end Cert.Bridge.Cls

end
-- ==== Proof.ClsFinal.lean ====
/-
  The classifier region's output array after the region, as one function of the arrays the region finds.
  The region's grid has a single point, and at that point every window's block is its whole array: the block of the
  pooled features is the 64 × 128 array itself, likewise the 128 × 10 weights, the 1 × 10 bias row and the 64 × 10 output.
  So what the one point writes back is the body's stored value of the three whole input arrays, which is the log-softmax
  of the logits (the specification cls), and the one block covers every entry of the output array.
-/
import proofs.«101723_j51754355916836_1_alg».proof.Proof.Gen.KernelIdeal.Frame
import proofs.«101723_j51754355916836_1_alg».proof.Proof.ClsPay
import Idealize.ShloMosaic.Lib.Pipeline.Value

set_option maxRecDepth 16384

noncomputable section

namespace Cert.Bridge.Cls

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- The offsets of every access of the body: zero on both axes. -/
theorem zero_offsets : (![0, 0] : Fin 2 → Nat) = fun _ => 0 := funext fun a => by fin_cases a <;> rfl

/-- At the one grid point every window's block index is (0, 0). -/
theorem block_index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The block of the pooled features is the whole 64 × 128 array. -/
theorem pooled_block (c : Dev nD) (t : Fin cfg3.N) :
    iblk3 V c 0 t = (V c (Pipeline.arrRef spec3 0) : S64x128.Idx → Elt Ideal .f32) := by
  funext y
  show V c (Pipeline.arrRef spec3 0) (((cfg3.win 0).blk t).view.emb y) = V c (Pipeline.arrRef spec3 0) y
  refine congrArg _ (funext fun a => Fin.ext ?_)
  obtain ⟨e0, e1, -⟩ := block_index_zero t
  match a with
  | ⟨0, _⟩ => show win3_0.index t (0 : Fin 2) * 64 + 1 * (y 0).val = (y 0).val; omega
  | ⟨1, _⟩ => show win3_0.index t (1 : Fin 2) * 128 + 1 * (y 1).val = (y 1).val; omega

/-- The block of the weights is the whole 128 × 10 array. -/
theorem weights_block (c : Dev nD) (t : Fin cfg3.N) :
    iblk3 V c 1 t = (V c (Pipeline.arrRef spec3 1) : S128x10.Idx → Elt Ideal .f32) := by
  funext y
  show V c (Pipeline.arrRef spec3 1) (((cfg3.win 1).blk t).view.emb y) = V c (Pipeline.arrRef spec3 1) y
  refine congrArg _ (funext fun a => Fin.ext ?_)
  obtain ⟨-, -, e0, e1, -⟩ := block_index_zero t
  match a with
  | ⟨0, _⟩ => show win3_1.index t (0 : Fin 2) * 128 + 1 * (y 0).val = (y 0).val; omega
  | ⟨1, _⟩ => show win3_1.index t (1 : Fin 2) * 10 + 1 * (y 1).val = (y 1).val; omega

/-- The block of the bias is the whole 1 × 10 row. -/
theorem bias_block (c : Dev nD) (t : Fin cfg3.N) :
    iblk3 V c 2 t = (V c (Pipeline.arrRef spec3 2) : S1x10.Idx → Elt Ideal .f32) := by
  funext y
  show V c (Pipeline.arrRef spec3 2) (((cfg3.win 2).blk t).view.emb y) = V c (Pipeline.arrRef spec3 2) y
  refine congrArg _ (funext fun a => Fin.ext ?_)
  obtain ⟨-, -, -, -, e0, e1, -⟩ := block_index_zero t
  match a with
  | ⟨0, _⟩ => show win3_2.index t (0 : Fin 2) * 1 + 1 * (y 0).val = (y 0).val; omega
  | ⟨1, _⟩ => show win3_2.index t (1 : Fin 2) * 10 + 1 * (y 1).val = (y 1).val; omega

/-- What the one point writes back is the block of cls of the three arrays the region finds. -/
theorem flushed3_eq (c : Dev nD) (t : Fin cfg3.N) :
    (dat3 (F := Ideal) V c).flushed 3 t
      = ((cfg3.win 3).blk t).view.read (Elt Ideal)
          (cls (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_offsets]
  simp only [View.ld_unit_zero (S := S64x128) zero_offsets, View.ld_unit_zero (S := S128x10) zero_offsets,
    View.ld_unit_zero (S := S1x10) zero_offsets]
  rw [pooled_block, weights_block, bias_block, pay3_eq]
  funext j
  show cls (V c (Pipeline.arrRef spec3 0)) (V c (Pipeline.arrRef spec3 1)) (V c (Pipeline.arrRef spec3 2))
        ((cfg3.win 3).xinj (grid3.coords t) j)
      = cls (V c (Pipeline.arrRef spec3 0)) (V c (Pipeline.arrRef spec3 1)) (V c (Pipeline.arrRef spec3 2))
        (((cfg3.win 3).blk t).view.emb j)
  refine congrArg _ (funext fun a => Fin.ext ?_)
  obtain ⟨-, -, -, -, -, -, e0, e1⟩ := block_index_zero t
  match a with
  | ⟨0, _⟩ => show (j 0).val = win3_3.index t (0 : Fin 2) * 64 + 1 * (j 0).val; omega
  | ⟨1, _⟩ => show (j 1).val = win3_3.index t (1 : Fin 2) * 10 + 1 * (j 1).val; omega

/-- An entry of the output array is in the point's block iff each coordinate is in the block's range on its axis. -/
theorem mem_block3 (t : Fin cfg3.N) (i : S64x10.Idx) :
    i ∈ ((cfg3.win 3).blk t).view.set
      ↔ ∀ a : Fin 2, win3_3.index t a * S64x10.size a ≤ (i a).val ∧ (i a).val < win3_3.index t a * S64x10.size a + S64x10.size a := by
  show i ∈ ((View.whole main_v155).slice (win3_3.rect t)).set ↔ _
  rw [View.set_slice_whole, Rect.mem_set_unit]
  exact Iff.rfl

/-- THE OUTPUT ARRAY after the region: cls of the pooled features, the weights and the bias row as the region finds them. -/
theorem final3 (c : Dev nD) :
    (dat3 (F := Ideal) V c).arrAt 3 cfg3.N
      = cls (V c (Pipeline.arrRef spec3 0)) (V c (Pipeline.arrRef spec3 1)) (V c (Pipeline.arrRef spec3 2)) :=
  (dat3 (F := Ideal) V c).arrAt_eq_of_cover 3 _ (fun t _ => flushed3_eq V c t) fun i =>
    ⟨t3_0, flush3_3 t3_0, by
      rw [mem_block3]
      obtain ⟨-, -, -, -, -, -, e0, e1⟩ := block_index_zero t3_0
      have h0 : (i 0).val < 64 := (i 0).isLt
      have h1 : (i 1).val < 10 := (i 1).isLt
      intro a
      match a with
      | ⟨0, _⟩ => show win3_3.index t3_0 (0 : Fin 2) * 64 ≤ (i 0).val ∧ (i 0).val < win3_3.index t3_0 (0 : Fin 2) * 64 + 64; omega
      | ⟨1, _⟩ => show win3_3.index t3_0 (1 : Fin 2) * 10 ≤ (i 1).val ∧ (i 1).val < win3_3.index t3_0 (1 : Fin 2) * 10 + 10; omega⟩

end Cert.Bridge.Cls

end
-- ==== Proof.Assemble.lean ====
/-
  The idealized kernel's result is the idealized reference's result.

  Both programs are one fold of host operations over the launch contents, the kernel's interrupted by its four
  pallas_calls. Boundary by boundary the two folds hold the same values:
  * the edge weights of L̂ and each layer's Chebyshev terms T₁ = L̂ h, T₂ = 2 L̂ T₁ − h are computed by the same host
    operations in both (the slice lemmas), from a layer input h that is the same in both;
  * each dense pallas_call leaves in its output array ((T₀·W₀ + T₁·W₁) + T₂·W₂) + b, entry by entry — the function
    `Cert.Spec.dense` of the arrays it finds —, and the reference's three products, two sums and bias broadcast are the
    same function of the same arrays;
  * the classifier pallas_call and the reference's product, bias and log-softmax are the same function `cls` of the
    pooled means.
  No law of arithmetic is used at this level: the arguments agree, so the two sides are equal term by term.
-/
import proofs.«101723_j51754355916836_1_alg».proof.Proof.Gen.KernelIdeal.Frame
import proofs.«101723_j51754355916836_1_alg».proof.Proof.RefRun
import proofs.«101723_j51754355916836_1_alg».proof.Proof.Spec
import proofs.«101723_j51754355916836_1_alg».proof.Proof.Sim1
import proofs.«101723_j51754355916836_1_alg».proof.Proof.Sim2
import proofs.«101723_j51754355916836_1_alg».proof.Proof.Sim3
import proofs.«101723_j51754355916836_1_alg».proof.Proof.Sim4
import proofs.«101723_j51754355916836_1_alg».proof.Proof.SimOut
import proofs.«101723_j51754355916836_1_alg».proof.Proof.DenseFinal0
import proofs.«101723_j51754355916836_1_alg».proof.Proof.DenseFinal1
import proofs.«101723_j51754355916836_1_alg».proof.Proof.DenseFinal2
import proofs.«101723_j51754355916836_1_alg».proof.Proof.ClsFinal
import proofs.«101723_j51754355916836_1_alg».proof.Proof.RefDense
import proofs.«101723_j51754355916836_1_alg».proof.Proof.RefCls

set_option maxRecDepth 16384

noncomputable section

namespace Cert.Bridge.Assemble

open Idealize.ShloMosaic Idealize.ShloMosaic.TcCoe Idealize.SL.Sem Idealize.ShloMosaic.StableHlo
open Cert.KernelIdeal.Gen (W0 W3 W4 W5 W6 W7 W8 W9 W10 V3 V5 V7 V9)

local notation "kref" => Proc.devRef (τ := Cert.KernelIdeal.τ) (sig := Cert.KernelIdeal.sig) Proc.tc
local notation "rref" => Proc.devRef (τ := Cert.ReferenceIdeal.τ) (sig := Cert.ReferenceIdeal.sig) Proc.tc

/-- `Spec.dense` of equal arrays. -/
theorem dense_congr {n k f : ℕ} {A A' B B' C C' : FVec Ideal ⟨2, ![n, k]⟩ .f32} {W W' : FVec Ideal ⟨3, ![3, k, f]⟩ .f32}
    {b b' : FVec Ideal ⟨2, ![1, f]⟩ .f32} (hA : A = A') (hB : B = B') (hC : C = C') (hW : W = W') (hb : b = b') :
    Cert.Spec.dense A B C W b = Cert.Spec.dense A' B' C' W' b' := by
  subst hA hB hC hW hb; rfl

/-- `cls` of equal arrays. -/
theorem cls_congr {P P' : FVec Ideal ⟨2, ![64, 128]⟩ .f32} {W W' : FVec Ideal ⟨2, ![128, 10]⟩ .f32} {b b' : FVec Ideal ⟨2, ![1, 10]⟩ .f32}
    (hP : P = P') (hW : W = W') (hb : b = b') : Cert.Bridge.Cls.cls P W b = Cert.Bridge.Cls.cls P' W' b' := by
  subst hP hW hb; rfl

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The reference's contents at launch and after each of its four slices. -/
abbrev R0 (c : Dev Cert.ReferenceIdeal.nD) : Valuation Cert.ReferenceIdeal.τ Cert.ReferenceIdeal.sig (Elt Ideal) := launchContents m' c
abbrev R1 (c : Dev Cert.ReferenceIdeal.nD) := after (Cert.Bridge.Ref.ops1 (F := Ideal)) (R0 m' c)
abbrev R2 (c : Dev Cert.ReferenceIdeal.nD) := after (Cert.Bridge.Ref.ops2 (F := Ideal)) (R1 m' c)
abbrev R3 (c : Dev Cert.ReferenceIdeal.nD) := after (Cert.Bridge.Ref.ops3 (F := Ideal)) (R2 m' c)
abbrev R4 (c : Dev Cert.ReferenceIdeal.nD) := after (Cert.Bridge.Ref.ops4 (F := Ideal)) (R3 m' c)

/-- The two launch memories agree on the eleven arguments (the claim's hypothesis, as the folds read it). -/
structure Agree (c : Dev Cert.KernelIdeal.nD) : Prop where
  a0 : W0 (F := Ideal) m ρ c (kref Cert.KernelIdeal.main_arg0) = R0 m' c (rref Cert.ReferenceIdeal.main_arg0)
  a1 : W0 (F := Ideal) m ρ c (kref Cert.KernelIdeal.main_arg1) = R0 m' c (rref Cert.ReferenceIdeal.main_arg1)
  a2 : W0 (F := Ideal) m ρ c (kref Cert.KernelIdeal.main_arg2) = R0 m' c (rref Cert.ReferenceIdeal.main_arg2)
  a3 : W0 (F := Ideal) m ρ c (kref Cert.KernelIdeal.main_arg3) = R0 m' c (rref Cert.ReferenceIdeal.main_arg3)
  a4 : W0 (F := Ideal) m ρ c (kref Cert.KernelIdeal.main_arg4) = R0 m' c (rref Cert.ReferenceIdeal.main_arg4)
  a5 : W0 (F := Ideal) m ρ c (kref Cert.KernelIdeal.main_arg5) = R0 m' c (rref Cert.ReferenceIdeal.main_arg5)
  a6 : W0 (F := Ideal) m ρ c (kref Cert.KernelIdeal.main_arg6) = R0 m' c (rref Cert.ReferenceIdeal.main_arg6)
  a7 : W0 (F := Ideal) m ρ c (kref Cert.KernelIdeal.main_arg7) = R0 m' c (rref Cert.ReferenceIdeal.main_arg7)
  a8 : W0 (F := Ideal) m ρ c (kref Cert.KernelIdeal.main_arg8) = R0 m' c (rref Cert.ReferenceIdeal.main_arg8)
  a9 : W0 (F := Ideal) m ρ c (kref Cert.KernelIdeal.main_arg9) = R0 m' c (rref Cert.ReferenceIdeal.main_arg9)
  a10 : W0 (F := Ideal) m ρ c (kref Cert.KernelIdeal.main_arg10) = R0 m' c (rref Cert.ReferenceIdeal.main_arg10)

variable {m ρ m'}
variable {c : Dev Cert.KernelIdeal.nD} (ag : Agree m ρ m' c)
include ag

/-! ## The first layer -/

theorem l1_v1 : W3 (F := Ideal) m ρ c (kref Cert.KernelIdeal.main_v1) = R1 m' c (rref Cert.ReferenceIdeal.main_v1) :=
  Cert.Bridge.Sim1.val_main_v1 (W0 m ρ c) (R0 m' c) ag.a0 ag.a1
theorem l1_v3 : W3 (F := Ideal) m ρ c (kref Cert.KernelIdeal.main_v3) = R1 m' c (rref Cert.ReferenceIdeal.main_v3) :=
  Cert.Bridge.Sim1.val_main_v3 (W0 m ρ c) (R0 m' c) ag.a0 ag.a1
theorem l1_v30 : W3 (F := Ideal) m ρ c (kref Cert.KernelIdeal.main_v30) = R1 m' c (rref Cert.ReferenceIdeal.main_v30) :=
  Cert.Bridge.Sim1.val_main_v30 (W0 m ρ c) (R0 m' c) ag.a0 ag.a1
theorem l1_t1 : W3 (F := Ideal) m ρ c (kref Cert.KernelIdeal.main_v46) = R1 m' c (rref Cert.ReferenceIdeal.main_v49) :=
  Cert.Bridge.Sim1.val_main_v46 (W0 m ρ c) (R0 m' c) ag.a0 ag.a1
theorem l1_t2 : W3 (F := Ideal) m ρ c (kref Cert.KernelIdeal.main_v65) = R1 m' c (rref Cert.ReferenceIdeal.main_v72) :=
  Cert.Bridge.Sim1.val_main_v65 (W0 m ρ c) (R0 m' c) ag.a0 ag.a1

/-- The first dense stage's output is the reference's first layer. -/
theorem l1_out : W4 (F := Ideal) m ρ c (kref Cert.KernelIdeal.main_v67) = R1 m' c (rref Cert.ReferenceIdeal.main_v79) := by
  refine (Cert.KernelIdeal.Gen.W4_arr m ρ c 5).trans ((Cert.Bridge.Dense0.final0 (V3 m ρ) c).trans ?_)
  refine Eq.trans ?_ ((Cert.Bridge.SimOut.out1 (R0 m' c)).trans
    (Cert.Bridge.RefDense.refDense1_eq _ _ _ _ _ Cert.KernelIdeal.Facts₀.shapeCasts_S192_S1x192)).symm
  exact dense_congr
    ((Cert.Bridge.Sim1.keptK_main_arg0 (W0 m ρ c)).trans ag.a0)
    (l1_t1 ag) (l1_t2 ag)
    ((Cert.Bridge.Sim1.keptK_main_arg3 (W0 m ρ c)).trans ag.a3)
    ((Cert.Bridge.Sim1.brow (W0 m ρ c) _).trans (congrArg (fun x => shapeCast Cert.KernelIdeal.S1x192 x Cert.KernelIdeal.Facts₀.shapeCasts_S192_S1x192) ag.a4))

/-- The arguments read later, at the first dense stage's exit. -/
theorem a1_2 : W4 (F := Ideal) m ρ c (kref Cert.KernelIdeal.main_arg2) = R1 m' c (rref Cert.ReferenceIdeal.main_arg2) :=
  (Cert.KernelIdeal.Gen.W4_of_ne m ρ c Cert.KernelIdeal.main_arg2 (by decide)).trans ((Cert.Bridge.Sim1.keptK_main_arg2 (W0 m ρ c)).trans
    (ag.a2.trans (Cert.Bridge.Sim1.keptR_main_arg2 (R0 m' c)).symm))
theorem a1_5 : W4 (F := Ideal) m ρ c (kref Cert.KernelIdeal.main_arg5) = R1 m' c (rref Cert.ReferenceIdeal.main_arg5) :=
  (Cert.KernelIdeal.Gen.W4_of_ne m ρ c Cert.KernelIdeal.main_arg5 (by decide)).trans ((Cert.Bridge.Sim1.keptK_main_arg5 (W0 m ρ c)).trans
    (ag.a5.trans (Cert.Bridge.Sim1.keptR_main_arg5 (R0 m' c)).symm))
theorem a1_6 : W4 (F := Ideal) m ρ c (kref Cert.KernelIdeal.main_arg6) = R1 m' c (rref Cert.ReferenceIdeal.main_arg6) :=
  (Cert.KernelIdeal.Gen.W4_of_ne m ρ c Cert.KernelIdeal.main_arg6 (by decide)).trans ((Cert.Bridge.Sim1.keptK_main_arg6 (W0 m ρ c)).trans
    (ag.a6.trans (Cert.Bridge.Sim1.keptR_main_arg6 (R0 m' c)).symm))
theorem a1_7 : W4 (F := Ideal) m ρ c (kref Cert.KernelIdeal.main_arg7) = R1 m' c (rref Cert.ReferenceIdeal.main_arg7) :=
  (Cert.KernelIdeal.Gen.W4_of_ne m ρ c Cert.KernelIdeal.main_arg7 (by decide)).trans ((Cert.Bridge.Sim1.keptK_main_arg7 (W0 m ρ c)).trans
    (ag.a7.trans (Cert.Bridge.Sim1.keptR_main_arg7 (R0 m' c)).symm))
theorem a1_8 : W4 (F := Ideal) m ρ c (kref Cert.KernelIdeal.main_arg8) = R1 m' c (rref Cert.ReferenceIdeal.main_arg8) :=
  (Cert.KernelIdeal.Gen.W4_of_ne m ρ c Cert.KernelIdeal.main_arg8 (by decide)).trans ((Cert.Bridge.Sim1.keptK_main_arg8 (W0 m ρ c)).trans
    (ag.a8.trans (Cert.Bridge.Sim1.keptR_main_arg8 (R0 m' c)).symm))
theorem a1_9 : W4 (F := Ideal) m ρ c (kref Cert.KernelIdeal.main_arg9) = R1 m' c (rref Cert.ReferenceIdeal.main_arg9) :=
  (Cert.KernelIdeal.Gen.W4_of_ne m ρ c Cert.KernelIdeal.main_arg9 (by decide)).trans ((Cert.Bridge.Sim1.keptK_main_arg9 (W0 m ρ c)).trans
    (ag.a9.trans (Cert.Bridge.Sim1.keptR_main_arg9 (R0 m' c)).symm))
theorem a1_10 : W4 (F := Ideal) m ρ c (kref Cert.KernelIdeal.main_arg10) = R1 m' c (rref Cert.ReferenceIdeal.main_arg10) :=
  (Cert.KernelIdeal.Gen.W4_of_ne m ρ c Cert.KernelIdeal.main_arg10 (by decide)).trans ((Cert.Bridge.Sim1.keptK_main_arg10 (W0 m ρ c)).trans
    (ag.a10.trans (Cert.Bridge.Sim1.keptR_main_arg10 (R0 m' c)).symm))

/-! ## The second layer -/

theorem l2_v1 : W4 (F := Ideal) m ρ c (kref Cert.KernelIdeal.main_v1) = R1 m' c (rref Cert.ReferenceIdeal.main_v1) :=
  (Cert.KernelIdeal.Gen.W4_of_ne m ρ c Cert.KernelIdeal.main_v1 (by decide)).trans (l1_v1 ag)
theorem l2_v3 : W4 (F := Ideal) m ρ c (kref Cert.KernelIdeal.main_v3) = R1 m' c (rref Cert.ReferenceIdeal.main_v3) :=
  (Cert.KernelIdeal.Gen.W4_of_ne m ρ c Cert.KernelIdeal.main_v3 (by decide)).trans (l1_v3 ag)
theorem l2_v30 : W4 (F := Ideal) m ρ c (kref Cert.KernelIdeal.main_v30) = R1 m' c (rref Cert.ReferenceIdeal.main_v30) :=
  (Cert.KernelIdeal.Gen.W4_of_ne m ρ c Cert.KernelIdeal.main_v30 (by decide)).trans (l1_v30 ag)
theorem l2_t1 : W5 (F := Ideal) m ρ c (kref Cert.KernelIdeal.main_v83) = R2 m' c (rref Cert.ReferenceIdeal.main_v98) :=
  Cert.Bridge.Sim2.val_main_v83 (W4 m ρ c) (R1 m' c) (l2_v30 ag) (l2_v1 ag) (l2_v3 ag) (l1_out ag)
theorem l2_t2 : W5 (F := Ideal) m ρ c (kref Cert.KernelIdeal.main_v102) = R2 m' c (rref Cert.ReferenceIdeal.main_v121) :=
  Cert.Bridge.Sim2.val_main_v102 (W4 m ρ c) (R1 m' c) (l2_v30 ag) (l2_v1 ag) (l2_v3 ag) (l1_out ag)

/-- The second dense stage's output is the reference's second layer. -/
theorem l2_out : W6 (F := Ideal) m ρ c (kref Cert.KernelIdeal.main_v104) = R2 m' c (rref Cert.ReferenceIdeal.main_v128) := by
  refine (Cert.KernelIdeal.Gen.W6_arr m ρ c 5).trans ((Cert.Bridge.Dense1.final1 (V5 m ρ) c).trans ?_)
  refine Eq.trans ?_ ((Cert.Bridge.SimOut.out2 (R1 m' c)).trans
    (Cert.Bridge.RefDense.refDense2_eq _ _ _ _ _ Cert.KernelIdeal.Facts₀.shapeCasts_S192_S1x192)).symm
  exact dense_congr
    ((Cert.Bridge.Sim2.keptK_main_v67 (W4 m ρ c)).trans (l1_out ag))
    (l2_t1 ag) (l2_t2 ag)
    ((Cert.Bridge.Sim2.keptK_main_arg5 (W4 m ρ c)).trans (a1_5 ag))
    ((Cert.Bridge.Sim2.brow (W4 m ρ c) _).trans (congrArg (fun x => shapeCast Cert.KernelIdeal.S1x192 x Cert.KernelIdeal.Facts₀.shapeCasts_S192_S1x192) (a1_6 ag)))

/-- The arguments read later, at the second dense stage's exit. -/
theorem a2_2 : W6 (F := Ideal) m ρ c (kref Cert.KernelIdeal.main_arg2) = R2 m' c (rref Cert.ReferenceIdeal.main_arg2) :=
  (Cert.KernelIdeal.Gen.W6_of_ne m ρ c Cert.KernelIdeal.main_arg2 (by decide)).trans ((Cert.Bridge.Sim2.keptK_main_arg2 (W4 m ρ c)).trans
    ((a1_2 ag).trans (Cert.Bridge.Sim2.keptR_main_arg2 (R1 m' c)).symm))
theorem a2_7 : W6 (F := Ideal) m ρ c (kref Cert.KernelIdeal.main_arg7) = R2 m' c (rref Cert.ReferenceIdeal.main_arg7) :=
  (Cert.KernelIdeal.Gen.W6_of_ne m ρ c Cert.KernelIdeal.main_arg7 (by decide)).trans ((Cert.Bridge.Sim2.keptK_main_arg7 (W4 m ρ c)).trans
    ((a1_7 ag).trans (Cert.Bridge.Sim2.keptR_main_arg7 (R1 m' c)).symm))
theorem a2_8 : W6 (F := Ideal) m ρ c (kref Cert.KernelIdeal.main_arg8) = R2 m' c (rref Cert.ReferenceIdeal.main_arg8) :=
  (Cert.KernelIdeal.Gen.W6_of_ne m ρ c Cert.KernelIdeal.main_arg8 (by decide)).trans ((Cert.Bridge.Sim2.keptK_main_arg8 (W4 m ρ c)).trans
    ((a1_8 ag).trans (Cert.Bridge.Sim2.keptR_main_arg8 (R1 m' c)).symm))
theorem a2_9 : W6 (F := Ideal) m ρ c (kref Cert.KernelIdeal.main_arg9) = R2 m' c (rref Cert.ReferenceIdeal.main_arg9) :=
  (Cert.KernelIdeal.Gen.W6_of_ne m ρ c Cert.KernelIdeal.main_arg9 (by decide)).trans ((Cert.Bridge.Sim2.keptK_main_arg9 (W4 m ρ c)).trans
    ((a1_9 ag).trans (Cert.Bridge.Sim2.keptR_main_arg9 (R1 m' c)).symm))
theorem a2_10 : W6 (F := Ideal) m ρ c (kref Cert.KernelIdeal.main_arg10) = R2 m' c (rref Cert.ReferenceIdeal.main_arg10) :=
  (Cert.KernelIdeal.Gen.W6_of_ne m ρ c Cert.KernelIdeal.main_arg10 (by decide)).trans ((Cert.Bridge.Sim2.keptK_main_arg10 (W4 m ρ c)).trans
    ((a1_10 ag).trans (Cert.Bridge.Sim2.keptR_main_arg10 (R1 m' c)).symm))

/-! ## The third layer -/

theorem l3_v1 : W6 (F := Ideal) m ρ c (kref Cert.KernelIdeal.main_v1) = R2 m' c (rref Cert.ReferenceIdeal.main_v1) :=
  (Cert.KernelIdeal.Gen.W6_of_ne m ρ c Cert.KernelIdeal.main_v1 (by decide)).trans ((Cert.Bridge.Sim2.keptK_main_v1 (W4 m ρ c)).trans
    ((l2_v1 ag).trans (Cert.Bridge.Sim2.keptR_main_v1 (R1 m' c)).symm))
theorem l3_v3 : W6 (F := Ideal) m ρ c (kref Cert.KernelIdeal.main_v3) = R2 m' c (rref Cert.ReferenceIdeal.main_v3) :=
  (Cert.KernelIdeal.Gen.W6_of_ne m ρ c Cert.KernelIdeal.main_v3 (by decide)).trans ((Cert.Bridge.Sim2.keptK_main_v3 (W4 m ρ c)).trans
    ((l2_v3 ag).trans (Cert.Bridge.Sim2.keptR_main_v3 (R1 m' c)).symm))
theorem l3_v30 : W6 (F := Ideal) m ρ c (kref Cert.KernelIdeal.main_v30) = R2 m' c (rref Cert.ReferenceIdeal.main_v30) :=
  (Cert.KernelIdeal.Gen.W6_of_ne m ρ c Cert.KernelIdeal.main_v30 (by decide)).trans ((Cert.Bridge.Sim2.keptK_main_v30 (W4 m ρ c)).trans
    ((l2_v30 ag).trans (Cert.Bridge.Sim2.keptR_main_v30 (R1 m' c)).symm))
theorem l3_t1 : W7 (F := Ideal) m ρ c (kref Cert.KernelIdeal.main_v120) = R3 m' c (rref Cert.ReferenceIdeal.main_v147) :=
  Cert.Bridge.Sim3.val_main_v120 (W6 m ρ c) (R2 m' c) (l3_v30 ag) (l3_v1 ag) (l3_v3 ag) (l2_out ag)
theorem l3_t2 : W7 (F := Ideal) m ρ c (kref Cert.KernelIdeal.main_v139) = R3 m' c (rref Cert.ReferenceIdeal.main_v170) :=
  Cert.Bridge.Sim3.val_main_v139 (W6 m ρ c) (R2 m' c) (l3_v30 ag) (l3_v1 ag) (l3_v3 ag) (l2_out ag)

/-- The third dense stage's output is the reference's third layer. -/
theorem l3_out : W8 (F := Ideal) m ρ c (kref Cert.KernelIdeal.main_v141) = R3 m' c (rref Cert.ReferenceIdeal.main_v177) := by
  refine (Cert.KernelIdeal.Gen.W8_arr m ρ c 5).trans ((Cert.Bridge.Dense2.final2 (V7 m ρ) c).trans ?_)
  refine Eq.trans ?_ ((Cert.Bridge.SimOut.out3 (R2 m' c)).trans
    (Cert.Bridge.RefDense.refDense3_eq _ _ _ _ _ Cert.KernelIdeal.Facts₀.shapeCasts_S128_S1x128)).symm
  exact dense_congr
    ((Cert.Bridge.Sim3.keptK_main_v104 (W6 m ρ c)).trans (l2_out ag))
    (l3_t1 ag) (l3_t2 ag)
    ((Cert.Bridge.Sim3.keptK_main_arg7 (W6 m ρ c)).trans (a2_7 ag))
    ((Cert.Bridge.Sim3.brow (W6 m ρ c) _).trans (congrArg (fun x => shapeCast Cert.KernelIdeal.S1x128 x Cert.KernelIdeal.Facts₀.shapeCasts_S128_S1x128) (a2_8 ag)))

/-- The arguments read later, at the third dense stage's exit. -/
theorem a3_2 : W8 (F := Ideal) m ρ c (kref Cert.KernelIdeal.main_arg2) = R3 m' c (rref Cert.ReferenceIdeal.main_arg2) :=
  (Cert.KernelIdeal.Gen.W8_of_ne m ρ c Cert.KernelIdeal.main_arg2 (by decide)).trans ((Cert.Bridge.Sim3.keptK_main_arg2 (W6 m ρ c)).trans
    ((a2_2 ag).trans (Cert.Bridge.Sim3.keptR_main_arg2 (R2 m' c)).symm))
theorem a3_9 : W8 (F := Ideal) m ρ c (kref Cert.KernelIdeal.main_arg9) = R3 m' c (rref Cert.ReferenceIdeal.main_arg9) :=
  (Cert.KernelIdeal.Gen.W8_of_ne m ρ c Cert.KernelIdeal.main_arg9 (by decide)).trans ((Cert.Bridge.Sim3.keptK_main_arg9 (W6 m ρ c)).trans
    ((a2_9 ag).trans (Cert.Bridge.Sim3.keptR_main_arg9 (R2 m' c)).symm))
theorem a3_10 : W8 (F := Ideal) m ρ c (kref Cert.KernelIdeal.main_arg10) = R3 m' c (rref Cert.ReferenceIdeal.main_arg10) :=
  (Cert.KernelIdeal.Gen.W8_of_ne m ρ c Cert.KernelIdeal.main_arg10 (by decide)).trans ((Cert.Bridge.Sim3.keptK_main_arg10 (W6 m ρ c)).trans
    ((a2_10 ag).trans (Cert.Bridge.Sim3.keptR_main_arg10 (R2 m' c)).symm))

/-! ## The pool and the classifier -/

theorem l4_pool : W9 (F := Ideal) m ρ c (kref Cert.KernelIdeal.main_v153) = R4 m' c (rref Cert.ReferenceIdeal.main_v189) :=
  Cert.Bridge.Sim4.val_main_v153 (W8 m ρ c) (R3 m' c) (l3_out ag) (a3_2 ag)

/-- The classifier's output is the reference's log-softmax. -/
theorem l4_out : W10 (F := Ideal) m ρ c (kref Cert.KernelIdeal.main_v155) = R4 m' c (rref Cert.ReferenceIdeal.main_v194) := by
  refine (Cert.KernelIdeal.Gen.W10_arr m ρ c 3).trans ((Cert.Bridge.Cls.final3 (V9 m ρ) c).trans ?_)
  refine Eq.trans ?_ ((Cert.Bridge.SimOut.out4 (R3 m' c)).trans
    (Cert.Bridge.RefCls.refCls_eq _ _ _ Cert.KernelIdeal.Facts₀.shapeCasts_S10_S1x10)).symm
  exact cls_congr (l4_pool ag)
    ((Cert.Bridge.Sim4.keptK_main_arg9 (W8 m ρ c)).trans (a3_9 ag))
    ((Cert.Bridge.Sim4.brow (W8 m ρ c) _).trans (congrArg (fun x => shapeCast Cert.KernelIdeal.S1x10 x Cert.KernelIdeal.Facts₀.shapeCasts_S10_S1x10) (a3_10 ag)))

/-- The kernel's result buffer after its run is the reference's result buffer after the fold of all its operations. -/
theorem result_eq : W10 (F := Ideal) m ρ c (kref Cert.KernelIdeal.main_v155)
    = after (Cert.Bridge.Ref.ops (F := Ideal)) (launchContents m' c) (rref Cert.ReferenceIdeal.main_v194) :=
  (l4_out ag).trans (congrFun (Cert.Bridge.Ref.after_ops (launchContents m' c)) _).symm

end Cert.Bridge.Assemble

end
-- ==== Proof.lean ====
/-
  The certificate of the three-layer Chebyshev graph network: the Pallas kernel's program (three row-tiled dense stages
  and one classifier stage among host-side gathers and segment sums) against its jnp reference.

  Frames. The kernel's two programs run by the generated frame certificates; the reference runs as a straight line of
  host operations, each buffer ending at the fold of the operations over the launch contents, and no operation writes
  an argument.

  Preserves. The idealization rewrote nothing: the conjunct is `True`.

  Algebraic. At the ideal values the bf16 casts are the identity and every matrix product is the plain sum over the
  contracted axis, so a dense stage computes, for every node p and output feature q,
  ((∑ₖ T₀(p,k)·W₀(k,q) + ∑ₖ T₁(p,k)·W₁(k,q)) + ∑ₖ T₂(p,k)·W₂(k,q)) + b(q) — the same three products, added in the same order,
  as the reference's three `dot_general`s, two adds and bias broadcast; the 25 row blocks tile the 50000 nodes. The
  Chebyshev terms T₁ = L̂ h and T₂ = 2 L̂ T₁ − h, the edge weights of L̂ and the mean pool are the same host operations
  in both programs. The classifier computes shifted − log ∑ exp shifted with shifted = logits − max logits, as
  `jax.nn.log_softmax` does (its extra `max (−∞) ·` is the identity). No finiteness of the inputs is needed: no law
  beyond the commutative monoid of the extended reals' addition is used, and only to re-index sums.
-/
import proofs.«101723_j51754355916836_1_alg».proof.Defs
import proofs.«101723_j51754355916836_1_alg».proof.Proof.Gen.Kernel
import proofs.«101723_j51754355916836_1_alg».proof.Proof.Gen.Kernel.Skeleton
import proofs.«101723_j51754355916836_1_alg».proof.Proof.Gen.Kernel.Launch
import proofs.«101723_j51754355916836_1_alg».proof.Proof.Gen.Kernel.Points
import proofs.«101723_j51754355916836_1_alg».proof.Proof.Gen.Kernel.Frame
import proofs.«101723_j51754355916836_1_alg».proof.Proof.Gen.KernelIdeal
import proofs.«101723_j51754355916836_1_alg».proof.Proof.Gen.KernelIdeal.Skeleton
import proofs.«101723_j51754355916836_1_alg».proof.Proof.Gen.KernelIdeal.Launch
import proofs.«101723_j51754355916836_1_alg».proof.Proof.Gen.KernelIdeal.Points
import proofs.«101723_j51754355916836_1_alg».proof.Proof.Gen.KernelIdeal.Frame
import proofs.«101723_j51754355916836_1_alg».proof.Proof.Gen.ReferenceIdeal
import proofs.«101723_j51754355916836_1_alg».proof.Proof.Gen.Pre_finite_inputs
import proofs.«101723_j51754355916836_1_alg».proof.Proof.RunValue
import proofs.«101723_j51754355916836_1_alg».proof.Proof.RefRun
import proofs.«101723_j51754355916836_1_alg».proof.Proof.RefArgs
import proofs.«101723_j51754355916836_1_alg».proof.Proof.Assemble
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs; every buffer ends at the fold of its operations, and no operation writes an argument. -/
theorem frame_ri : Cert.frame_ReferenceIdeal := fun m ρ _ =>
  (θ_run Cert.ReferenceIdeal.defs _ _).mono (fun r h c =>
    ⟨(h c Cert.ReferenceIdeal.main_arg0).trans (Cert.Bridge.RefArgs.kept_main_arg0 _),
     (h c Cert.ReferenceIdeal.main_arg1).trans (Cert.Bridge.RefArgs.kept_main_arg1 _),
     (h c Cert.ReferenceIdeal.main_arg2).trans (Cert.Bridge.RefArgs.kept_main_arg2 _),
     (h c Cert.ReferenceIdeal.main_arg3).trans (Cert.Bridge.RefArgs.kept_main_arg3 _),
     (h c Cert.ReferenceIdeal.main_arg4).trans (Cert.Bridge.RefArgs.kept_main_arg4 _),
     (h c Cert.ReferenceIdeal.main_arg5).trans (Cert.Bridge.RefArgs.kept_main_arg5 _),
     (h c Cert.ReferenceIdeal.main_arg6).trans (Cert.Bridge.RefArgs.kept_main_arg6 _),
     (h c Cert.ReferenceIdeal.main_arg7).trans (Cert.Bridge.RefArgs.kept_main_arg7 _),
     (h c Cert.ReferenceIdeal.main_arg8).trans (Cert.Bridge.RefArgs.kept_main_arg8 _),
     (h c Cert.ReferenceIdeal.main_arg9).trans (Cert.Bridge.RefArgs.kept_main_arg9 _),
     (h c Cert.ReferenceIdeal.main_arg10).trans (Cert.Bridge.RefArgs.kept_main_arg10 _)⟩)
    (Cert.Bridge.Ref.run_fold (F := Ideal) m ρ)

/-- The ideal pass rewrote nothing. -/
theorem preserves : Cert.preserves_Kernel_KernelIdeal := trivial

/-- Both programs run; the kernel's result buffer ends at the last boundary's contents of its segments' fold, the
    reference's at the fold of its operations, and from arguments that agree the two are equal. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v155),
    Cert.Bridge.Run.run_value (F := Ideal) m ρ, ?_⟩
  have ag : ∀ c : Dev Cert.KernelIdeal.nD, Cert.Bridge.Assemble.Agree m ρ m' c := fun c =>
    ⟨((hagree c).1).symm,
     (((hagree c).2).1).symm,
     ((((hagree c).2).2).1).symm,
     (((((hagree c).2).2).2).1).symm,
     ((((((hagree c).2).2).2).2).1).symm,
     (((((((hagree c).2).2).2).2).2).1).symm,
     ((((((((hagree c).2).2).2).2).2).2).1).symm,
     (((((((((hagree c).2).2).2).2).2).2).2).1).symm,
     ((((((((((hagree c).2).2).2).2).2).2).2).2).1).symm,
     (((((((((((hagree c).2).2).2).2).2).2).2).2).2).1).symm,
     (((((((((((hagree c).2).2).2).2).2).2).2).2).2).2).symm⟩
  refine (θ_run Cert.ReferenceIdeal.defs _ _).mono (fun r h c =>
    ⟨(h c Cert.ReferenceIdeal.main_v194).trans (Cert.Bridge.Assemble.result_eq (ag c)).symm,
     (h c Cert.ReferenceIdeal.main_arg0).trans (Cert.Bridge.RefArgs.kept_main_arg0 _),
     (h c Cert.ReferenceIdeal.main_arg1).trans (Cert.Bridge.RefArgs.kept_main_arg1 _),
     (h c Cert.ReferenceIdeal.main_arg2).trans (Cert.Bridge.RefArgs.kept_main_arg2 _),
     (h c Cert.ReferenceIdeal.main_arg3).trans (Cert.Bridge.RefArgs.kept_main_arg3 _),
     (h c Cert.ReferenceIdeal.main_arg4).trans (Cert.Bridge.RefArgs.kept_main_arg4 _),
     (h c Cert.ReferenceIdeal.main_arg5).trans (Cert.Bridge.RefArgs.kept_main_arg5 _),
     (h c Cert.ReferenceIdeal.main_arg6).trans (Cert.Bridge.RefArgs.kept_main_arg6 _),
     (h c Cert.ReferenceIdeal.main_arg7).trans (Cert.Bridge.RefArgs.kept_main_arg7 _),
     (h c Cert.ReferenceIdeal.main_arg8).trans (Cert.Bridge.RefArgs.kept_main_arg8 _),
     (h c Cert.ReferenceIdeal.main_arg9).trans (Cert.Bridge.RefArgs.kept_main_arg9 _),
     (h c Cert.ReferenceIdeal.main_arg10).trans (Cert.Bridge.RefArgs.kept_main_arg10 _)⟩)
    (Cert.Bridge.Ref.run_fold (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
